-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x256 : Shape := ⟨3, ![2, 2048, 256]⟩
abbrev S3x2048x2048 : Shape := ⟨3, ![3, 2048, 2048]⟩
abbrev S3x256x256 : Shape := ⟨3, ![3, 256, 256]⟩
abbrev S1x256 : Shape := ⟨2, ![1, 256]⟩
abbrev S_ : Shape := ⟨0, ![]⟩

class Facts : Prop where
  bcast_S_S2x2048x256 : S_.BroadcastsInDim S2x2048x256 (![] : Fin 0 → Fin S2x2048x256.rank)
  reducesTo_S2x2048x256_S_d0_1_2 : S2x2048x256.ReducesTo [0, 1, 2] S_
  h_S_ : 0 < S_.numel
  bcast_S_S3x2048x2048 : S_.BroadcastsInDim S3x2048x2048 (![] : Fin 0 → Fin S3x2048x2048.rank)
  reducesTo_S3x2048x2048_S_d0_1_2 : S3x2048x2048.ReducesTo [0, 1, 2] S_
  bcast_S_S3x256x256 : S_.BroadcastsInDim S3x256x256 (![] : Fin 0 → Fin S3x256x256.rank)
  reducesTo_S3x256x256_S_d0_1_2 : S3x256x256.ReducesTo [0, 1, 2] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg4 : FVec F S1x256 .f32) (main_v13 : IVec S_ 1) (main_v16 : IVec S3x256x256 1) : IVec S_ 1 :=
  let main_c_5 : IVec S_ 1 := constantI S_ 1 1#1
  let main_v17 : IVec S_ 1 := (fun x v => Host.reduce IntOp.andi x v reducesTo_S3x256x256_S_d0_1_2 h_S_) main_v16 main_c_5
  let main_v18 : IVec S_ 1 := andi main_v13 main_v17
  let main_v19 : FVec F S1x256 .f32 := Host.absf main_arg4
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  main_v23

def fn {F : FTy → Type} [FloatOps F] (main_arg0 : FVec F S2x2048x256 .f32) (main_arg1 : FVec F S3x2048x2048 .f32) (main_arg2 : FVec F S3x2048x2048 .f32) (main_arg3 : FVec F S3x256x256 .f32) (main_arg4 : FVec F S1x256 .f32) : IVec S_ 1 :=
  let main_v0 : FVec F S2x2048x256 .f32 := Host.absf main_arg0
  let main_cst : FVec F S_ .f32 := constant S_ .f32 0x7F800000#32
  let main_v1 : FVec F S2x2048x256 .f32 := broadcastInDim S2x2048x256 ![] bcast_S_S2x2048x256 main_cst
  let main_v2 : IVec S2x2048x256 1 := cmpf .olt main_v0 main_v1
  let main_c : IVec S_ 1 := constantI S_ 1 1#1
  let main_v3 : IVec S_ 1 := (fun x v => Host.reduce IntOp.andi x v reducesTo_S2x2048x256_S_d0_1_2 h_S_) main_v2 main_c
  let main_v4 : FVec F S3x2048x2048 .f32 := Host.absf main_arg1
  let main_cst_0 : FVec F S_ .f32 := constant S_ .f32 0x7F800000#32
  let main_v5 : FVec F S3x2048x2048 .f32 := broadcastInDim S3x2048x2048 ![] bcast_S_S3x2048x2048 main_cst_0
  let main_v6 : IVec S3x2048x2048 1 := cmpf .olt main_v4 main_v5
  let main_c_1 : IVec S_ 1 := constantI S_ 1 1#1
  let main_v7 : IVec S_ 1 := (fun x v => Host.reduce IntOp.andi x v reducesTo_S3x2048x2048_S_d0_1_2 h_S_) main_v6 main_c_1
  let main_v8 : IVec S_ 1 := andi main_v3 main_v7
  let main_v9 : FVec F S3x2048x2048 .f32 := Host.absf main_arg2
  let main_cst_2 : FVec F S_ .f32 := constant S_ .f32 0x7F800000#32
  let main_v10 : FVec F S3x2048x2048 .f32 := broadcastInDim S3x2048x2048 ![] bcast_S_S3x2048x2048 main_cst_2
  let main_v11 : IVec S3x2048x2048 1 := cmpf .olt main_v9 main_v10
  let main_c_3 : IVec S_ 1 := constantI S_ 1 1#1
  let main_v12 : IVec S_ 1 := (fun x v => Host.reduce IntOp.andi x v reducesTo_S3x2048x2048_S_d0_1_2 h_S_) main_v11 main_c_3
  let main_v13 : IVec S_ 1 := andi main_v8 main_v12
  let main_v14 : FVec F S3x256x256 .f32 := Host.absf main_arg3
  let main_cst_4 : FVec F S_ .f32 := constant S_ .f32 0x7F800000#32
  let main_v15 : FVec F S3x256x256 .f32 := broadcastInDim S3x256x256 ![] bcast_S_S3x256x256 main_cst_4
  let main_v16 : IVec S3x256x256 1 := cmpf .olt main_v14 main_v15
  fn_part1 (F := F) main_arg4 main_v13 main_v16
-- ==== Kernel.lean ====
abbrev S2x2048x256 : Shape := ⟨3, ![2, 2048, 256]⟩
abbrev S3x2048x2048 : Shape := ⟨3, ![3, 2048, 2048]⟩
abbrev S3x256x256 : Shape := ⟨3, ![3, 256, 256]⟩
abbrev S1x256 : Shape := ⟨2, ![1, 256]⟩
abbrev S2048x256 : Shape := ⟨2, ![2048, 256]⟩
abbrev S1x256x2048 : Shape := ⟨3, ![1, 256, 2048]⟩
abbrev S256x256 : Shape := ⟨2, ![256, 256]⟩
abbrev S3x2048x256 : Shape := ⟨3, ![3, 2048, 256]⟩
abbrev S1x2048x256 : Shape := ⟨3, ![1, 2048, 256]⟩
abbrev S1x256x256 : Shape := ⟨3, ![1, 256, 256]⟩
abbrev S256x2048 : Shape := ⟨2, ![256, 2048]⟩

abbrev nBuf : Space → Nat
  | .hbm => 7
  | .vmem => 13
  | .smem => 0
  | _ => 0

abbrev bufTy : (tb : Table) → Fin (tcTables nBuf tb) → BufTy
  | .hbm, ⟨0, _⟩ => ⟨S2x2048x256, .f32⟩
  | .hbm, ⟨1, _⟩ => ⟨S3x2048x2048, .f32⟩
  | .hbm, ⟨2, _⟩ => ⟨S3x2048x2048, .f32⟩
  | .hbm, ⟨3, _⟩ => ⟨S3x256x256, .f32⟩
  | .hbm, ⟨4, _⟩ => ⟨S1x256, .f32⟩
  | .hbm, ⟨5, _⟩ => ⟨S2048x256, .f32⟩
  | .hbm, ⟨6, _⟩ => ⟨S2048x256, .f32⟩
  | .local _ .vmem, ⟨0, _⟩ => ⟨S2x2048x256, .f32⟩
  | .local _ .vmem, ⟨1, _⟩ => ⟨S3x256x256, .f32⟩
  | .local _ .vmem, ⟨2, _⟩ => ⟨S1x256, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S3x2048x256, .bf16⟩
  | .local _ .vmem, ⟨12, _⟩ => ⟨S3x2048x256, .bf16⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 3], ![false, false]⟩

def k0_off1 (i : grid0.Coords) : Fin 3 → Nat :=
  let arg1 : BitVec 32 := BitVec.ofNat 32 (i 1).val
  let v11 : Index := Scalar.indexCast arg1
  let c0_7 : Index := 0#32
  let c0_8 : Index := 0#32
  ![v11.toNat, 0, 0]
def k0_cond2 (i : grid0.Coords) : BitVec 1 :=
  let arg1 : BitVec 32 := BitVec.ofNat 32 (i 1).val
  let c0_i32_14 : BitVec 32 := 0#32
  let v23 : BitVec 1 := Scalar.cmpi .eq arg1 c0_i32_14
  let v24 : BitVec 32 := Scalar.extui v23
  let c0_i32_15 : BitVec 32 := 0#32
  let v25 : BitVec 1 := Scalar.cmpi .ne v24 c0_i32_15
  v25

def k0_cond3 (i : grid0.Coords) : BitVec 1 :=
  let arg1 : BitVec 32 := BitVec.ofNat 32 (i 1).val
  let c0_i32_16 : BitVec 32 := 0#32
  let v26 : BitVec 1 := Scalar.cmpi .ne arg1 c0_i32_16
  let v27 : BitVec 32 := Scalar.extui v26
  let c0_i32_17 : BitVec 32 := 0#32
  let v28 : BitVec 1 := Scalar.cmpi .ne v27 c0_i32_17
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2x2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S3x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  inb_S2x2048x256_S1x2048x256_0_0_0 : ∀ a, (![0, 0, 0] : Fin 3 → Nat) a + S1x2048x256.size a ≤ S2x2048x256.size a
  h_S1x2048x256 : 0 < S1x2048x256.numel
  shapeCasts_S1x2048x256_S2048x256 : S1x2048x256.ShapeCasts S2048x256
  inb_S2x2048x256_S1x2048x256_1_0_0 : ∀ a, (![1, 0, 0] : Fin 3 → Nat) a + S1x2048x256.size a ≤ S2x2048x256.size a
  inb_S3x256x256_S1x256x256_0_0_0 : ∀ a, (![0, 0, 0] : Fin 3 → Nat) a + S1x256x256.size a ≤ S3x256x256.size a
  h_S1x256x256 : 0 < S1x256x256.numel
  shapeCasts_S1x256x256_S256x256 : S1x256x256.ShapeCasts S256x256
  bitsLt_bf16_f32 : FTy.bits .bf16 < FTy.bits .f32
  inb_S3x2048x256_S1x2048x256_0_0_0 : ∀ a, (![0, 0, 0] : Fin 3 → Nat) a + S1x2048x256.size a ≤ S3x2048x256.size a
  shapeCasts_S2048x256_S1x2048x256 : S2048x256.ShapeCasts S1x2048x256
  packedbf16_S3x2048x256_S1x2048x256_0_0_0 : (Rect.unit (s := S3x2048x256) ![0, 0, 0] S1x2048x256.size inb_S3x2048x256_S1x2048x256_0_0_0).PackedRows (EltTy.packing .bf16)
  inb_S3x256x256_S1x256x256_1_0_0 : ∀ a, (![1, 0, 0] : Fin 3 → Nat) a + S1x256x256.size a ≤ S3x256x256.size a
  inb_S3x2048x256_S1x2048x256_1_0_0 : ∀ a, (![1, 0, 0] : Fin 3 → Nat) a + S1x2048x256.size a ≤ S3x2048x256.size a
  packedbf16_S3x2048x256_S1x2048x256_1_0_0 : (Rect.unit (s := S3x2048x256) ![1, 0, 0] S1x2048x256.size inb_S3x2048x256_S1x2048x256_1_0_0).PackedRows (EltTy.packing .bf16)
  inb_S3x256x256_S1x256x256_2_0_0 : ∀ a, (![2, 0, 0] : Fin 3 → Nat) a + S1x256x256.size a ≤ S3x256x256.size a
  inb_S3x2048x256_S1x2048x256_2_0_0 : ∀ a, (![2, 0, 0] : Fin 3 → Nat) a + S1x2048x256.size a ≤ S3x2048x256.size a
  packedbf16_S3x2048x256_S1x2048x256_2_0_0 : (Rect.unit (s := S3x2048x256) ![2, 0, 0] S1x2048x256.size inb_S3x2048x256_S1x2048x256_2_0_0).PackedRows (EltTy.packing .bf16)
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x256_S1x256_0_0 : ∀ a, (![0, 0] : Fin 2 → Nat) a + S1x256.size a ≤ S1x256.size a
  h_S1x256 : 0 < S1x256.numel
  broadcasts_S1x256_S256x256 : S1x256.Broadcasts S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  dot_S2048x256_S256x256_S2048x256_1_0_0_1_n_n_wf : DotDims.WF S2048x256 S256x256 S2048x256 [1] [0] [0] [1] [] []
  dot_S256x2048_S2048x256_S256x256_1_0_0_1_n_n_wf : DotDims.WF S256x2048 S2048x256 S256x256 [1] [0] [0] [1] [] []
  hrank0 : 0 < grid0.rank
  k0_off1_inb : ∀ i : grid0.Coords, ∀ a, (k0_off1 i) a + S1x2048x256.size a ≤ S3x2048x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x2048x256.size a ≤ S2x2048x256.size a
  hwx0_0 : ∀ i : grid0.Coords, EltTy.bits .f32 = 32 ∨ (Rect.block (s := S2x2048x256) S2x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x256x256.size a ≤ S3x256x256.size a
  hwx0_1 : ∀ i : grid0.Coords, EltTy.bits .f32 = 32 ∨ (Rect.block (s := S3x256x256) S3x256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S3x2048x2048.size a
  hwx0_3 : ∀ i : grid0.Coords, EltTy.bits .f32 = 32 ∨ (Rect.block (s := S3x2048x2048) S1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S3x2048x2048.size a
  hwx0_4 : ∀ i : grid0.Coords, EltTy.bits .f32 = 32 ∨ (Rect.block (s := S3x2048x2048) S1x256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S2048x256.size a
  hwx0_5 : ∀ i : grid0.Coords, EltTy.bits .f32 = 32 ∨ (Rect.block (s := S2048x256) S256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S2048x256.size a
  hwx0_6 : ∀ i : grid0.Coords, EltTy.bits .f32 = 32 ∨ (Rect.block (s := S2048x256) S256x256.size (cc0_transform_6 i) (hinb0_6 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

abbrev win0_0 : Pipeline.Window sig grid0 :=
  Pipeline.Window.ofSpec (Memref.whole main_arg0) S2x2048x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S256x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S256x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) && !(k0_cond3 i == 1#1) | 6 => fun i => !(k0_cond2 i == 1#1) && !(k0_cond3 i == 1#1) | ⟨_ + 7, h⟩ => absurd h (Nat.not_lt.2 (Nat.le_add_left _ _))

class Facts : Prop extends Facts₀ where

variable [Facts]
-- ==== ReferenceIdeal.lean ====
abbrev S2x2048x256 : Shape := ⟨3, ![2, 2048, 256]⟩
abbrev S3x2048x2048 : Shape := ⟨3, ![3, 2048, 2048]⟩
abbrev S3x256x256 : Shape := ⟨3, ![3, 256, 256]⟩
abbrev S1x256 : Shape := ⟨2, ![1, 256]⟩
abbrev S1x2048x256 : Shape := ⟨3, ![1, 2048, 256]⟩
abbrev S2048x256 : Shape := ⟨2, ![2048, 256]⟩
abbrev S1x2048x2048 : Shape := ⟨3, ![1, 2048, 2048]⟩
abbrev S2048x2048 : Shape := ⟨2, ![2048, 2048]⟩
abbrev S1x256x256 : Shape := ⟨3, ![1, 256, 256]⟩
abbrev S256x256 : Shape := ⟨2, ![256, 256]⟩
abbrev S_ : Shape := ⟨0, ![]⟩
abbrev S1x2x2048x256 : Shape := ⟨4, ![1, 2, 2048, 256]⟩
abbrev S3x2x2048x256 : Shape := ⟨4, ![3, 2, 2048, 256]⟩

abbrev nBuf : Space → Nat
  | .hbm => 89
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S3x2048x2048, .f32⟩
  | .hbm, ⟨2, _⟩ => ⟨S3x2048x2048, .f32⟩
  | .hbm, ⟨3, _⟩ => ⟨S3x256x256, .f32⟩
  | .hbm, ⟨4, _⟩ => ⟨S1x256, .f32⟩
  | .hbm, ⟨5, _⟩ => ⟨S1x2048x256, .f32⟩
  | .hbm, ⟨6, _⟩ => ⟨S2048x256, .f32⟩
  | .hbm, ⟨7, _⟩ => ⟨S1x2048x256, .f32⟩
  | .hbm, ⟨8, _⟩ => ⟨S2048x256, .f32⟩
  | .hbm, ⟨9, _⟩ => ⟨S1x2048x2048, .f32⟩
  | .hbm, ⟨10, _⟩ => ⟨S2048x2048, .f32⟩
  | .hbm, ⟨11, _⟩ => ⟨S1x2048x2048, .f32⟩
  | .hbm, ⟨12, _⟩ => ⟨S2048x2048, .f32⟩
  | .hbm, ⟨13, _⟩ => ⟨S1x256x256, .f32⟩
  | .hbm, ⟨14, _⟩ => ⟨S256x256, .f32⟩
  | .hbm, ⟨15, _⟩ => ⟨S2048x256, .f32⟩
  | .hbm, ⟨16, _⟩ => ⟨S2048x256, .f32⟩
  | .hbm, ⟨17, _⟩ => ⟨S2048x256, .f32⟩
  | .hbm, ⟨18, _⟩ => ⟨S_, .f32⟩
  | .hbm, ⟨19, _⟩ => ⟨S2048x256, .f32⟩
  | .hbm, ⟨20, _⟩ => ⟨S2048x256, .f32⟩
  | .hbm, ⟨21, _⟩ => ⟨S2048x256, .f32⟩
  | .hbm, ⟨22, _⟩ => ⟨S2048x256, .f32⟩
  | .hbm, ⟨23, _⟩ => ⟨S2048x256, .f32⟩
  | .hbm, ⟨24, _⟩ => ⟨S2048x256, .f32⟩
  | .hbm, ⟨25, _⟩ => ⟨S2048x256, .f32⟩
  | .hbm, ⟨26, _⟩ => ⟨S2048x256, .f32⟩
  | .hbm, ⟨27, _⟩ => ⟨S2048x256, .f32⟩
  | .hbm, ⟨28, _⟩ => ⟨S1x2048x256, .f32⟩
  | .hbm, ⟨29, _⟩ => ⟨S1x2048x256, .f32⟩
  | .hbm, ⟨30, _⟩ => ⟨S2x2048x256, .f32⟩
  | .hbm, ⟨31, _⟩ => ⟨S1x2048x2048, .f32⟩
  | .hbm, ⟨32, _⟩ => ⟨S2048x2048, .f32⟩
  | .hbm, ⟨33, _⟩ => ⟨S1x2048x2048, .f32⟩
  | .hbm, ⟨34, _⟩ => ⟨S2048x2048, .f32⟩
  | .hbm, ⟨35, _⟩ => ⟨S1x256x256, .f32⟩
  | .hbm, ⟨36, _⟩ => ⟨S256x256, .f32⟩
  | .hbm, ⟨37, _⟩ => ⟨S2048x256, .f32⟩
  | .hbm, ⟨38, _⟩ => ⟨S2048x256, .f32⟩
  | .hbm, ⟨39, _⟩ => ⟨S2048x256, .f32⟩
  | .hbm, ⟨40, _⟩ => ⟨S_, .f32⟩
  | .hbm, ⟨41, _⟩ => ⟨S2048x256, .f32⟩
  | .hbm, ⟨42, _⟩ => ⟨S2048x256, .f32⟩
  | .hbm, ⟨43, _⟩ => ⟨S2048x256, .f32⟩
  | .hbm, ⟨44, _⟩ => ⟨S2048x256, .f32⟩
  | .hbm, ⟨45, _⟩ => ⟨S2048x256, .f32⟩
  | .hbm, ⟨46, _⟩ => ⟨S2048x256, .f32⟩
  | .hbm, ⟨47, _⟩ => ⟨S2048x256, .f32⟩
  | .hbm, ⟨48, _⟩ => ⟨S2048x256, .f32⟩
  | .hbm, ⟨49, _⟩ => ⟨S2048x256, .f32⟩
  | .hbm, ⟨50, _⟩ => ⟨S1x2048x256, .f32⟩
  | .hbm, ⟨51, _⟩ => ⟨S1x2048x256, .f32⟩
  | .hbm, ⟨52, _⟩ => ⟨S2x2048x256, .f32⟩
  | .hbm, ⟨53, _⟩ => ⟨S1x2048x2048, .f32⟩
  | .hbm, ⟨54, _⟩ => ⟨S2048x2048, .f32⟩
  | .hbm, ⟨55, _⟩ => ⟨S1x2048x2048, .f32⟩
  | .hbm, ⟨56, _⟩ => ⟨S2048x2048, .f32⟩
  | .hbm, ⟨57, _⟩ => ⟨S1x256x256, .f32⟩
  | .hbm, ⟨58, _⟩ => ⟨S256x256, .f32⟩
  | .hbm, ⟨59, _⟩ => ⟨S2048x256, .f32⟩
  | .hbm, ⟨60, _⟩ => ⟨S2048x256, .f32⟩
  | .hbm, ⟨61, _⟩ => ⟨S2048x256, .f32⟩
  | .hbm, ⟨62, _⟩ => ⟨S_, .f32⟩
  | .hbm, ⟨63, _⟩ => ⟨S2048x256, .f32⟩
  | .hbm, ⟨64, _⟩ => ⟨S2048x256, .f32⟩
  | .hbm, ⟨65, _⟩ => ⟨S2048x256, .f32⟩
  | .hbm, ⟨66, _⟩ => ⟨S2048x256, .f32⟩
  | .hbm, ⟨67, _⟩ => ⟨S2048x256, .f32⟩
  | .hbm, ⟨68, _⟩ => ⟨S2048x256, .f32⟩
  | .hbm, ⟨69, _⟩ => ⟨S2048x256, .f32⟩
  | .hbm, ⟨70, _⟩ => ⟨S2048x256, .f32⟩
  | .hbm, ⟨71, _⟩ => ⟨S2048x256, .f32⟩
  | .hbm, ⟨72, _⟩ => ⟨S1x2048x256, .f32⟩
  | .hbm, ⟨73, _⟩ => ⟨S1x2048x256, .f32⟩
  | .hbm, ⟨74, _⟩ => ⟨S2x2048x256, .f32⟩
  | .hbm, ⟨75, _⟩ => ⟨S1x2x2048x256, .f32⟩
  | .hbm, ⟨76, _⟩ => ⟨S1x2x2048x256, .f32⟩
  | .hbm, ⟨77, _⟩ => ⟨S1x2x2048x256, .f32⟩
  | .hbm, ⟨78, _⟩ => ⟨S3x2x2048x256, .f32⟩
  | .hbm, ⟨79, _⟩ => ⟨S_, .f32⟩
  | .hbm, ⟨80, _⟩ => ⟨S2x2048x256, .f32⟩
  | .hbm, ⟨81, _⟩ => ⟨S1x2048x256, .f32⟩
  | .hbm, ⟨82, _⟩ => ⟨S2048x256, .f32⟩
  | .hbm, ⟨83, _⟩ => ⟨S1x2048x256, .f32⟩
  | .hbm, ⟨84, _⟩ => ⟨S2048x256, .f32⟩
  | .hbm, ⟨85, _⟩ => ⟨S2048x256, .f32⟩
  | .hbm, ⟨86, _⟩ => ⟨S2048x256, .f32⟩
  | .hbm, ⟨87, _⟩ => ⟨S2048x256, .f32⟩
  | .hbm, ⟨88, _⟩ => ⟨S2048x256, .f32⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_0 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_cst_1 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_cst_2 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩

abbrev nD : Nat := 1
abbrev τ : Topo := Topo.v7x

variable {F : FTy → Type} [FloatOps F]

class Facts₀ : Prop where
  slices_S2x2048x256_S1x2048x256_0_0_0 : S2x2048x256.Slices ![0, 0, 0] S1x2048x256
  shapeCasts_S1x2048x256_S2048x256 : S1x2048x256.ShapeCasts S2048x256
  slices_S2x2048x256_S1x2048x256_1_0_0 : S2x2048x256.Slices ![1, 0, 0] S1x2048x256
  slices_S3x2048x2048_S1x2048x2048_0_0_0 : S3x2048x2048.Slices ![0, 0, 0] S1x2048x2048
  shapeCasts_S1x2048x2048_S2048x2048 : S1x2048x2048.ShapeCasts S2048x2048
  slices_S3x256x256_S1x256x256_0_0_0 : S3x256x256.Slices ![0, 0, 0] S1x256x256
  shapeCasts_S1x256x256_S256x256 : S1x256x256.ShapeCasts S256x256
  bcast_S_S2048x256 : S_.BroadcastsInDim S2048x256 (![] : Fin 0 → Fin S2048x256.rank)
  bcast_S2048x256_S1x2048x256_1_2 : S2048x256.BroadcastsInDim S1x2048x256 (![1, 2] : Fin 2 → Fin S1x2048x256.rank)
  concatenates_S1x2048x256_S1x2048x256_S2x2048x256_d0 : Shape.Concatenates [S1x2048x256, S1x2048x256] S2x2048x256 0
  slices_S3x2048x2048_S1x2048x2048_1_0_0 : S3x2048x2048.Slices ![1, 0, 0] S1x2048x2048
  slices_S3x256x256_S1x256x256_1_0_0 : S3x256x256.Slices ![1, 0, 0] S1x256x256
  slices_S3x2048x2048_S1x2048x2048_2_0_0 : S3x2048x2048.Slices ![2, 0, 0] S1x2048x2048
  slices_S3x256x256_S1x256x256_2_0_0 : S3x256x256.Slices ![2, 0, 0] S1x256x256
  bcast_S2x2048x256_S1x2x2048x256_1_2_3 : S2x2048x256.BroadcastsInDim S1x2x2048x256 (![1, 2, 3] : Fin 3 → Fin S1x2x2048x256.rank)
  concatenates_S1x2x2048x256_S1x2x2048x256_S1x2x2048x256_S3x2x2048x256_d0 : Shape.Concatenates [S1x2x2048x256, S1x2x2048x256, S1x2x2048x256] S3x2x2048x256 0
  reducesTo_S3x2x2048x256_S2x2048x256_d0 : S3x2x2048x256.ReducesTo [0] S2x2048x256
  h_S_ : 0 < S_.numel
  bcast_S1x256_S2048x256_0_1 : S1x256.BroadcastsInDim S2048x256 (![0, 1] : Fin 2 → Fin S2048x256.rank)
  dot_S2048x2048_S2048x256_S2048x256_1_0_0_1_n_n_wf : DotDims.WF S2048x2048 S2048x256 S2048x256 [1] [0] [0] [1] [] []
  dot_S2048x256_S256x256_S2048x256_1_0_0_1_n_n_wf : DotDims.WF S2048x256 S256x256 S2048x256 [1] [0] [0] [1] [] []

variable [Facts₀]

def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

class Facts : Prop extends Facts₀ where

variable [Facts]
-- ==== Proof.K.Runs.lean ====
/-
  The three control cases of the fused graph-convolution body, and what all of them share.
  The grid is 8 row tiles by 3 orders, the order innermost, so point `t` is tile `t / 3` at order `t % 3`.
  The body branches three times on the coordinates: at the very first point it fills the two scratch
  arrays with the products X·W[k] (both halves of X, all three orders); at order 0 it stores the tile's
  two partial results plus the bias row; at a later order it adds the partial results to what the
  output buffers hold.  So a point is in exactly one of three cases: the first point (fill, then
  store), order 0 of a later tile (store), a later order (accumulate).
-/
import proofs.«171784_g38809324486710_cont_sun_c4_445_3_alg».proof.Proof.Gen.Kernel.Frame
import proofs.«171784_g38809324486710_cont_sun_c4_445_3_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The first branch: both coordinates are zero. -/
abbrev condFill (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcondFill : ∀ t : Fin cfg0.N, condFill (grid0.coords t) ↔ t.val = 0 :=
  (by decide +kernel : ∀ t : Fin grid0.N, condFill (grid0.coords t) ↔ t.val = 0)

/-- The second branch: the order is zero. -/
abbrev condFirst (i : grid0.Coords) : Prop := k0_cond2 i = 1#1
/-- It holds at the first order of every tile. -/
theorem hcondFirst : ∀ t : Fin cfg0.N, condFirst (grid0.coords t) ↔ t.val % 3 = 0 :=
  (by decide +kernel : ∀ t : Fin grid0.N, condFirst (grid0.coords t) ↔ t.val % 3 = 0)

/-- The third branch: the order is not zero. -/
abbrev condAcc (i : grid0.Coords) : Prop := k0_cond3 i = 1#1
/-- It holds at the later orders of every tile. -/
theorem hcondAcc : ∀ t : Fin cfg0.N, condAcc (grid0.coords t) ↔ ¬ t.val % 3 = 0 :=
  (by decide +kernel : ∀ t : Fin grid0.N, condAcc (grid0.coords t) ↔ ¬ t.val % 3 = 0)

/-- The slab of a scratch array the body reads at a point is the one of the point's order. -/
theorem hoff : ∀ t : Fin cfg0.N, k0_off1 (grid0.coords t) = ![t.val % 3, 0, 0] :=
  (by decide +kernel : ∀ t : Fin grid0.N, k0_off1 (grid0.coords t) = ![t.val % 3, 0, 0])

/-! ## No window is ever idle -/

theorem liveAll (w : Fin cfg0.W) : ∀ i : grid0.Coords, cfg0.idle w i = false := by
  intro i
  have h : ∀ k : Fin 3, (!(Scalar.cmpi .ne (Scalar.extui (Scalar.cmpi .eq (BitVec.ofNat 32 k.val) 0#32)) 0#32 == 1#1)
      && !(Scalar.cmpi .ne (Scalar.extui (Scalar.cmpi .ne (BitVec.ofNat 32 k.val) 0#32)) 0#32 == 1#1)) = false := by decide
  match w with
  | ⟨0, _⟩ => rfl
  | ⟨1, _⟩ => rfl
  | ⟨2, _⟩ => rfl
  | ⟨3, _⟩ => rfl
  | ⟨4, _⟩ => rfl
  | ⟨5, _⟩ => exact h (i 1)
  | ⟨6, _⟩ => exact h (i 1)

/-! ## The staging memrefs the pipeline passes, and the scratch operands -/

abbrev ms0 (t : Fin cfg0.N) : Memref sig .tc .vmem S2x2048x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S3x256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x256 .f32 := win0_6.stage (cfg0.slots t 6)
abbrev hs6 (t : Fin cfg0.N) : (ms6 t).IsWhole := hstage0_6 ((cfg0.slots t 6).cast nbuf0_6)

/-- The two scratch arrays: whole scoped buffers of the kernel's own. -/
abbrev scA : Memref sig .tc .vmem S3x2048x256 .bf16 := Memref.whole cc0_scratch0
abbrev scB : Memref sig .tc .vmem S3x2048x256 .bf16 := Memref.whole cc0_scratch1
/-- Views through which the contents of an output tile and of a scratch array are stated. -/
abbrev VO : View sig .tc .vmem S256x256 .f32 := (Memref.whole cc0_stg5_0 : Memref sig .tc .vmem S256x256 .f32).view
abbrev VS : View sig .tc .vmem S3x2048x256 .bf16 := scA.view

/-- What the region owns beside the windows: the two scratch arrays at some contents and the
    generator register at some state. -/
theorem PhiA_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

end Cert.Kernel.Body

end
-- ==== Proof.K.RunC.lean ====
/-
  The body at a later order of a tile: it reads the tile's rows of the two operators, the order's slab
  of each scratch array, and the two output buffers as the order before left them, and stores each
  buffer plus its partial result.  The scratch arrays and the inputs are handed back as they were.
-/
import proofs.«171784_g38809324486710_cont_sun_c4_445_3_alg».proof.Proof.K.Runs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the accumulating case leaves in the two output buffers, with the run that finds them. -/
noncomputable def runAcc (c : Dev nD) (i : grid0.Coords) (arg2 : Memref sig .tc .vmem S2x2048x256 .f32) (harg2 : arg2.IsWhole) (arg3 : Memref sig .tc .vmem S3x256x256 .f32) (harg3 : arg3.IsWhole) (arg4 : Memref sig .tc .vmem S1x256 .f32) (harg4 : arg4.IsWhole) (arg5 : Memref sig .tc .vmem S1x256x2048 .f32) (harg5 : arg5.IsWhole) (arg6 : Memref sig .tc .vmem S1x256x2048 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S3x2048x256 .bf16) (harg9 : arg9.IsWhole) (arg10 : Memref sig .tc .vmem S3x2048x256 .bf16) (harg10 : arg10.IsWhole) (hc0 : ¬condFill i) (hc1 : ¬condFirst i) (hc2 : condAcc i)
    (x0 : Vec F S2x2048x256 .f32) (x1 : Vec F S3x256x256 .f32) (x2 : Vec F S1x256 .f32) (x3 : Vec F S1x256x2048 .f32) (x4 : Vec F S1x256x2048 .f32) (xo5 xo6 : Vec F S256x256 .f32) (xs0 xs1 : Vec F S3x2048x256 .bf16) :
    Σ' (L5 : List (View.Piece (Elt F) S256x256 .f32)), { L6 : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ owns (c : Thread nD τ) arg8 fullShare xo6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xs0 ∗ owns (c : Thread nD τ) arg10 fullShare xs1) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hf8
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _; isplitr; · ipureintro; exact harg9.read_unread _
      iexact H7
    iexists _; isplitr; · ipureintro; exact harg10.read_unread _
    iexact H8

end Cert.Kernel.Body

end
-- ==== Proof.K.RunB.lean ====
/-
  The body at order 0 of a tile other than the first: it reads the tile's rows of the two operators and
  slab 0 of each scratch array, and stores into each output buffer its partial result plus the bias
  row, whatever the buffer held.  The scratch arrays and the inputs are handed back as they were.
-/
import proofs.«171784_g38809324486710_cont_sun_c4_445_3_alg».proof.Proof.K.RunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the storing case leaves in the two output buffers, with the run that finds them. -/
noncomputable def runFirst (c : Dev nD) (i : grid0.Coords) (arg2 : Memref sig .tc .vmem S2x2048x256 .f32) (harg2 : arg2.IsWhole) (arg3 : Memref sig .tc .vmem S3x256x256 .f32) (harg3 : arg3.IsWhole) (arg4 : Memref sig .tc .vmem S1x256 .f32) (harg4 : arg4.IsWhole) (arg5 : Memref sig .tc .vmem S1x256x2048 .f32) (harg5 : arg5.IsWhole) (arg6 : Memref sig .tc .vmem S1x256x2048 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S3x2048x256 .bf16) (harg9 : arg9.IsWhole) (arg10 : Memref sig .tc .vmem S3x2048x256 .bf16) (harg10 : arg10.IsWhole) (hc0 : ¬condFill i) (hc1 : condFirst i) (hc2 : ¬condAcc i)
    (x0 : Vec F S2x2048x256 .f32) (x1 : Vec F S3x256x256 .f32) (x2 : Vec F S1x256 .f32) (x3 : Vec F S1x256x2048 .f32) (x4 : Vec F S1x256x2048 .f32) (xs0 xs1 : Vec F S3x2048x256 .bf16) :
    Σ' (L5 : List (View.Piece (Elt F) S256x256 .f32)), { L6 : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xs0 ∗ owns (c : Thread nD τ) arg10 fullShare xs1) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
    obtain rfl := harg2.eq_unread hf0; obtain rfl := harg3.eq_unread hf1; obtain rfl := harg4.eq_unread hf2
    obtain rfl := harg5.eq_unread hf3; obtain rfl := harg6.eq_unread hf4
    obtain rfl := harg9.eq_unread hf7; obtain rfl := harg10.eq_unread hf8
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _; isplitr; · ipureintro; exact harg9.read_unread _
      iexact H7
    iexists _; isplitr; · ipureintro; exact harg10.read_unread _
    iexact H8

end Cert.Kernel.Body

end
-- ==== Proof.K.RunA.lean ====
/-
  The body at the very first point: it fills the three slabs of each scratch array with the products
  of the two halves of the features with the three weight matrices, whatever the arrays held, then
  proceeds as at order 0 of any tile, reading slab 0 of what it has just stored.
-/
import proofs.«171784_g38809324486710_cont_sun_c4_445_3_alg».proof.Proof.K.RunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the filling case leaves in the two output buffers and in the two scratch arrays, with
    the run that finds them. -/
noncomputable def runFill (c : Dev nD) (i : grid0.Coords) (arg2 : Memref sig .tc .vmem S2x2048x256 .f32) (harg2 : arg2.IsWhole) (arg3 : Memref sig .tc .vmem S3x256x256 .f32) (harg3 : arg3.IsWhole) (arg4 : Memref sig .tc .vmem S1x256 .f32) (harg4 : arg4.IsWhole) (arg5 : Memref sig .tc .vmem S1x256x2048 .f32) (harg5 : arg5.IsWhole) (arg6 : Memref sig .tc .vmem S1x256x2048 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S3x2048x256 .bf16) (harg9 : arg9.IsWhole) (arg10 : Memref sig .tc .vmem S3x2048x256 .bf16) (harg10 : arg10.IsWhole) (hc0 : condFill i) (hc1 : condFirst i) (hc2 : ¬condAcc i)
    (x0 : Vec F S2x2048x256 .f32) (x1 : Vec F S3x256x256 .f32) (x2 : Vec F S1x256 .f32) (x3 : Vec F S1x256x2048 .f32) (x4 : Vec F S1x256x2048 .f32) :
    Σ' (L5 : List (View.Piece (Elt F) S256x256 .f32)) (L6 : List (View.Piece (Elt F) S256x256 .f32)) (LS0 : List (View.Piece (Elt F) S3x2048x256 .bf16)), { LS1 : List (View.Piece (Elt F) S3x2048x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; iexact H8

end Cert.Kernel.Body

end
-- ==== Proof.K.Data.lean ====
/-
  What the two output buffers and the two scratch arrays hold after every grid point, the proof data of
  the pipeline built from it, the body's obligation at every point, and the run of the whole program.
  After the first point the scratch arrays hold the six products X_h·W_k and never change again; an
  output buffer holds, after order k of a tile, the sum of the tile's terms of orders 0..k plus the bias.
-/
import proofs.«171784_g38809324486710_cont_sun_c4_445_3_alg».proof.Proof.K.RunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

theorem fill_c0 (t : Fin cfg0.N) (h : t.val = 0) : condFill (grid0.coords t) := (hcondFill t).mpr h
theorem fill_c1 (t : Fin cfg0.N) (h : t.val = 0) : condFirst (grid0.coords t) := (hcondFirst t).mpr (by omega)
theorem fill_c2 (t : Fin cfg0.N) (h : t.val = 0) : ¬condAcc (grid0.coords t) := fun hc => (hcondAcc t).mp hc (by omega)
theorem fill_slab (t : Fin cfg0.N) (h : t.val = 0) : k0_off1 (grid0.coords t) = ![0, 0, 0] := by rw [hoff t, h]
theorem first_c0 (t : Fin cfg0.N) (h : t.val ≠ 0) : ¬condFill (grid0.coords t) := fun hc => h ((hcondFill t).mp hc)
theorem first_c1 (t : Fin cfg0.N) (h : t.val % 3 = 0) : condFirst (grid0.coords t) := (hcondFirst t).mpr h
theorem first_c2 (t : Fin cfg0.N) (h : t.val % 3 = 0) : ¬condAcc (grid0.coords t) := fun hc => (hcondAcc t).mp hc h
theorem acc_c0 (t : Fin cfg0.N) (h : ¬t.val % 3 = 0) : ¬condFill (grid0.coords t) := fun hc => h (by have := (hcondFill t).mp hc; omega)
theorem acc_c1 (t : Fin cfg0.N) (h : ¬t.val % 3 = 0) : ¬condFirst (grid0.coords t) := fun hc => h ((hcondFirst t).mp hc)
theorem acc_c2 (t : Fin cfg0.N) (h : ¬t.val % 3 = 0) : condAcc (grid0.coords t) := (hcondAcc t).mpr h

/-! ## The three runs at a point of the grid -/

/-- A list of stored pieces read back as the contents of an output tile. -/
def rdO (L : List (View.Piece (Elt F) S256x256 .f32)) : Vec F S256x256 .f32 := VO.read (Elt F) (VO.writes (Elt F) VO.junk L)
/-- A list of stored pieces read back as the contents of a scratch array. -/
def rdS (L : List (View.Piece (Elt F) S3x2048x256 .bf16)) : Vec F S3x2048x256 .bf16 := VS.read (Elt F) (VS.writes (Elt F) VS.junk L)

def fillAt (c : Dev nD) (t : Fin cfg0.N) (h : t.val = 0) :=
  runFill (F := F) c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scB (Memref.isWhole_whole _) (fill_c0 t h) (fill_c1 t h) (fill_c2 t h) (iblk m c 0 t) (iblk m c 1 t) (iblk m c 2 t) (iblk m c 3 t) (iblk m c 4 t)
def firstAt (c : Dev nD) (t : Fin cfg0.N) (hz : t.val ≠ 0) (h : t.val % 3 = 0) (xs0 xs1 : Vec F S3x2048x256 .bf16) :=
  runFirst (F := F) c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scB (Memref.isWhole_whole _) (first_c0 t hz) (first_c1 t h) (first_c2 t h) (iblk m c 0 t) (iblk m c 1 t) (iblk m c 2 t) (iblk m c 3 t) (iblk m c 4 t) xs0 xs1
def accAt (c : Dev nD) (t : Fin cfg0.N) (h : ¬t.val % 3 = 0) (xo5 xo6 : Vec F S256x256 .f32) (xs0 xs1 : Vec F S3x2048x256 .bf16) :=
  runAcc (F := F) c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scB (Memref.isWhole_whole _) (acc_c0 t h) (acc_c1 t h) (acc_c2 t h) (iblk m c 0 t) (iblk m c 1 t) (iblk m c 2 t) (iblk m c 3 t) (iblk m c 4 t) xo5 xo6 xs0 xs1

/-! ## Every case's stores cover what they are read back from -/

theorem coverFill5 (c : Dev nD) (t : Fin cfg0.N) (h : t.val = 0) (y : S256x256.Idx) : ∃ pc ∈ (fillAt m c t h).1, y ∈ pc.1.set :=
  View.cover_of_tiledL (fillAt m c t h).1 S256x256.size (by sl_kernel_rfl) y
theorem coverFill6 (c : Dev nD) (t : Fin cfg0.N) (h : t.val = 0) (y : S256x256.Idx) : ∃ pc ∈ (fillAt m c t h).2.1, y ∈ pc.1.set :=
  View.cover_of_tiledL (fillAt m c t h).2.1 S256x256.size (by sl_kernel_rfl) y
theorem coverFillA (c : Dev nD) (t : Fin cfg0.N) (h : t.val = 0) (y : S3x2048x256.Idx) : ∃ pc ∈ (fillAt m c t h).2.2.1, y ∈ pc.1.set :=
  View.cover_of_tiledL (fillAt m c t h).2.2.1 S1x2048x256.size (by sl_kernel_rfl) y
theorem coverFillB (c : Dev nD) (t : Fin cfg0.N) (h : t.val = 0) (y : S3x2048x256.Idx) : ∃ pc ∈ (fillAt m c t h).2.2.2.1, y ∈ pc.1.set :=
  View.cover_of_tiledL (fillAt m c t h).2.2.2.1 S1x2048x256.size (by sl_kernel_rfl) y
theorem coverFirst5 (c : Dev nD) (t : Fin cfg0.N) (hz : t.val ≠ 0) (h : t.val % 3 = 0) (xs0 xs1 : Vec F S3x2048x256 .bf16) (y : S256x256.Idx) :
    ∃ pc ∈ (firstAt m c t hz h xs0 xs1).1, y ∈ pc.1.set :=
  View.cover_of_tiledL (firstAt m c t hz h xs0 xs1).1 S256x256.size (by sl_kernel_rfl) y
theorem coverFirst6 (c : Dev nD) (t : Fin cfg0.N) (hz : t.val ≠ 0) (h : t.val % 3 = 0) (xs0 xs1 : Vec F S3x2048x256 .bf16) (y : S256x256.Idx) :
    ∃ pc ∈ (firstAt m c t hz h xs0 xs1).2.1, y ∈ pc.1.set :=
  View.cover_of_tiledL (firstAt m c t hz h xs0 xs1).2.1 S256x256.size (by sl_kernel_rfl) y
theorem coverAcc5 (c : Dev nD) (t : Fin cfg0.N) (h : ¬t.val % 3 = 0) (xo5 xo6 : Vec F S256x256 .f32) (xs0 xs1 : Vec F S3x2048x256 .bf16) (y : S256x256.Idx) :
    ∃ pc ∈ (accAt m c t h xo5 xo6 xs0 xs1).1, y ∈ pc.1.set :=
  View.cover_of_tiledL (accAt m c t h xo5 xo6 xs0 xs1).1 S256x256.size (by sl_kernel_rfl) y
theorem coverAcc6 (c : Dev nD) (t : Fin cfg0.N) (h : ¬t.val % 3 = 0) (xo5 xo6 : Vec F S256x256 .f32) (xs0 xs1 : Vec F S3x2048x256 .bf16) (y : S256x256.Idx) :
    ∃ pc ∈ (accAt m c t h xo5 xo6 xs0 xs1).2.1, y ∈ pc.1.set :=
  View.cover_of_tiledL (accAt m c t h xo5 xo6 xs0 xs1).2.1 S256x256.size (by sl_kernel_rfl) y

/-! ## The buffers after each point -/

/-- The two output buffers and the two scratch arrays after the body at position `n`: at the first
    point what the filling run stores; at order 0 of a later tile what the storing run stores, the
    scratch arrays as the point before left them; at a later order what the accumulating run stores over
    what the point before left in the output buffers, the scratch arrays again unchanged. -/
def outsAt (c : Dev nD) : (n : ℕ) → n < cfg0.N → Vec F S256x256 .f32 × Vec F S256x256 .f32 × Vec F S3x2048x256 .bf16 × Vec F S3x2048x256 .bf16
  | 0, hn => (rdO (fillAt m c ⟨0, hn⟩ rfl).1, rdO (fillAt m c ⟨0, hn⟩ rfl).2.1, rdS (fillAt m c ⟨0, hn⟩ rfl).2.2.1, rdS (fillAt m c ⟨0, hn⟩ rfl).2.2.2.1)
  | n + 1, hn =>
    if h : (n + 1) % 3 = 0 then
      (rdO (firstAt m c ⟨n + 1, hn⟩ (Nat.succ_ne_zero n) h (outsAt c n (Nat.lt_of_succ_lt hn)).2.2.1 (outsAt c n (Nat.lt_of_succ_lt hn)).2.2.2).1,
       rdO (firstAt m c ⟨n + 1, hn⟩ (Nat.succ_ne_zero n) h (outsAt c n (Nat.lt_of_succ_lt hn)).2.2.1 (outsAt c n (Nat.lt_of_succ_lt hn)).2.2.2).2.1,
       (outsAt c n (Nat.lt_of_succ_lt hn)).2.2.1, (outsAt c n (Nat.lt_of_succ_lt hn)).2.2.2)
    else
      (rdO (accAt m c ⟨n + 1, hn⟩ h (outsAt c n (Nat.lt_of_succ_lt hn)).1 (outsAt c n (Nat.lt_of_succ_lt hn)).2.1 (outsAt c n (Nat.lt_of_succ_lt hn)).2.2.1 (outsAt c n (Nat.lt_of_succ_lt hn)).2.2.2).1,
       rdO (accAt m c ⟨n + 1, hn⟩ h (outsAt c n (Nat.lt_of_succ_lt hn)).1 (outsAt c n (Nat.lt_of_succ_lt hn)).2.1 (outsAt c n (Nat.lt_of_succ_lt hn)).2.2.1 (outsAt c n (Nat.lt_of_succ_lt hn)).2.2.2).2.1,
       (outsAt c n (Nat.lt_of_succ_lt hn)).2.2.1, (outsAt c n (Nat.lt_of_succ_lt hn)).2.2.2)

/-- The point before `t`. -/
abbrev prevLt (t : Fin cfg0.N) : t.val - 1 < cfg0.N := Nat.lt_of_le_of_lt (Nat.sub_le _ _) t.isLt

theorem outsAt_fill (c : Dev nD) (t : Fin cfg0.N) (h : t.val = 0) :
    outsAt m c t.val t.isLt = (rdO (fillAt m c t h).1, rdO (fillAt m c t h).2.1, rdS (fillAt m c t h).2.2.1, rdS (fillAt m c t h).2.2.2.1) := by
  obtain ⟨n, hn⟩ := t
  cases n with
  | zero => rfl
  | succ n => exact absurd h (Nat.succ_ne_zero n)

theorem outsAt_first (c : Dev nD) (t : Fin cfg0.N) (hz : t.val ≠ 0) (h : t.val % 3 = 0) :
    outsAt m c t.val t.isLt =
      (rdO (firstAt m c t hz h (outsAt m c (t.val - 1) (prevLt t)).2.2.1 (outsAt m c (t.val - 1) (prevLt t)).2.2.2).1,
       rdO (firstAt m c t hz h (outsAt m c (t.val - 1) (prevLt t)).2.2.1 (outsAt m c (t.val - 1) (prevLt t)).2.2.2).2.1,
       (outsAt m c (t.val - 1) (prevLt t)).2.2.1, (outsAt m c (t.val - 1) (prevLt t)).2.2.2) := by
  obtain ⟨n, hn⟩ := t
  cases n with
  | zero => exact absurd rfl hz
  | succ n => exact (dif_pos h).trans rfl

theorem outsAt_acc (c : Dev nD) (t : Fin cfg0.N) (h : ¬t.val % 3 = 0) :
    outsAt m c t.val t.isLt =
      (rdO (accAt m c t h (outsAt m c (t.val - 1) (prevLt t)).1 (outsAt m c (t.val - 1) (prevLt t)).2.1 (outsAt m c (t.val - 1) (prevLt t)).2.2.1 (outsAt m c (t.val - 1) (prevLt t)).2.2.2).1,
       rdO (accAt m c t h (outsAt m c (t.val - 1) (prevLt t)).1 (outsAt m c (t.val - 1) (prevLt t)).2.1 (outsAt m c (t.val - 1) (prevLt t)).2.2.1 (outsAt m c (t.val - 1) (prevLt t)).2.2.2).2.1,
       (outsAt m c (t.val - 1) (prevLt t)).2.2.1, (outsAt m c (t.val - 1) (prevLt t)).2.2.2) := by
  obtain ⟨n, hn⟩ := t
  cases n with
  | zero => exact absurd (Nat.zero_mod 3) h
  | succ n => exact (dif_neg h).trans rfl

/-! ## The region's invariant between points -/

/-- Before the first point the scratch arrays hold anything; afterwards what the point before left. -/
def PhiS (c : Dev nD) : (n : ℕ) → n ≤ cfg0.N → sProp 𝕄
  | 0, _ => Pipeline.ΦA spec0 c
  | n + 1, hn => iprop(iprop(owns (c : Thread nD τ) scA fullShare ((outsAt m c n hn).2.2.1) ∗ owns (c : Thread nD τ) scB fullShare ((outsAt m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scA fullShare ((outsAt m c n hn).2.2.1) ∗ owns (c : Thread nD τ) scB fullShare ((outsAt m c n hn).2.2.2)) ∗ (∃ r, prngReg c r)) := rfl

theorem PhiS_pos (c : Dev nD) (n : ℕ) (h : n ≤ cfg0.N) (hz : n ≠ 0) :
    PhiS m c n h = iprop(iprop(owns (c : Thread nD τ) scA fullShare ((outsAt m c (n - 1) (by omega)).2.2.1) ∗ owns (c : Thread nD τ) scB fullShare ((outsAt m c (n - 1) (by omega)).2.2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
    | ⟨6, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (outsAt m c t.val t.isLt).1 := by dsimp only [dats]
theorem after_6 (c : Dev nD) (t : Fin cfg0.N) : (dats m 0 c).after 6 t = (outsAt m c t.val t.isLt).2.1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- At a later order an output buffer holds what the order before left: the point is not the first, and
    the buffer is written back only after a tile's last order. -/
theorem before_5_acc (c : Dev nD) (t : Fin cfg0.N) (h : ¬t.val % 3 = 0) (d) :
    (dats m 0 c).before 5 t d = (outsAt m c (t.val - 1) (prevLt t)).1 := by
  rw [Dat.before_out_kept _ 5 rfl t (by omega) (Bool.eq_false_iff.mpr fun hf => by have := (flush0_5 _).mp hf; dsimp only at this; omega)
    (liveAll 5) (fun _ _ => rfl)]
  dsimp only [dats]
theorem before_6_acc (c : Dev nD) (t : Fin cfg0.N) (h : ¬t.val % 3 = 0) (d) :
    (dats m 0 c).before 6 t d = (outsAt m c (t.val - 1) (prevLt t)).2.1 := by
  rw [Dat.before_out_kept _ 6 rfl t (by omega) (Bool.eq_false_iff.mpr fun hf => by have := (flush0_6 _).mp hf; dsimp only at this; omega)
    (liveAll 6) (fun _ _ => rfl)]
  dsimp only [dats]

/-- No window is idle anywhere: the body leaves every staging buffer at the proof data's contents. -/
theorem leaves_live (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [liveAll w (grid0.coords t)]

end Cert.Kernel.Body

end
-- ==== Proof.K.Body.lean ====
/-
  The body's obligation at every grid point, by the point's case, and the run of the whole program:
  every execution ends with each output array holding what the pipeline wrote back from the buffers
  stated point by point, and the argument arrays unchanged.
-/
import proofs.«171784_g38809324486710_cont_sun_c4_445_3_alg».proof.Proof.K.Data

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point: the inputs' buffers hold their blocks; the point's case selects the run; at a
    later order the output buffers hold what the order before left; the scratch arrays are handed in at
    anything at the first point and at what the point before left afterwards, and handed back at this
    point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  rw [leaves_live m c 0 t, leaves_live m c 1 t, leaves_live m c 2 t, leaves_live m c 3 t, leaves_live m c 4 t, leaves_live m c 5 t, leaves_live m c 6 t,
    after_0, after_1, after_2, after_3, after_4, after_5, after_6]
  have hN : t.val < 24 := lt_of_lt_of_eq t.isLt (show cfg0.N = 24 from N_0)
  by_cases h0 : t.val = 0
  · rw [outsAt_fill m c t h0]; dsimp only
    rw [PhiS_castSucc m c t, PhiS_zero m c _ _ h0, PhiA_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((fillAt m c t h0).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, ⟨%e5, H5⟩, ⟨%e6, H6⟩, ⟨%es0, HS0⟩, ⟨%es1, HS1⟩⟩
    isplitl [HS0 HS1 Hg]
    · isplitl [HS0 HS1]
      · isplitl [HS0]
        · unfold owns rdS; iexists _; isplitr
          swap; · iexact HS0
          ipureintro; exact View.read_writes_of_cover _ _ _ _ _ (coverFillA m c t h0)
        · unfold owns rdS; iexists _; isplitr
          swap; · iexact HS1
          ipureintro; exact View.read_writes_of_cover _ _ _ _ _ (coverFillB m c t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns rdO; iexists _; isplitr
      swap; · iexact H5
      ipureintro; exact View.read_writes_of_cover _ _ _ _ _ (coverFill5 m c t h0)
    unfold owns rdO; iexists _; isplitr
    swap; · iexact H6
    ipureintro; exact View.read_writes_of_cover _ _ _ _ _ (coverFill6 m c t h0)
  · rw [PhiS_castSucc m c t, PhiS_pos m c _ _ h0]
    by_cases h1 : t.val % 3 = 0
    · rw [outsAt_first m c t h0 h1]; dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((firstAt m c t h0 h1 _ _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, ⟨%e5, H5⟩, ⟨%e6, H6⟩, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns rdO; iexists _; isplitr
        swap; · iexact H5
        ipureintro; exact View.read_writes_of_cover _ _ _ _ _ (coverFirst5 m c t h0 h1 _ _)
      unfold owns rdO; iexists _; isplitr
      swap; · iexact H6
      ipureintro; exact View.read_writes_of_cover _ _ _ _ _ (coverFirst6 m c t h0 h1 _ _)
    · rw [outsAt_acc m c t h1]; dsimp only
      simp only [before_5_acc m c t h1, before_6_acc m c t h1]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((accAt m c t h1 _ _ _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, ⟨%e5, H5⟩, ⟨%e6, H6⟩, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns rdO; iexists _; isplitr
        swap; · iexact H5
        ipureintro; exact View.read_writes_of_cover _ _ _ _ _ (coverAcc5 m c t h1 _ _ _ _)
      unfold owns rdO; iexists _; isplitr
      swap; · iexact H6
      ipureintro; exact View.read_writes_of_cover _ _ _ _ _ (coverAcc6 m c t h1 _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch arrays back at some contents. -/
theorem hout (c : Dev nD) : (dats m 0 c).Φ (Fin.last cfg0.N) ⊢ Pipeline.ΦA spec0 c := by
  have ht : (Fin.last cfg0.N).val ≠ 0 := by rw [Fin.val_last]; have : cfg0.N = 24 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨⟨HS0, HS1⟩, Hg⟩
  isplitl [HS0 HS1]
  · isplitl [HS0]
    · iexists _; iexact HS0
    iexists _; iexact HS1
  iexact Hg

set_option backward.isDefEq.respectTransparency.types false in
/-- Every weakly fair execution of the program terminates, and every final state has every array of the
    pipeline at what the pipeline computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to the end, faults nowhere, and leaves its five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.KI.Runs.lean ====
/-
  The three control cases of the fused graph-convolution body, and what all of them share.
  The grid is 8 row tiles by 3 orders, the order innermost, so point `t` is tile `t / 3` at order `t % 3`.
  The body branches three times on the coordinates: at the very first point it fills the two scratch
  arrays with the products X·W[k] (both halves of X, all three orders); at order 0 it stores the tile's
  two partial results plus the bias row; at a later order it adds the partial results to what the
  output buffers hold.  So a point is in exactly one of three cases: the first point (fill, then
  store), order 0 of a later tile (store), a later order (accumulate).
-/
import proofs.«171784_g38809324486710_cont_sun_c4_445_3_alg».proof.Proof.Gen.KernelIdeal.Frame
import proofs.«171784_g38809324486710_cont_sun_c4_445_3_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The first branch: both coordinates are zero. -/
abbrev condFill (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcondFill : ∀ t : Fin cfg0.N, condFill (grid0.coords t) ↔ t.val = 0 :=
  (by decide +kernel : ∀ t : Fin grid0.N, condFill (grid0.coords t) ↔ t.val = 0)

/-- The second branch: the order is zero. -/
abbrev condFirst (i : grid0.Coords) : Prop := k0_cond2 i = 1#1
/-- It holds at the first order of every tile. -/
theorem hcondFirst : ∀ t : Fin cfg0.N, condFirst (grid0.coords t) ↔ t.val % 3 = 0 :=
  (by decide +kernel : ∀ t : Fin grid0.N, condFirst (grid0.coords t) ↔ t.val % 3 = 0)

/-- The third branch: the order is not zero. -/
abbrev condAcc (i : grid0.Coords) : Prop := k0_cond3 i = 1#1
/-- It holds at the later orders of every tile. -/
theorem hcondAcc : ∀ t : Fin cfg0.N, condAcc (grid0.coords t) ↔ ¬ t.val % 3 = 0 :=
  (by decide +kernel : ∀ t : Fin grid0.N, condAcc (grid0.coords t) ↔ ¬ t.val % 3 = 0)

/-- The slab of a scratch array the body reads at a point is the one of the point's order. -/
theorem hoff : ∀ t : Fin cfg0.N, k0_off1 (grid0.coords t) = ![t.val % 3, 0, 0] :=
  (by decide +kernel : ∀ t : Fin grid0.N, k0_off1 (grid0.coords t) = ![t.val % 3, 0, 0])

/-! ## No window is ever idle -/

theorem liveAll (w : Fin cfg0.W) : ∀ i : grid0.Coords, cfg0.idle w i = false := by
  intro i
  have h : ∀ k : Fin 3, (!(Scalar.cmpi .ne (Scalar.extui (Scalar.cmpi .eq (BitVec.ofNat 32 k.val) 0#32)) 0#32 == 1#1)
      && !(Scalar.cmpi .ne (Scalar.extui (Scalar.cmpi .ne (BitVec.ofNat 32 k.val) 0#32)) 0#32 == 1#1)) = false := by decide
  match w with
  | ⟨0, _⟩ => rfl
  | ⟨1, _⟩ => rfl
  | ⟨2, _⟩ => rfl
  | ⟨3, _⟩ => rfl
  | ⟨4, _⟩ => rfl
  | ⟨5, _⟩ => exact h (i 1)
  | ⟨6, _⟩ => exact h (i 1)

/-! ## The staging memrefs the pipeline passes, and the scratch operands -/

abbrev ms0 (t : Fin cfg0.N) : Memref sig .tc .vmem S2x2048x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S3x256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x256 .f32 := win0_6.stage (cfg0.slots t 6)
abbrev hs6 (t : Fin cfg0.N) : (ms6 t).IsWhole := hstage0_6 ((cfg0.slots t 6).cast nbuf0_6)

/-- The two scratch arrays: whole scoped buffers of the kernel's own. -/
abbrev scA : Memref sig .tc .vmem S3x2048x256 .bf16 := Memref.whole cc0_scratch0
abbrev scB : Memref sig .tc .vmem S3x2048x256 .bf16 := Memref.whole cc0_scratch1
/-- Views through which the contents of an output tile and of a scratch array are stated. -/
abbrev VO : View sig .tc .vmem S256x256 .f32 := (Memref.whole cc0_stg5_0 : Memref sig .tc .vmem S256x256 .f32).view
abbrev VS : View sig .tc .vmem S3x2048x256 .bf16 := scA.view

/-- What the region owns beside the windows: the two scratch arrays at some contents and the
    generator register at some state. -/
theorem PhiA_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

end Cert.KernelIdeal.Body

end
-- ==== Proof.KI.RunC.lean ====
/-
  The body at a later order of a tile: it reads the tile's rows of the two operators, the order's slab
  of each scratch array, and the two output buffers as the order before left them, and stores each
  buffer plus its partial result.  The scratch arrays and the inputs are handed back as they were.
-/
import proofs.«171784_g38809324486710_cont_sun_c4_445_3_alg».proof.Proof.KI.Runs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the accumulating case leaves in the two output buffers, with the run that finds them. -/
noncomputable def runAcc (c : Dev nD) (i : grid0.Coords) (arg2 : Memref sig .tc .vmem S2x2048x256 .f32) (harg2 : arg2.IsWhole) (arg3 : Memref sig .tc .vmem S3x256x256 .f32) (harg3 : arg3.IsWhole) (arg4 : Memref sig .tc .vmem S1x256 .f32) (harg4 : arg4.IsWhole) (arg5 : Memref sig .tc .vmem S1x256x2048 .f32) (harg5 : arg5.IsWhole) (arg6 : Memref sig .tc .vmem S1x256x2048 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S3x2048x256 .bf16) (harg9 : arg9.IsWhole) (arg10 : Memref sig .tc .vmem S3x2048x256 .bf16) (harg10 : arg10.IsWhole) (hc0 : ¬condFill i) (hc1 : ¬condFirst i) (hc2 : condAcc i)
    (x0 : Vec F S2x2048x256 .f32) (x1 : Vec F S3x256x256 .f32) (x2 : Vec F S1x256 .f32) (x3 : Vec F S1x256x2048 .f32) (x4 : Vec F S1x256x2048 .f32) (xo5 xo6 : Vec F S256x256 .f32) (xs0 xs1 : Vec F S3x2048x256 .bf16) :
    Σ' (L5 : List (View.Piece (Elt F) S256x256 .f32)), { L6 : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ owns (c : Thread nD τ) arg8 fullShare xo6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xs0 ∗ owns (c : Thread nD τ) arg10 fullShare xs1) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hf8
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _; isplitr; · ipureintro; exact harg9.read_unread _
      iexact H7
    iexists _; isplitr; · ipureintro; exact harg10.read_unread _
    iexact H8

end Cert.KernelIdeal.Body

end
-- ==== Proof.KI.RunB.lean ====
/-
  The body at order 0 of a tile other than the first: it reads the tile's rows of the two operators and
  slab 0 of each scratch array, and stores into each output buffer its partial result plus the bias
  row, whatever the buffer held.  The scratch arrays and the inputs are handed back as they were.
-/
import proofs.«171784_g38809324486710_cont_sun_c4_445_3_alg».proof.Proof.KI.RunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the storing case leaves in the two output buffers, with the run that finds them. -/
noncomputable def runFirst (c : Dev nD) (i : grid0.Coords) (arg2 : Memref sig .tc .vmem S2x2048x256 .f32) (harg2 : arg2.IsWhole) (arg3 : Memref sig .tc .vmem S3x256x256 .f32) (harg3 : arg3.IsWhole) (arg4 : Memref sig .tc .vmem S1x256 .f32) (harg4 : arg4.IsWhole) (arg5 : Memref sig .tc .vmem S1x256x2048 .f32) (harg5 : arg5.IsWhole) (arg6 : Memref sig .tc .vmem S1x256x2048 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S3x2048x256 .bf16) (harg9 : arg9.IsWhole) (arg10 : Memref sig .tc .vmem S3x2048x256 .bf16) (harg10 : arg10.IsWhole) (hc0 : ¬condFill i) (hc1 : condFirst i) (hc2 : ¬condAcc i)
    (x0 : Vec F S2x2048x256 .f32) (x1 : Vec F S3x256x256 .f32) (x2 : Vec F S1x256 .f32) (x3 : Vec F S1x256x2048 .f32) (x4 : Vec F S1x256x2048 .f32) (xs0 xs1 : Vec F S3x2048x256 .bf16) :
    Σ' (L5 : List (View.Piece (Elt F) S256x256 .f32)), { L6 : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xs0 ∗ owns (c : Thread nD τ) arg10 fullShare xs1) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
    obtain rfl := harg2.eq_unread hf0; obtain rfl := harg3.eq_unread hf1; obtain rfl := harg4.eq_unread hf2
    obtain rfl := harg5.eq_unread hf3; obtain rfl := harg6.eq_unread hf4
    obtain rfl := harg9.eq_unread hf7; obtain rfl := harg10.eq_unread hf8
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _; isplitr; · ipureintro; exact harg9.read_unread _
      iexact H7
    iexists _; isplitr; · ipureintro; exact harg10.read_unread _
    iexact H8

end Cert.KernelIdeal.Body

end
-- ==== Proof.KI.RunA.lean ====
/-
  The body at the very first point: it fills the three slabs of each scratch array with the products
  of the two halves of the features with the three weight matrices, whatever the arrays held, then
  proceeds as at order 0 of any tile, reading slab 0 of what it has just stored.
-/
import proofs.«171784_g38809324486710_cont_sun_c4_445_3_alg».proof.Proof.KI.RunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the filling case leaves in the two output buffers and in the two scratch arrays, with
    the run that finds them. -/
noncomputable def runFill (c : Dev nD) (i : grid0.Coords) (arg2 : Memref sig .tc .vmem S2x2048x256 .f32) (harg2 : arg2.IsWhole) (arg3 : Memref sig .tc .vmem S3x256x256 .f32) (harg3 : arg3.IsWhole) (arg4 : Memref sig .tc .vmem S1x256 .f32) (harg4 : arg4.IsWhole) (arg5 : Memref sig .tc .vmem S1x256x2048 .f32) (harg5 : arg5.IsWhole) (arg6 : Memref sig .tc .vmem S1x256x2048 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S3x2048x256 .bf16) (harg9 : arg9.IsWhole) (arg10 : Memref sig .tc .vmem S3x2048x256 .bf16) (harg10 : arg10.IsWhole) (hc0 : condFill i) (hc1 : condFirst i) (hc2 : ¬condAcc i)
    (x0 : Vec F S2x2048x256 .f32) (x1 : Vec F S3x256x256 .f32) (x2 : Vec F S1x256 .f32) (x3 : Vec F S1x256x2048 .f32) (x4 : Vec F S1x256x2048 .f32) :
    Σ' (L5 : List (View.Piece (Elt F) S256x256 .f32)) (L6 : List (View.Piece (Elt F) S256x256 .f32)) (LS0 : List (View.Piece (Elt F) S3x2048x256 .bf16)), { LS1 : List (View.Piece (Elt F) S3x2048x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; iexact H8

end Cert.KernelIdeal.Body

end
-- ==== Proof.KI.Data.lean ====
/-
  What the two output buffers and the two scratch arrays hold after every grid point, the proof data of
  the pipeline built from it, the body's obligation at every point, and the run of the whole program.
  After the first point the scratch arrays hold the six products X_h·W_k and never change again; an
  output buffer holds, after order k of a tile, the sum of the tile's terms of orders 0..k plus the bias.
-/
import proofs.«171784_g38809324486710_cont_sun_c4_445_3_alg».proof.Proof.KI.RunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

theorem fill_c0 (t : Fin cfg0.N) (h : t.val = 0) : condFill (grid0.coords t) := (hcondFill t).mpr h
theorem fill_c1 (t : Fin cfg0.N) (h : t.val = 0) : condFirst (grid0.coords t) := (hcondFirst t).mpr (by omega)
theorem fill_c2 (t : Fin cfg0.N) (h : t.val = 0) : ¬condAcc (grid0.coords t) := fun hc => (hcondAcc t).mp hc (by omega)
theorem fill_slab (t : Fin cfg0.N) (h : t.val = 0) : k0_off1 (grid0.coords t) = ![0, 0, 0] := by rw [hoff t, h]
theorem first_c0 (t : Fin cfg0.N) (h : t.val ≠ 0) : ¬condFill (grid0.coords t) := fun hc => h ((hcondFill t).mp hc)
theorem first_c1 (t : Fin cfg0.N) (h : t.val % 3 = 0) : condFirst (grid0.coords t) := (hcondFirst t).mpr h
theorem first_c2 (t : Fin cfg0.N) (h : t.val % 3 = 0) : ¬condAcc (grid0.coords t) := fun hc => (hcondAcc t).mp hc h
theorem acc_c0 (t : Fin cfg0.N) (h : ¬t.val % 3 = 0) : ¬condFill (grid0.coords t) := fun hc => h (by have := (hcondFill t).mp hc; omega)
theorem acc_c1 (t : Fin cfg0.N) (h : ¬t.val % 3 = 0) : ¬condFirst (grid0.coords t) := fun hc => h ((hcondFirst t).mp hc)
theorem acc_c2 (t : Fin cfg0.N) (h : ¬t.val % 3 = 0) : condAcc (grid0.coords t) := (hcondAcc t).mpr h

/-! ## The three runs at a point of the grid -/

/-- A list of stored pieces read back as the contents of an output tile. -/
def rdO (L : List (View.Piece (Elt F) S256x256 .f32)) : Vec F S256x256 .f32 := VO.read (Elt F) (VO.writes (Elt F) VO.junk L)
/-- A list of stored pieces read back as the contents of a scratch array. -/
def rdS (L : List (View.Piece (Elt F) S3x2048x256 .bf16)) : Vec F S3x2048x256 .bf16 := VS.read (Elt F) (VS.writes (Elt F) VS.junk L)

def fillAt (c : Dev nD) (t : Fin cfg0.N) (h : t.val = 0) :=
  runFill (F := F) c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scB (Memref.isWhole_whole _) (fill_c0 t h) (fill_c1 t h) (fill_c2 t h) (iblk m c 0 t) (iblk m c 1 t) (iblk m c 2 t) (iblk m c 3 t) (iblk m c 4 t)
def firstAt (c : Dev nD) (t : Fin cfg0.N) (hz : t.val ≠ 0) (h : t.val % 3 = 0) (xs0 xs1 : Vec F S3x2048x256 .bf16) :=
  runFirst (F := F) c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scB (Memref.isWhole_whole _) (first_c0 t hz) (first_c1 t h) (first_c2 t h) (iblk m c 0 t) (iblk m c 1 t) (iblk m c 2 t) (iblk m c 3 t) (iblk m c 4 t) xs0 xs1
def accAt (c : Dev nD) (t : Fin cfg0.N) (h : ¬t.val % 3 = 0) (xo5 xo6 : Vec F S256x256 .f32) (xs0 xs1 : Vec F S3x2048x256 .bf16) :=
  runAcc (F := F) c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scB (Memref.isWhole_whole _) (acc_c0 t h) (acc_c1 t h) (acc_c2 t h) (iblk m c 0 t) (iblk m c 1 t) (iblk m c 2 t) (iblk m c 3 t) (iblk m c 4 t) xo5 xo6 xs0 xs1

/-! ## Every case's stores cover what they are read back from -/

theorem coverFill5 (c : Dev nD) (t : Fin cfg0.N) (h : t.val = 0) (y : S256x256.Idx) : ∃ pc ∈ (fillAt m c t h).1, y ∈ pc.1.set :=
  View.cover_of_tiledL (fillAt m c t h).1 S256x256.size (by sl_kernel_rfl) y
theorem coverFill6 (c : Dev nD) (t : Fin cfg0.N) (h : t.val = 0) (y : S256x256.Idx) : ∃ pc ∈ (fillAt m c t h).2.1, y ∈ pc.1.set :=
  View.cover_of_tiledL (fillAt m c t h).2.1 S256x256.size (by sl_kernel_rfl) y
theorem coverFillA (c : Dev nD) (t : Fin cfg0.N) (h : t.val = 0) (y : S3x2048x256.Idx) : ∃ pc ∈ (fillAt m c t h).2.2.1, y ∈ pc.1.set :=
  View.cover_of_tiledL (fillAt m c t h).2.2.1 S1x2048x256.size (by sl_kernel_rfl) y
theorem coverFillB (c : Dev nD) (t : Fin cfg0.N) (h : t.val = 0) (y : S3x2048x256.Idx) : ∃ pc ∈ (fillAt m c t h).2.2.2.1, y ∈ pc.1.set :=
  View.cover_of_tiledL (fillAt m c t h).2.2.2.1 S1x2048x256.size (by sl_kernel_rfl) y
theorem coverFirst5 (c : Dev nD) (t : Fin cfg0.N) (hz : t.val ≠ 0) (h : t.val % 3 = 0) (xs0 xs1 : Vec F S3x2048x256 .bf16) (y : S256x256.Idx) :
    ∃ pc ∈ (firstAt m c t hz h xs0 xs1).1, y ∈ pc.1.set :=
  View.cover_of_tiledL (firstAt m c t hz h xs0 xs1).1 S256x256.size (by sl_kernel_rfl) y
theorem coverFirst6 (c : Dev nD) (t : Fin cfg0.N) (hz : t.val ≠ 0) (h : t.val % 3 = 0) (xs0 xs1 : Vec F S3x2048x256 .bf16) (y : S256x256.Idx) :
    ∃ pc ∈ (firstAt m c t hz h xs0 xs1).2.1, y ∈ pc.1.set :=
  View.cover_of_tiledL (firstAt m c t hz h xs0 xs1).2.1 S256x256.size (by sl_kernel_rfl) y
theorem coverAcc5 (c : Dev nD) (t : Fin cfg0.N) (h : ¬t.val % 3 = 0) (xo5 xo6 : Vec F S256x256 .f32) (xs0 xs1 : Vec F S3x2048x256 .bf16) (y : S256x256.Idx) :
    ∃ pc ∈ (accAt m c t h xo5 xo6 xs0 xs1).1, y ∈ pc.1.set :=
  View.cover_of_tiledL (accAt m c t h xo5 xo6 xs0 xs1).1 S256x256.size (by sl_kernel_rfl) y
theorem coverAcc6 (c : Dev nD) (t : Fin cfg0.N) (h : ¬t.val % 3 = 0) (xo5 xo6 : Vec F S256x256 .f32) (xs0 xs1 : Vec F S3x2048x256 .bf16) (y : S256x256.Idx) :
    ∃ pc ∈ (accAt m c t h xo5 xo6 xs0 xs1).2.1, y ∈ pc.1.set :=
  View.cover_of_tiledL (accAt m c t h xo5 xo6 xs0 xs1).2.1 S256x256.size (by sl_kernel_rfl) y

/-! ## The buffers after each point -/

/-- The two output buffers and the two scratch arrays after the body at position `n`: at the first
    point what the filling run stores; at order 0 of a later tile what the storing run stores, the
    scratch arrays as the point before left them; at a later order what the accumulating run stores over
    what the point before left in the output buffers, the scratch arrays again unchanged. -/
def outsAt (c : Dev nD) : (n : ℕ) → n < cfg0.N → Vec F S256x256 .f32 × Vec F S256x256 .f32 × Vec F S3x2048x256 .bf16 × Vec F S3x2048x256 .bf16
  | 0, hn => (rdO (fillAt m c ⟨0, hn⟩ rfl).1, rdO (fillAt m c ⟨0, hn⟩ rfl).2.1, rdS (fillAt m c ⟨0, hn⟩ rfl).2.2.1, rdS (fillAt m c ⟨0, hn⟩ rfl).2.2.2.1)
  | n + 1, hn =>
    if h : (n + 1) % 3 = 0 then
      (rdO (firstAt m c ⟨n + 1, hn⟩ (Nat.succ_ne_zero n) h (outsAt c n (Nat.lt_of_succ_lt hn)).2.2.1 (outsAt c n (Nat.lt_of_succ_lt hn)).2.2.2).1,
       rdO (firstAt m c ⟨n + 1, hn⟩ (Nat.succ_ne_zero n) h (outsAt c n (Nat.lt_of_succ_lt hn)).2.2.1 (outsAt c n (Nat.lt_of_succ_lt hn)).2.2.2).2.1,
       (outsAt c n (Nat.lt_of_succ_lt hn)).2.2.1, (outsAt c n (Nat.lt_of_succ_lt hn)).2.2.2)
    else
      (rdO (accAt m c ⟨n + 1, hn⟩ h (outsAt c n (Nat.lt_of_succ_lt hn)).1 (outsAt c n (Nat.lt_of_succ_lt hn)).2.1 (outsAt c n (Nat.lt_of_succ_lt hn)).2.2.1 (outsAt c n (Nat.lt_of_succ_lt hn)).2.2.2).1,
       rdO (accAt m c ⟨n + 1, hn⟩ h (outsAt c n (Nat.lt_of_succ_lt hn)).1 (outsAt c n (Nat.lt_of_succ_lt hn)).2.1 (outsAt c n (Nat.lt_of_succ_lt hn)).2.2.1 (outsAt c n (Nat.lt_of_succ_lt hn)).2.2.2).2.1,
       (outsAt c n (Nat.lt_of_succ_lt hn)).2.2.1, (outsAt c n (Nat.lt_of_succ_lt hn)).2.2.2)

/-- The point before `t`. -/
abbrev prevLt (t : Fin cfg0.N) : t.val - 1 < cfg0.N := Nat.lt_of_le_of_lt (Nat.sub_le _ _) t.isLt

theorem outsAt_fill (c : Dev nD) (t : Fin cfg0.N) (h : t.val = 0) :
    outsAt m c t.val t.isLt = (rdO (fillAt m c t h).1, rdO (fillAt m c t h).2.1, rdS (fillAt m c t h).2.2.1, rdS (fillAt m c t h).2.2.2.1) := by
  obtain ⟨n, hn⟩ := t
  cases n with
  | zero => rfl
  | succ n => exact absurd h (Nat.succ_ne_zero n)

theorem outsAt_first (c : Dev nD) (t : Fin cfg0.N) (hz : t.val ≠ 0) (h : t.val % 3 = 0) :
    outsAt m c t.val t.isLt =
      (rdO (firstAt m c t hz h (outsAt m c (t.val - 1) (prevLt t)).2.2.1 (outsAt m c (t.val - 1) (prevLt t)).2.2.2).1,
       rdO (firstAt m c t hz h (outsAt m c (t.val - 1) (prevLt t)).2.2.1 (outsAt m c (t.val - 1) (prevLt t)).2.2.2).2.1,
       (outsAt m c (t.val - 1) (prevLt t)).2.2.1, (outsAt m c (t.val - 1) (prevLt t)).2.2.2) := by
  obtain ⟨n, hn⟩ := t
  cases n with
  | zero => exact absurd rfl hz
  | succ n => exact (dif_pos h).trans rfl

theorem outsAt_acc (c : Dev nD) (t : Fin cfg0.N) (h : ¬t.val % 3 = 0) :
    outsAt m c t.val t.isLt =
      (rdO (accAt m c t h (outsAt m c (t.val - 1) (prevLt t)).1 (outsAt m c (t.val - 1) (prevLt t)).2.1 (outsAt m c (t.val - 1) (prevLt t)).2.2.1 (outsAt m c (t.val - 1) (prevLt t)).2.2.2).1,
       rdO (accAt m c t h (outsAt m c (t.val - 1) (prevLt t)).1 (outsAt m c (t.val - 1) (prevLt t)).2.1 (outsAt m c (t.val - 1) (prevLt t)).2.2.1 (outsAt m c (t.val - 1) (prevLt t)).2.2.2).2.1,
       (outsAt m c (t.val - 1) (prevLt t)).2.2.1, (outsAt m c (t.val - 1) (prevLt t)).2.2.2) := by
  obtain ⟨n, hn⟩ := t
  cases n with
  | zero => exact absurd (Nat.zero_mod 3) h
  | succ n => exact (dif_neg h).trans rfl

/-! ## The region's invariant between points -/

/-- Before the first point the scratch arrays hold anything; afterwards what the point before left. -/
def PhiS (c : Dev nD) : (n : ℕ) → n ≤ cfg0.N → sProp 𝕄
  | 0, _ => Pipeline.ΦA spec0 c
  | n + 1, hn => iprop(iprop(owns (c : Thread nD τ) scA fullShare ((outsAt m c n hn).2.2.1) ∗ owns (c : Thread nD τ) scB fullShare ((outsAt m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scA fullShare ((outsAt m c n hn).2.2.1) ∗ owns (c : Thread nD τ) scB fullShare ((outsAt m c n hn).2.2.2)) ∗ (∃ r, prngReg c r)) := rfl

theorem PhiS_pos (c : Dev nD) (n : ℕ) (h : n ≤ cfg0.N) (hz : n ≠ 0) :
    PhiS m c n h = iprop(iprop(owns (c : Thread nD τ) scA fullShare ((outsAt m c (n - 1) (by omega)).2.2.1) ∗ owns (c : Thread nD τ) scB fullShare ((outsAt m c (n - 1) (by omega)).2.2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
    | ⟨6, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (outsAt m c t.val t.isLt).1 := by dsimp only [dats]
theorem after_6 (c : Dev nD) (t : Fin cfg0.N) : (dats m 0 c).after 6 t = (outsAt m c t.val t.isLt).2.1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- At a later order an output buffer holds what the order before left: the point is not the first, and
    the buffer is written back only after a tile's last order. -/
theorem before_5_acc (c : Dev nD) (t : Fin cfg0.N) (h : ¬t.val % 3 = 0) (d) :
    (dats m 0 c).before 5 t d = (outsAt m c (t.val - 1) (prevLt t)).1 := by
  rw [Dat.before_out_kept _ 5 rfl t (by omega) (Bool.eq_false_iff.mpr fun hf => by have := (flush0_5 _).mp hf; dsimp only at this; omega)
    (liveAll 5) (fun _ _ => rfl)]
  dsimp only [dats]
theorem before_6_acc (c : Dev nD) (t : Fin cfg0.N) (h : ¬t.val % 3 = 0) (d) :
    (dats m 0 c).before 6 t d = (outsAt m c (t.val - 1) (prevLt t)).2.1 := by
  rw [Dat.before_out_kept _ 6 rfl t (by omega) (Bool.eq_false_iff.mpr fun hf => by have := (flush0_6 _).mp hf; dsimp only at this; omega)
    (liveAll 6) (fun _ _ => rfl)]
  dsimp only [dats]

/-- No window is idle anywhere: the body leaves every staging buffer at the proof data's contents. -/
theorem leaves_live (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [liveAll w (grid0.coords t)]

end Cert.KernelIdeal.Body

end
-- ==== Proof.KI.Body.lean ====
/-
  The body's obligation at every grid point, by the point's case, and the run of the whole program:
  every execution ends with each output array holding what the pipeline wrote back from the buffers
  stated point by point, and the argument arrays unchanged.
-/
import proofs.«171784_g38809324486710_cont_sun_c4_445_3_alg».proof.Proof.KI.Data

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point: the inputs' buffers hold their blocks; the point's case selects the run; at a
    later order the output buffers hold what the order before left; the scratch arrays are handed in at
    anything at the first point and at what the point before left afterwards, and handed back at this
    point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  rw [leaves_live m c 0 t, leaves_live m c 1 t, leaves_live m c 2 t, leaves_live m c 3 t, leaves_live m c 4 t, leaves_live m c 5 t, leaves_live m c 6 t,
    after_0, after_1, after_2, after_3, after_4, after_5, after_6]
  have hN : t.val < 24 := lt_of_lt_of_eq t.isLt (show cfg0.N = 24 from N_0)
  by_cases h0 : t.val = 0
  · rw [outsAt_fill m c t h0]; dsimp only
    rw [PhiS_castSucc m c t, PhiS_zero m c _ _ h0, PhiA_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((fillAt m c t h0).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, ⟨%e5, H5⟩, ⟨%e6, H6⟩, ⟨%es0, HS0⟩, ⟨%es1, HS1⟩⟩
    isplitl [HS0 HS1 Hg]
    · isplitl [HS0 HS1]
      · isplitl [HS0]
        · unfold owns rdS; iexists _; isplitr
          swap; · iexact HS0
          ipureintro; exact View.read_writes_of_cover _ _ _ _ _ (coverFillA m c t h0)
        · unfold owns rdS; iexists _; isplitr
          swap; · iexact HS1
          ipureintro; exact View.read_writes_of_cover _ _ _ _ _ (coverFillB m c t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns rdO; iexists _; isplitr
      swap; · iexact H5
      ipureintro; exact View.read_writes_of_cover _ _ _ _ _ (coverFill5 m c t h0)
    unfold owns rdO; iexists _; isplitr
    swap; · iexact H6
    ipureintro; exact View.read_writes_of_cover _ _ _ _ _ (coverFill6 m c t h0)
  · rw [PhiS_castSucc m c t, PhiS_pos m c _ _ h0]
    by_cases h1 : t.val % 3 = 0
    · rw [outsAt_first m c t h0 h1]; dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((firstAt m c t h0 h1 _ _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, ⟨%e5, H5⟩, ⟨%e6, H6⟩, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns rdO; iexists _; isplitr
        swap; · iexact H5
        ipureintro; exact View.read_writes_of_cover _ _ _ _ _ (coverFirst5 m c t h0 h1 _ _)
      unfold owns rdO; iexists _; isplitr
      swap; · iexact H6
      ipureintro; exact View.read_writes_of_cover _ _ _ _ _ (coverFirst6 m c t h0 h1 _ _)
    · rw [outsAt_acc m c t h1]; dsimp only
      simp only [before_5_acc m c t h1, before_6_acc m c t h1]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((accAt m c t h1 _ _ _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, ⟨%e5, H5⟩, ⟨%e6, H6⟩, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns rdO; iexists _; isplitr
        swap; · iexact H5
        ipureintro; exact View.read_writes_of_cover _ _ _ _ _ (coverAcc5 m c t h1 _ _ _ _)
      unfold owns rdO; iexists _; isplitr
      swap; · iexact H6
      ipureintro; exact View.read_writes_of_cover _ _ _ _ _ (coverAcc6 m c t h1 _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch arrays back at some contents. -/
theorem hout (c : Dev nD) : (dats m 0 c).Φ (Fin.last cfg0.N) ⊢ Pipeline.ΦA spec0 c := by
  have ht : (Fin.last cfg0.N).val ≠ 0 := by rw [Fin.val_last]; have : cfg0.N = 24 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨⟨HS0, HS1⟩, Hg⟩
  isplitl [HS0 HS1]
  · isplitl [HS0]
    · iexists _; iexact HS0
    iexists _; iexact HS1
  iexact Hg

set_option backward.isDefEq.respectTransparency.types false in
/-- Every weakly fair execution of the program terminates, and every final state has every array of the
    pipeline at what the pipeline computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to the end, faults nowhere, and leaves its five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.KI.Forms.lean ====
/-
  The closed forms of what the body's cases load and store: the slab of a scratch array read at a grid
  point, the two halves of the features and the three weight matrices as slabs of their arrays, and
  what the first point leaves in each scratch array, slab by slab.
-/
import proofs.«171784_g38809324486710_cont_sun_c4_445_3_alg».proof.Proof.Gen.KernelIdeal.Skeleton
import Idealize.ShloMosaic.Lib.Pipeline.FrameBody
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The slab of a scratch array the body reads at grid coordinates `i`. -/
def slab (i : grid0.Coords) (xs : Vec F S3x2048x256 .bf16) : Vec F S1x2048x256 .bf16 :=
  View.ld xs (Rect.unit (s := S3x2048x256) (k0_off1 i) S1x2048x256.size (k0_off1_inb i))

/-- Half `0` (real) and half `1` (imaginary) of the features, and the three weight matrices, as the
    filling case loads them. -/
def half0 (x0 : Vec F S2x2048x256 .f32) : Vec F S1x2048x256 .f32 :=
  View.ld x0 (Rect.unit (s := S2x2048x256) ![0, 0, 0] S1x2048x256.size inb_S2x2048x256_S1x2048x256_0_0_0)
def half1 (x0 : Vec F S2x2048x256 .f32) : Vec F S1x2048x256 .f32 :=
  View.ld x0 (Rect.unit (s := S2x2048x256) ![1, 0, 0] S1x2048x256.size inb_S2x2048x256_S1x2048x256_1_0_0)
def wt0 (x1 : Vec F S3x256x256 .f32) : Vec F S1x256x256 .f32 :=
  View.ld x1 (Rect.unit (s := S3x256x256) ![0, 0, 0] S1x256x256.size inb_S3x256x256_S1x256x256_0_0_0)
def wt1 (x1 : Vec F S3x256x256 .f32) : Vec F S1x256x256 .f32 :=
  View.ld x1 (Rect.unit (s := S3x256x256) ![1, 0, 0] S1x256x256.size inb_S3x256x256_S1x256x256_1_0_0)
def wt2 (x1 : Vec F S3x256x256 .f32) : Vec F S1x256x256 .f32 :=
  View.ld x1 (Rect.unit (s := S3x256x256) ![2, 0, 0] S1x256x256.size inb_S3x256x256_S1x256x256_2_0_0)

/-- What the filling case leaves in the first scratch array: the real half times each weight matrix. -/
def fillA (x0 : Vec F S2x2048x256 .f32) (x1 : Vec F S3x256x256 .f32) : Vec F S3x2048x256 .bf16 :=
  View.canon
    [⟨Rect.unit (s := S3x2048x256) ![2, 0, 0] S1x2048x256.size inb_S3x2048x256_S1x2048x256_2_0_0, k0_pay2 (k0_pay14 (half0 x0)) (wt2 x1)⟩,
     ⟨Rect.unit (s := S3x2048x256) ![1, 0, 0] S1x2048x256.size inb_S3x2048x256_S1x2048x256_1_0_0, k0_pay20 (half0 x0) (wt1 x1)⟩,
     ⟨Rect.unit (s := S3x2048x256) ![0, 0, 0] S1x2048x256.size inb_S3x2048x256_S1x2048x256_0_0_0, k0_pay17 (half0 x0) (wt0 x1)⟩]
/-- and in the second: the imaginary half times each weight matrix. -/
def fillB (x0 : Vec F S2x2048x256 .f32) (x1 : Vec F S3x256x256 .f32) : Vec F S3x2048x256 .bf16 :=
  View.canon
    [⟨Rect.unit (s := S3x2048x256) ![2, 0, 0] S1x2048x256.size inb_S3x2048x256_S1x2048x256_2_0_0, k0_pay3 (k0_pay15 (half1 x0)) (wt2 x1)⟩,
     ⟨Rect.unit (s := S3x2048x256) ![1, 0, 0] S1x2048x256.size inb_S3x2048x256_S1x2048x256_1_0_0, k0_pay21 (half1 x0) (wt1 x1)⟩,
     ⟨Rect.unit (s := S3x2048x256) ![0, 0, 0] S1x2048x256.size inb_S3x2048x256_S1x2048x256_0_0_0, k0_pay18 (half1 x0) (wt0 x1)⟩]

end Cert.KernelIdeal.Body

end
-- ==== Proof.KI.Pieces.lean ====
/-
  What each case's stores leave, in closed form: the found pieces read back are the body's named
  arithmetic applied to the blocks the case loaded.  A scratch array read at a point is read through
  the slab of the point's order; the filling case leaves in each scratch array the three products of
  one half of the features with the three weight matrices, slab by slab.
-/
import proofs.«171784_g38809324486710_cont_sun_c4_445_3_alg».proof.Proof.KI.Data
import proofs.«171784_g38809324486710_cont_sun_c4_445_3_alg».proof.Proof.KI.Forms
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Pieces
variable (c : Dev nD) (i : grid0.Coords) (arg2 : Memref sig .tc .vmem S2x2048x256 .f32) (harg2 : arg2.IsWhole) (arg3 : Memref sig .tc .vmem S3x256x256 .f32) (harg3 : arg3.IsWhole) (arg4 : Memref sig .tc .vmem S1x256 .f32) (harg4 : arg4.IsWhole) (arg5 : Memref sig .tc .vmem S1x256x2048 .f32) (harg5 : arg5.IsWhole) (arg6 : Memref sig .tc .vmem S1x256x2048 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S3x2048x256 .bf16) (harg9 : arg9.IsWhole) (arg10 : Memref sig .tc .vmem S3x2048x256 .bf16) (harg10 : arg10.IsWhole)
  (x0 : Vec F S2x2048x256 .f32) (x1 : Vec F S3x256x256 .f32) (x2 : Vec F S1x256 .f32) (x3 : Vec F S1x256x2048 .f32) (x4 : Vec F S1x256x2048 .f32)

/-! ### The accumulating case -/

theorem acc5_eq (hc0 : ¬condFill i) (hc1 : ¬condFirst i) (hc2 : condAcc i) (xo5 xo6 : Vec F S256x256 .f32) (xs0 xs1 : Vec F S3x2048x256 .bf16) :
    rdO (runAcc c i arg2 harg2 arg3 harg3 arg4 harg4 arg5 harg5 arg6 harg6 arg7 harg7 arg8 harg8 arg9 harg9 arg10 harg10 hc0 hc1 hc2 x0 x1 x2 x3 x4 xo5 xo6 xs0 xs1).1 = k0_pay12 x3 x4 (slab i xs0) (slab i xs1) xo5 := by
  unfold rdO
  rw [View.read_writes_junk_eq_canon]
  unfold runAcc
  dsimp only
  rw [View.canon_unit_zero hz2]
  unfold slab
  simp only [View.readAt_writes_junk_eq_canon, View.readAt_eq_ld, harg2.read_unread, harg3.read_unread, harg4.read_unread, harg5.read_unread, harg6.read_unread, harg7.read_unread, harg8.read_unread, harg9.read_unread, harg10.read_unread, View.ld_unit_zero (S := S256x256) hz2, View.ld_unit_zero (S := S1x256x2048) hz3, View.ld_unit_zero (S := S1x256) hz2]

theorem acc6_eq (hc0 : ¬condFill i) (hc1 : ¬condFirst i) (hc2 : condAcc i) (xo5 xo6 : Vec F S256x256 .f32) (xs0 xs1 : Vec F S3x2048x256 .bf16) :
    rdO (runAcc c i arg2 harg2 arg3 harg3 arg4 harg4 arg5 harg5 arg6 harg6 arg7 harg7 arg8 harg8 arg9 harg9 arg10 harg10 hc0 hc1 hc2 x0 x1 x2 x3 x4 xo5 xo6 xs0 xs1).2.1 = k0_pay13 x3 x4 (slab i xs0) (slab i xs1) xo6 := by
  unfold rdO
  rw [View.read_writes_junk_eq_canon]
  unfold runAcc
  dsimp only
  rw [View.canon_unit_zero hz2]
  unfold slab
  simp only [View.readAt_writes_junk_eq_canon, View.readAt_eq_ld, harg2.read_unread, harg3.read_unread, harg4.read_unread, harg5.read_unread, harg6.read_unread, harg7.read_unread, harg8.read_unread, harg9.read_unread, harg10.read_unread, View.ld_unit_zero (S := S256x256) hz2, View.ld_unit_zero (S := S1x256x2048) hz3, View.ld_unit_zero (S := S1x256) hz2]

/-! ### The storing case -/

theorem first5_eq (hc0 : ¬condFill i) (hc1 : condFirst i) (hc2 : ¬condAcc i) (xs0 xs1 : Vec F S3x2048x256 .bf16) :
    rdO (runFirst c i arg2 harg2 arg3 harg3 arg4 harg4 arg5 harg5 arg6 harg6 arg7 harg7 arg8 harg8 arg9 harg9 arg10 harg10 hc0 hc1 hc2 x0 x1 x2 x3 x4 xs0 xs1).1 = k0_pay10 x3 x4 (slab i xs0) (slab i xs1) x2 := by
  unfold rdO
  rw [View.read_writes_junk_eq_canon]
  unfold runFirst
  dsimp only
  rw [View.canon_unit_zero hz2]
  unfold slab
  simp only [View.readAt_writes_junk_eq_canon, View.readAt_eq_ld, harg2.read_unread, harg3.read_unread, harg4.read_unread, harg5.read_unread, harg6.read_unread, harg7.read_unread, harg8.read_unread, harg9.read_unread, harg10.read_unread, View.ld_unit_zero (S := S256x256) hz2, View.ld_unit_zero (S := S1x256x2048) hz3, View.ld_unit_zero (S := S1x256) hz2]

theorem first6_eq (hc0 : ¬condFill i) (hc1 : condFirst i) (hc2 : ¬condAcc i) (xs0 xs1 : Vec F S3x2048x256 .bf16) :
    rdO (runFirst c i arg2 harg2 arg3 harg3 arg4 harg4 arg5 harg5 arg6 harg6 arg7 harg7 arg8 harg8 arg9 harg9 arg10 harg10 hc0 hc1 hc2 x0 x1 x2 x3 x4 xs0 xs1).2.1 = k0_pay11 x3 x4 (slab i xs0) (slab i xs1) x2 := by
  unfold rdO
  rw [View.read_writes_junk_eq_canon]
  unfold runFirst
  dsimp only
  rw [View.canon_unit_zero hz2]
  unfold slab
  simp only [View.readAt_writes_junk_eq_canon, View.readAt_eq_ld, harg2.read_unread, harg3.read_unread, harg4.read_unread, harg5.read_unread, harg6.read_unread, harg7.read_unread, harg8.read_unread, harg9.read_unread, harg10.read_unread, View.ld_unit_zero (S := S256x256) hz2, View.ld_unit_zero (S := S1x256x2048) hz3, View.ld_unit_zero (S := S1x256) hz2]

/-! ### The filling case -/

theorem fillA_eq (hc0 : condFill i) (hc1 : condFirst i) (hc2 : ¬condAcc i) :
    rdS (runFill c i arg2 harg2 arg3 harg3 arg4 harg4 arg5 harg5 arg6 harg6 arg7 harg7 arg8 harg8 arg9 harg9 arg10 harg10 hc0 hc1 hc2 x0 x1 x2 x3 x4).2.2.1 = fillA x0 x1 := by
  unfold rdS
  rw [View.read_writes_junk_eq_canon]
  unfold runFill
  dsimp only
  sl_unfold_words
  unfold fillA half0 wt0 wt1 wt2
  simp only [View.readAt_writes_junk_eq_canon, View.readAt_eq_ld, harg2.read_unread, harg3.read_unread, harg4.read_unread, harg5.read_unread, harg6.read_unread, harg7.read_unread, harg8.read_unread, harg9.read_unread, harg10.read_unread, View.ld_unit_zero (S := S256x256) hz2, View.ld_unit_zero (S := S1x256x2048) hz3, View.ld_unit_zero (S := S1x256) hz2]

theorem fillB_eq (hc0 : condFill i) (hc1 : condFirst i) (hc2 : ¬condAcc i) :
    rdS (runFill c i arg2 harg2 arg3 harg3 arg4 harg4 arg5 harg5 arg6 harg6 arg7 harg7 arg8 harg8 arg9 harg9 arg10 harg10 hc0 hc1 hc2 x0 x1 x2 x3 x4).2.2.2.1 = fillB x0 x1 := by
  unfold rdS
  rw [View.read_writes_junk_eq_canon]
  unfold runFill
  dsimp only
  sl_unfold_words
  unfold fillB half1 wt0 wt1 wt2
  simp only [View.readAt_writes_junk_eq_canon, View.readAt_eq_ld, harg2.read_unread, harg3.read_unread, harg4.read_unread, harg5.read_unread, harg6.read_unread, harg7.read_unread, harg8.read_unread, harg9.read_unread, harg10.read_unread, View.ld_unit_zero (S := S256x256) hz2, View.ld_unit_zero (S := S1x256x2048) hz3, View.ld_unit_zero (S := S1x256) hz2]

theorem fill5_eq (hc0 : condFill i) (hc1 : condFirst i) (hc2 : ¬condAcc i) :
    rdO (runFill c i arg2 harg2 arg3 harg3 arg4 harg4 arg5 harg5 arg6 harg6 arg7 harg7 arg8 harg8 arg9 harg9 arg10 harg10 hc0 hc1 hc2 x0 x1 x2 x3 x4).1 = k0_pay10 x3 x4 (slab i (fillA x0 x1)) (slab i (fillB x0 x1)) x2 := by
  unfold rdO
  rw [View.read_writes_junk_eq_canon]
  unfold runFill
  dsimp only
  sl_unfold_words
  rw [View.canon_unit_zero hz2]
  unfold slab fillA fillB half0 half1 wt0 wt1 wt2
  simp only [View.readAt_writes_junk_eq_canon, View.readAt_eq_ld, harg2.read_unread, harg3.read_unread, harg4.read_unread, harg5.read_unread, harg6.read_unread, harg7.read_unread, harg8.read_unread, harg9.read_unread, harg10.read_unread, View.ld_unit_zero (S := S256x256) hz2, View.ld_unit_zero (S := S1x256x2048) hz3, View.ld_unit_zero (S := S1x256) hz2]
  rfl

theorem fill6_eq (hc0 : condFill i) (hc1 : condFirst i) (hc2 : ¬condAcc i) :
    rdO (runFill c i arg2 harg2 arg3 harg3 arg4 harg4 arg5 harg5 arg6 harg6 arg7 harg7 arg8 harg8 arg9 harg9 arg10 harg10 hc0 hc1 hc2 x0 x1 x2 x3 x4).2.1 = k0_pay11 x3 x4 (slab i (fillA x0 x1)) (slab i (fillB x0 x1)) x2 := by
  unfold rdO
  rw [View.read_writes_junk_eq_canon]
  unfold runFill
  dsimp only
  sl_unfold_words
  rw [View.canon_unit_zero hz2]
  unfold slab fillA fillB half0 half1 wt0 wt1 wt2
  simp only [View.readAt_writes_junk_eq_canon, View.readAt_eq_ld, harg2.read_unread, harg3.read_unread, harg4.read_unread, harg5.read_unread, harg6.read_unread, harg7.read_unread, harg8.read_unread, harg9.read_unread, harg10.read_unread, View.ld_unit_zero (S := S256x256) hz2, View.ld_unit_zero (S := S1x256x2048) hz3, View.ld_unit_zero (S := S1x256) hz2]
  rfl

end Pieces

end Cert.KernelIdeal.Body

end
-- ==== Proof.KI.Blocks.lean ====
/-
  Where the windows' blocks sit in their arrays, and that the scratch arrays never change after the
  first point.  The features, the weights and the bias are staged whole at every point; the block of
  an operator at point `t` is rows `256·(t/3) … 256·(t/3) + 255` of its matrix of order `t % 3`; an
  output tile at point `t` is rows `256·(t/3) …` of its array.
-/
import proofs.«171784_g38809324486710_cont_sun_c4_445_3_alg».proof.Proof.KI.Pieces

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The printed index maps, decided over the grid. -/
theorem idx_facts : ∀ t : Fin cfg0.N,
    win0_0.index t (0 : Fin 3) = 0 ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val % 3 ∧ win0_3.index t (1 : Fin 3) = t.val / 3 ∧ win0_3.index t (2 : Fin 3) = 0
    ∧ win0_4.index t (0 : Fin 3) = t.val % 3 ∧ win0_4.index t (1 : Fin 3) = t.val / 3 ∧ win0_4.index t (2 : Fin 3) = 0
    ∧ win0_5.index t (0 : Fin 2) = t.val / 3 ∧ win0_5.index t (1 : Fin 2) = 0
    ∧ win0_6.index t (0 : Fin 2) = t.val / 3 ∧ win0_6.index t (1 : Fin 2) = 0 :=
  (by decide +kernel : ∀ t : Fin grid0.N, _)

/-- The features are staged whole. -/
theorem blk0_apply (c : Dev nD) (t : Fin cfg0.N) (y : S2x2048x256.Idx) :
    (iblk m c 0 t : Vec F S2x2048x256 .f32) y = (m ((c : Thread nD τ).loc main_arg0) : S2x2048x256.Idx → Elt F .f32) y := by
  obtain ⟨e0, e1, e2, -⟩ := idx_facts t
  unfold iblk
  rw [View.read_apply]
  show V m c main_arg0 _ = m (c.tc.loc main_arg0) _
  unfold V
  congr 1
  funext a
  apply Fin.ext
  match a with
  | ⟨0, _⟩ => show win0_0.index t 0 * 2 + 1 * (y 0).val = (y 0).val; rw [e0]; omega
  | ⟨1, _⟩ => show win0_0.index t 1 * 2048 + 1 * (y 1).val = (y 1).val; rw [e1]; omega
  | ⟨2, _⟩ => show win0_0.index t 2 * 256 + 1 * (y 2).val = (y 2).val; rw [e2]; omega

/-- The weights are staged whole. -/
theorem blk1_apply (c : Dev nD) (t : Fin cfg0.N) (y : S3x256x256.Idx) :
    (iblk m c 1 t : Vec F S3x256x256 .f32) y = (m ((c : Thread nD τ).loc main_arg3) : S3x256x256.Idx → Elt F .f32) y := by
  obtain ⟨-, -, -, e0, e1, e2, -⟩ := idx_facts t
  unfold iblk
  rw [View.read_apply]
  show V m c main_arg3 _ = m (c.tc.loc main_arg3) _
  unfold V
  congr 1
  funext a
  apply Fin.ext
  match a with
  | ⟨0, _⟩ => show win0_1.index t 0 * 3 + 1 * (y 0).val = (y 0).val; rw [e0]; omega
  | ⟨1, _⟩ => show win0_1.index t 1 * 256 + 1 * (y 1).val = (y 1).val; rw [e1]; omega
  | ⟨2, _⟩ => show win0_1.index t 2 * 256 + 1 * (y 2).val = (y 2).val; rw [e2]; omega

/-- The bias row is staged whole. -/
theorem blk2_apply (c : Dev nD) (t : Fin cfg0.N) (y : S1x256.Idx) :
    (iblk m c 2 t : Vec F S1x256 .f32) y = (m ((c : Thread nD τ).loc main_arg4) : S1x256.Idx → Elt F .f32) y := by
  obtain ⟨-, -, -, -, -, -, e0, e1, -⟩ := idx_facts t
  unfold iblk
  rw [View.read_apply]
  show V m c main_arg4 _ = m (c.tc.loc main_arg4) _
  unfold V
  congr 1
  funext a
  apply Fin.ext
  match a with
  | ⟨0, _⟩ => show win0_2.index t 0 * 1 + 1 * (y 0).val = (y 0).val; rw [e0]; omega
  | ⟨1, _⟩ => show win0_2.index t 1 * 256 + 1 * (y 1).val = (y 1).val; rw [e1]; omega

/-- The block of the real operator at point `t`: order `t % 3`, rows from `256·(t/3)`. -/
theorem blk3_apply (c : Dev nD) (t : Fin cfg0.N) (y : S1x256x2048.Idx) (k : S3x2048x2048.Idx)
    (hk0 : (k 0).val = t.val % 3) (hk1 : (k 1).val = t.val / 3 * 256 + (y 1).val) (hk2 : (k 2).val = (y 2).val) :
    (iblk m c 3 t : Vec F S1x256x2048 .f32) y = (m ((c : Thread nD τ).loc main_arg1) : S3x2048x2048.Idx → Elt F .f32) k := by
  obtain ⟨-, -, -, -, -, -, -, -, e0, e1, e2, -⟩ := idx_facts t
  have hy0 : (y 0).val < 1 := (y 0).isLt
  unfold iblk
  rw [View.read_apply]
  show V m c main_arg1 _ = m (c.tc.loc main_arg1) _
  unfold V
  congr 1
  funext a
  apply Fin.ext
  match a with
  | ⟨0, _⟩ => show win0_3.index t 0 * 1 + 1 * (y 0).val = (k 0).val; rw [e0, hk0]; omega
  | ⟨1, _⟩ => show win0_3.index t 1 * 256 + 1 * (y 1).val = (k 1).val; rw [e1, hk1]; omega
  | ⟨2, _⟩ => show win0_3.index t 2 * 2048 + 1 * (y 2).val = (k 2).val; rw [e2, hk2]; omega

/-- The block of the imaginary operator at point `t`, likewise. -/
theorem blk4_apply (c : Dev nD) (t : Fin cfg0.N) (y : S1x256x2048.Idx) (k : S3x2048x2048.Idx)
    (hk0 : (k 0).val = t.val % 3) (hk1 : (k 1).val = t.val / 3 * 256 + (y 1).val) (hk2 : (k 2).val = (y 2).val) :
    (iblk m c 4 t : Vec F S1x256x2048 .f32) y = (m ((c : Thread nD τ).loc main_arg2) : S3x2048x2048.Idx → Elt F .f32) k := by
  obtain ⟨-, -, -, -, -, -, -, -, -, -, -, e0, e1, e2, -⟩ := idx_facts t
  have hy0 : (y 0).val < 1 := (y 0).isLt
  unfold iblk
  rw [View.read_apply]
  show V m c main_arg2 _ = m (c.tc.loc main_arg2) _
  unfold V
  congr 1
  funext a
  apply Fin.ext
  match a with
  | ⟨0, _⟩ => show win0_4.index t 0 * 1 + 1 * (y 0).val = (k 0).val; rw [e0, hk0]; omega
  | ⟨1, _⟩ => show win0_4.index t 1 * 256 + 1 * (y 1).val = (k 1).val; rw [e1, hk1]; omega
  | ⟨2, _⟩ => show win0_4.index t 2 * 2048 + 1 * (y 2).val = (k 2).val; rw [e2, hk2]; omega

/-! ## The cases' closed forms at a point of the grid -/

theorem fillAt_A (c : Dev nD) (t : Fin cfg0.N) (h : t.val = 0) : rdS (fillAt m c t h).2.2.1 = fillA (iblk m c 0 t) (iblk m c 1 t) :=
  fillA_eq c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scB (Memref.isWhole_whole _) (iblk m c 0 t) (iblk m c 1 t) (iblk m c 2 t) (iblk m c 3 t) (iblk m c 4 t) (fill_c0 t h) (fill_c1 t h) (fill_c2 t h)
theorem fillAt_B (c : Dev nD) (t : Fin cfg0.N) (h : t.val = 0) : rdS (fillAt m c t h).2.2.2.1 = fillB (iblk m c 0 t) (iblk m c 1 t) :=
  fillB_eq c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scB (Memref.isWhole_whole _) (iblk m c 0 t) (iblk m c 1 t) (iblk m c 2 t) (iblk m c 3 t) (iblk m c 4 t) (fill_c0 t h) (fill_c1 t h) (fill_c2 t h)
theorem fillAt_5 (c : Dev nD) (t : Fin cfg0.N) (h : t.val = 0) :
    rdO (fillAt m c t h).1 = k0_pay10 (iblk m c 3 t) (iblk m c 4 t) (slab (grid0.coords t) (fillA (iblk m c 0 t) (iblk m c 1 t))) (slab (grid0.coords t) (fillB (iblk m c 0 t) (iblk m c 1 t))) (iblk m c 2 t) :=
  fill5_eq c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scB (Memref.isWhole_whole _) (iblk m c 0 t) (iblk m c 1 t) (iblk m c 2 t) (iblk m c 3 t) (iblk m c 4 t) (fill_c0 t h) (fill_c1 t h) (fill_c2 t h)
theorem fillAt_6 (c : Dev nD) (t : Fin cfg0.N) (h : t.val = 0) :
    rdO (fillAt m c t h).2.1 = k0_pay11 (iblk m c 3 t) (iblk m c 4 t) (slab (grid0.coords t) (fillA (iblk m c 0 t) (iblk m c 1 t))) (slab (grid0.coords t) (fillB (iblk m c 0 t) (iblk m c 1 t))) (iblk m c 2 t) :=
  fill6_eq c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scB (Memref.isWhole_whole _) (iblk m c 0 t) (iblk m c 1 t) (iblk m c 2 t) (iblk m c 3 t) (iblk m c 4 t) (fill_c0 t h) (fill_c1 t h) (fill_c2 t h)
theorem firstAt_5 (c : Dev nD) (t : Fin cfg0.N) (hz : t.val ≠ 0) (h : t.val % 3 = 0) (xs0 xs1 : Vec F S3x2048x256 .bf16) :
    rdO (firstAt m c t hz h xs0 xs1).1 = k0_pay10 (iblk m c 3 t) (iblk m c 4 t) (slab (grid0.coords t) xs0) (slab (grid0.coords t) xs1) (iblk m c 2 t) :=
  first5_eq c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scB (Memref.isWhole_whole _) (iblk m c 0 t) (iblk m c 1 t) (iblk m c 2 t) (iblk m c 3 t) (iblk m c 4 t) (first_c0 t hz) (first_c1 t h) (first_c2 t h) xs0 xs1
theorem firstAt_6 (c : Dev nD) (t : Fin cfg0.N) (hz : t.val ≠ 0) (h : t.val % 3 = 0) (xs0 xs1 : Vec F S3x2048x256 .bf16) :
    rdO (firstAt m c t hz h xs0 xs1).2.1 = k0_pay11 (iblk m c 3 t) (iblk m c 4 t) (slab (grid0.coords t) xs0) (slab (grid0.coords t) xs1) (iblk m c 2 t) :=
  first6_eq c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scB (Memref.isWhole_whole _) (iblk m c 0 t) (iblk m c 1 t) (iblk m c 2 t) (iblk m c 3 t) (iblk m c 4 t) (first_c0 t hz) (first_c1 t h) (first_c2 t h) xs0 xs1
theorem accAt_5 (c : Dev nD) (t : Fin cfg0.N) (h : ¬t.val % 3 = 0) (xo5 xo6 : Vec F S256x256 .f32) (xs0 xs1 : Vec F S3x2048x256 .bf16) :
    rdO (accAt m c t h xo5 xo6 xs0 xs1).1 = k0_pay12 (iblk m c 3 t) (iblk m c 4 t) (slab (grid0.coords t) xs0) (slab (grid0.coords t) xs1) xo5 :=
  acc5_eq c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scB (Memref.isWhole_whole _) (iblk m c 0 t) (iblk m c 1 t) (iblk m c 2 t) (iblk m c 3 t) (iblk m c 4 t) (acc_c0 t h) (acc_c1 t h) (acc_c2 t h) xo5 xo6 xs0 xs1
theorem accAt_6 (c : Dev nD) (t : Fin cfg0.N) (h : ¬t.val % 3 = 0) (xo5 xo6 : Vec F S256x256 .f32) (xs0 xs1 : Vec F S3x2048x256 .bf16) :
    rdO (accAt m c t h xo5 xo6 xs0 xs1).2.1 = k0_pay13 (iblk m c 3 t) (iblk m c 4 t) (slab (grid0.coords t) xs0) (slab (grid0.coords t) xs1) xo6 :=
  acc6_eq c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scB (Memref.isWhole_whole _) (iblk m c 0 t) (iblk m c 1 t) (iblk m c 2 t) (iblk m c 3 t) (iblk m c 4 t) (acc_c0 t h) (acc_c1 t h) (acc_c2 t h) xo5 xo6 xs0 xs1

/-- The first grid point. -/
abbrev tFirst : Fin cfg0.N := ⟨0, by rw [show cfg0.N = 24 from N_0]; decide⟩

/-- After every point the scratch arrays hold what the first point stored: the products of the two
    halves of the features with the three weight matrices. -/
theorem scratch_const (c : Dev nD) : ∀ (n : ℕ) (hn : n < cfg0.N),
    (outsAt m c n hn).2.2.1 = fillA (iblk m c 0 tFirst) (iblk m c 1 tFirst)
    ∧ (outsAt m c n hn).2.2.2 = fillB (iblk m c 0 tFirst) (iblk m c 1 tFirst)
  | 0, hn => by
    rw [outsAt_fill m c ⟨0, hn⟩ rfl]
    dsimp only
    exact ⟨fillAt_A m c ⟨0, hn⟩ rfl, fillAt_B m c ⟨0, hn⟩ rfl⟩
  | n + 1, hn => by
    have ih := scratch_const c n (Nat.lt_of_succ_lt hn)
    by_cases h : (n + 1) % 3 = 0
    · rw [outsAt_first m c ⟨n + 1, hn⟩ (Nat.succ_ne_zero n) h]
      dsimp only
      exact ih
    · rw [outsAt_acc m c ⟨n + 1, hn⟩ h]
      dsimp only
      exact ih

end Cert.KernelIdeal.Body

end
-- ==== Proof.LibBlockRead.lean ====
/-
  Vector operations of a rank-two block read at an index written by its two coordinates, at any extents.

  * a column `[a, 1]` broadcast along the rows to `[a, b]` reads, at `(p, c)`, the column at `p`;
  * a vector `[a]` cast to a column `[a, 1]` reads, at `(p, 0)`, the vector at `p`;
  * the sum of a `[a, b]` block along its second axis is, at row `p`, the sum over `k` of the block at `(p, k)`;
  * a matrix product `[m, k] · [k, n]` into a zero accumulator is, at `(p, c)`, the sum over `t` of the left factor
    at `(p, t)` times the right factor at `(t, c)` — given where the dimension numbers send an output index and a
    contraction index (four coordinate facts, each one line at a literal record).
-/
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.Sage.BlockRead

open Idealize.ShloMosaic Idealize.ShloMosaic.ValueIdx

variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A vector `[a]` cast to a column `[a, 1]` reads, at `(p, u)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- The sum of a `[a, b]` block along its second axis, at row `p`: the sum over `k` of the block at `(p, k)`. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A product of a `[m, k]` block with a `[k, n]` block into a zero accumulator, at `(p, c)`. -/
theorem matmul_apply2 {m k n : ℕ} {φ₁ φ₂ : FTy} (D : DotDims ⟨2, ![m, k]⟩ ⟨2, ![k, n]⟩ ⟨2, ![m, n]⟩)
    (prec : Option ContractPrecision) (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (lhs : FVec Ideal ⟨2, ![m, k]⟩ φ₁) (rhs : FVec Ideal ⟨2, ![k, n]⟩ φ₂) (p : Fin m) (c : Fin n) :
    FloatOps.matmul D prec lhs rhs (constant ⟨2, ![m, n]⟩ .f32 0x00000000#32) (ix2 p c)
      = ∑ t : Fin k, lhs (ix2 p t) * rhs (ix2 t c) := by
  rw [Ideal.matmul_constant_zero_apply, ← Equiv.sum_comp (contrEquiv1 D k hr hs).symm]
  refine Finset.sum_congr rfl fun t _ => ?_
  have hk := contrEquiv1_symm_val D k hr hs t
  have el : D.lhsIdx (ix2 p c) ((contrEquiv1 D k hr hs).symm t) = ix2 p t := funext fun ax => Fin.ext (by
    match ax with
    | ⟨0, _⟩ => exact hl0 _ _
    | ⟨1, _⟩ => exact (hl1 _ _).trans hk)
  have er : D.rhsIdx (ix2 p c) ((contrEquiv1 D k hr hs).symm t) = ix2 t c := funext fun ax => Fin.ext (by
    match ax with
    | ⟨0, _⟩ => exact (hr0 _ _).trans hk
    | ⟨1, _⟩ => exact hr1 _ _)
  rw [el, er]

end Cert.Sage.BlockRead

end
-- ==== Proof.KI.PayAt.lean ====
/-
  The kernel body's arithmetic, read at an index, on the extended reals.

  A row tile of 256 nodes is handled per grid point. Once, at the first point, each half of the node features is
  multiplied by each order's weights (a `[2048, 256] · [256, 256]` product into a zero accumulator) and kept; at every
  point the tile's 256 rows of the order's operator parts meet those kept products (a `[256, 2048] · [2048, 256]`
  product): the real part is the difference of the two products, the imaginary part their sum; the order-0 point adds
  the bias row, the later points add to what the tile already holds. On the extended reals a change of float format is
  the identity and a cast between `[1, a, b]` and `[a, b]` only renames the index, so each of these values, at an index
  written by its coordinates, is a finite sum of products of the loaded blocks' entries. A block loaded from a slab of
  an array with a leading axis reads, at `(0, a, b)`, the array at `(k, a, b)`.
-/
import proofs.«171784_g38809324486710_cont_sun_c4_445_3_alg».proof.Proof.Gen.KernelIdeal.Skeleton
import proofs.«171784_g38809324486710_cont_sun_c4_445_3_alg».proof.Proof.LibBlockRead

noncomputable section

namespace Cert.KernelIdeal.PayAt

open Cert.KernelIdeal Cert.KernelIdeal.Gen Idealize.ShloMosaic Idealize.ShloMosaic.ValueIdx Cert.Sage.BlockRead

/-! ## Where the two products' dimension numbers send an output index and a contraction index -/

theorem lx_l0 (i : S256x256.Idx) (q : dot_S256x2048_S2048x256_S256x256_1_0_0_1_n_n.contr.Idx) : (dot_S256x2048_S2048x256_S256x256_1_0_0_1_n_n.lhsIdx i q 0).val = (i 0).val := by
  unfold DotDims.lhsIdx
  rw [dif_neg (show ¬(0 : Fin S256x2048.rank) ∈ dot_S256x2048_S2048x256_S256x256_1_0_0_1_n_n.lhsBatch by decide),
    dif_pos (show (0 : Fin S256x2048.rank) ∈ dot_S256x2048_S2048x256_S256x256_1_0_0_1_n_n.lhsNonContracting by decide)]
  rfl
theorem lx_l1 (i : S256x256.Idx) (q : dot_S256x2048_S2048x256_S256x256_1_0_0_1_n_n.contr.Idx) : (dot_S256x2048_S2048x256_S256x256_1_0_0_1_n_n.lhsIdx i q 1).val = (q ⟨0, by decide⟩).val :=
  dot_S256x2048_S2048x256_S256x256_1_0_0_1_n_n.lhsIdx_val_of_single rfl i q
theorem lx_r0 (i : S256x256.Idx) (q : dot_S256x2048_S2048x256_S256x256_1_0_0_1_n_n.contr.Idx) : (dot_S256x2048_S2048x256_S256x256_1_0_0_1_n_n.rhsIdx i q 0).val = (q ⟨0, by decide⟩).val :=
  dot_S256x2048_S2048x256_S256x256_1_0_0_1_n_n.rhsIdx_val_of_single rfl i q
theorem lx_r1 (i : S256x256.Idx) (q : dot_S256x2048_S2048x256_S256x256_1_0_0_1_n_n.contr.Idx) : (dot_S256x2048_S2048x256_S256x256_1_0_0_1_n_n.rhsIdx i q 1).val = (i 1).val := by
  unfold DotDims.rhsIdx
  rw [dif_neg (show ¬(1 : Fin S2048x256.rank) ∈ dot_S256x2048_S2048x256_S256x256_1_0_0_1_n_n.rhsBatch by decide),
    dif_pos (show (1 : Fin S2048x256.rank) ∈ dot_S256x2048_S2048x256_S256x256_1_0_0_1_n_n.rhsNonContracting by decide)]
  rfl

theorem xw_l0 (i : S2048x256.Idx) (q : dot_S2048x256_S256x256_S2048x256_1_0_0_1_n_n.contr.Idx) : (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl
theorem xw_l1 (i : S2048x256.Idx) (q : dot_S2048x256_S256x256_S2048x256_1_0_0_1_n_n.contr.Idx) : (dot_S2048x256_S256x256_S2048x256_1_0_0_1_n_n.lhsIdx i q 1).val = (q ⟨0, by decide⟩).val :=
  dot_S2048x256_S256x256_S2048x256_1_0_0_1_n_n.lhsIdx_val_of_single rfl i q
theorem xw_r0 (i : S2048x256.Idx) (q : dot_S2048x256_S256x256_S2048x256_1_0_0_1_n_n.contr.Idx) : (dot_S2048x256_S256x256_S2048x256_1_0_0_1_n_n.rhsIdx i q 0).val = (q ⟨0, by decide⟩).val :=
  dot_S2048x256_S256x256_S2048x256_1_0_0_1_n_n.rhsIdx_val_of_single rfl i q
theorem xw_r1 (i : S2048x256.Idx) (q : dot_S2048x256_S256x256_S2048x256_1_0_0_1_n_n.contr.Idx) : (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- The operator tile times a kept product, at row `p` and column `q`. -/
theorem lx_mm_at {φ₁ φ₂ : FTy} (lhs : FVec Ideal S256x2048 φ₁) (rhs : FVec Ideal S2048x256 φ₂) (p q : Fin 256) :
    matmul dot_S256x2048_S2048x256_S256x256_1_0_0_1_n_n none lhs rhs (constant S256x256 .f32 0x00000000#32) (ix2 p q)
      = ∑ t : Fin 2048, lhs (ix2 p t) * rhs (ix2 t q) :=
  matmul_apply2 dot_S256x2048_S2048x256_S256x256_1_0_0_1_n_n none rfl rfl lx_l0 lx_l1 lx_r0 lx_r1 lhs rhs p q

/-- A half of the features times an order's weights, at node `jj` and column `q`. -/
theorem xw_mm_at {φ₁ φ₂ : FTy} (lhs : FVec Ideal S2048x256 φ₁) (rhs : FVec Ideal S256x256 φ₂) (jj : Fin 2048) (q : Fin 256) :
    matmul dot_S2048x256_S256x256_S2048x256_1_0_0_1_n_n none lhs rhs (constant S2048x256 .f32 0x00000000#32) (ix2 jj q)
      = ∑ t : Fin 256, lhs (ix2 jj t) * rhs (ix2 t q) :=
  matmul_apply2 dot_S2048x256_S256x256_S2048x256_1_0_0_1_n_n none rfl rfl xw_l0 xw_l1 xw_r0 xw_r1 lhs rhs jj q

/-! ## The tile's real and imaginary parts of one order -/

/-- The real part: the real operator rows against the kept real-half product, less the imaginary operator rows
    against the kept imaginary-half product. -/
theorem pay8_at (v5 v8 : Vec Ideal S1x256x2048 .f32) (v12 v15 : Vec Ideal S1x2048x256 .bf16) (p q : Fin 256) :
    k0_pay8 (F := Ideal) v5 v8 v12 v15 (ix2 p q)
      = (∑ j : Fin 2048, v5 (ix3 0 p j) * v12 (ix3 0 j q)) - (∑ j : Fin 2048, v8 (ix3 0 p j) * v15 (ix3 0 j q)) := by
  unfold k0_pay8
  rw [subf_apply, lx_mm_at, lx_mm_at]
  simp only [k0_pay4, k0_pay5, k0_pay6, k0_pay7, truncf_apply, shapeCast_1ab_ab_apply]

/-- The imaginary part: the imaginary operator rows against the real-half product, plus the real operator rows
    against the imaginary-half product. -/
theorem pay9_at (v5 v8 : Vec Ideal S1x256x2048 .f32) (v12 v15 : Vec Ideal S1x2048x256 .bf16) (p q : Fin 256) :
    k0_pay9 (F := Ideal) v5 v8 v12 v15 (ix2 p q)
      = (∑ j : Fin 2048, v8 (ix3 0 p j) * v12 (ix3 0 j q)) + (∑ j : Fin 2048, v5 (ix3 0 p j) * v15 (ix3 0 j q)) := by
  unfold k0_pay9
  rw [addf_apply, lx_mm_at, lx_mm_at]
  simp only [k0_pay4, k0_pay5, k0_pay6, k0_pay7, truncf_apply, shapeCast_1ab_ab_apply]

/-! ## What a point stores: the order-0 point joins the bias row, a later point adds to the tile -/

theorem pay10_at (v5 v8 : Vec Ideal S1x256x2048 .f32) (v12 v15 : Vec Ideal S1x2048x256 .bf16) (v29 : Vec Ideal S1x256 .f32)
    (p q : Fin 256) :
    k0_pay10 (F := Ideal) v5 v8 v12 v15 v29 (ix2 p q) = k0_pay8 (F := Ideal) v5 v8 v12 v15 (ix2 p q) + v29 (ix2 0 q) := by
  unfold k0_pay10
  rw [addf_apply, broadcastTo_1b_ab_apply]

theorem pay11_at (v5 v8 : Vec Ideal S1x256x2048 .f32) (v12 v15 : Vec Ideal S1x2048x256 .bf16) (v33 : Vec Ideal S1x256 .f32)
    (p q : Fin 256) :
    k0_pay11 (F := Ideal) v5 v8 v12 v15 v33 (ix2 p q) = k0_pay9 (F := Ideal) v5 v8 v12 v15 (ix2 p q) + v33 (ix2 0 q) := by
  unfold k0_pay11
  rw [addf_apply, broadcastTo_1b_ab_apply]

theorem pay12_at (v5 v8 : Vec Ideal S1x256x2048 .f32) (v12 v15 : Vec Ideal S1x2048x256 .bf16) (xo : Vec Ideal S256x256 .f32)
    (p q : Fin 256) :
    k0_pay12 (F := Ideal) v5 v8 v12 v15 xo (ix2 p q) = xo (ix2 p q) + k0_pay8 (F := Ideal) v5 v8 v12 v15 (ix2 p q) := by
  unfold k0_pay12
  rw [addf_apply, shapeCast_self]

theorem pay13_at (v5 v8 : Vec Ideal S1x256x2048 .f32) (v12 v15 : Vec Ideal S1x2048x256 .bf16) (xo : Vec Ideal S256x256 .f32)
    (p q : Fin 256) :
    k0_pay13 (F := Ideal) v5 v8 v12 v15 xo (ix2 p q) = xo (ix2 p q) + k0_pay9 (F := Ideal) v5 v8 v12 v15 (ix2 p q) := by
  unfold k0_pay13
  rw [addf_apply, shapeCast_self]

/-! ## The kept products of the features with the weights -/

/-- The product of one half of the features with one order's weights, stored with a unit leading axis. -/
theorem pay17_at (v29 : Vec Ideal S1x2048x256 .f32) (v33 : Vec Ideal S1x256x256 .f32) (jj : Fin 2048) (q : Fin 256) :
    k0_pay17 (F := Ideal) v29 v33 (ix3 0 jj q) = ∑ f : Fin 256, v29 (ix3 0 jj f) * v33 (ix3 0 f q) := by
  unfold k0_pay17
  rw [shapeCast_ab_1ab_apply, truncf_apply, xw_mm_at]
  refine Finset.sum_congr rfl fun f _ => ?_
  simp only [k0_pay14, k0_pay16, shapeCast_1ab_ab_apply]

/-- The product of one half of the features with one order's weights, stored with a unit leading axis. -/
theorem pay18_at (v31 : Vec Ideal S1x2048x256 .f32) (v33 : Vec Ideal S1x256x256 .f32) (jj : Fin 2048) (q : Fin 256) :
    k0_pay18 (F := Ideal) v31 v33 (ix3 0 jj q) = ∑ f : Fin 256, v31 (ix3 0 jj f) * v33 (ix3 0 f q) := by
  unfold k0_pay18
  rw [shapeCast_ab_1ab_apply, truncf_apply, xw_mm_at]
  refine Finset.sum_congr rfl fun f _ => ?_
  simp only [k0_pay15, k0_pay16, shapeCast_1ab_ab_apply]

/-- The product of one half of the features with one order's weights, stored with a unit leading axis. -/
theorem pay20_at (v29 : Vec Ideal S1x2048x256 .f32) (v45 : Vec Ideal S1x256x256 .f32) (jj : Fin 2048) (q : Fin 256) :
    k0_pay20 (F := Ideal) v29 v45 (ix3 0 jj q) = ∑ f : Fin 256, v29 (ix3 0 jj f) * v45 (ix3 0 f q) := by
  unfold k0_pay20
  rw [shapeCast_ab_1ab_apply, truncf_apply, xw_mm_at]
  refine Finset.sum_congr rfl fun f _ => ?_
  simp only [k0_pay14, k0_pay19, shapeCast_1ab_ab_apply]

/-- The product of one half of the features with one order's weights, stored with a unit leading axis. -/
theorem pay21_at (v31 : Vec Ideal S1x2048x256 .f32) (v45 : Vec Ideal S1x256x256 .f32) (jj : Fin 2048) (q : Fin 256) :
    k0_pay21 (F := Ideal) v31 v45 (ix3 0 jj q) = ∑ f : Fin 256, v31 (ix3 0 jj f) * v45 (ix3 0 f q) := by
  unfold k0_pay21
  rw [shapeCast_ab_1ab_apply, truncf_apply, xw_mm_at]
  refine Finset.sum_congr rfl fun f _ => ?_
  simp only [k0_pay15, k0_pay19, shapeCast_1ab_ab_apply]

/-- The product of one half of the features with one order's weights, stored with a unit leading axis. -/
theorem pay2_at (v29 : Vec Ideal S1x2048x256 .f32) (v57 : Vec Ideal S1x256x256 .f32) (jj : Fin 2048) (q : Fin 256) :
    k0_pay2 (F := Ideal) (k0_pay14 v29) v57 (ix3 0 jj q) = ∑ f : Fin 256, v29 (ix3 0 jj f) * v57 (ix3 0 f q) := by
  unfold k0_pay2
  rw [shapeCast_ab_1ab_apply, truncf_apply, xw_mm_at]
  refine Finset.sum_congr rfl fun f _ => ?_
  simp only [k0_pay14, k0_pay1, shapeCast_1ab_ab_apply]

/-- The product of one half of the features with one order's weights, stored with a unit leading axis. -/
theorem pay3_at (v31 : Vec Ideal S1x2048x256 .f32) (v57 : Vec Ideal S1x256x256 .f32) (jj : Fin 2048) (q : Fin 256) :
    k0_pay3 (F := Ideal) (k0_pay15 v31) v57 (ix3 0 jj q) = ∑ f : Fin 256, v31 (ix3 0 jj f) * v57 (ix3 0 f q) := by
  unfold k0_pay3
  rw [shapeCast_ab_1ab_apply, truncf_apply, xw_mm_at]
  refine Finset.sum_congr rfl fun f _ => ?_
  simp only [k0_pay15, k0_pay1, shapeCast_1ab_ab_apply]

/-! ## A block loaded from a slab along the leading axis -/

variable {Val : EltTy → Type} {e : EltTy}

/-- Slab `k` of a `[3, 2048, 256]` array, at `(0, jj, q)`, is the array at `(k, jj, q)`. -/
theorem slab3_at (X : S3x2048x256.Idx → Val e) (off : Fin 3 → ℕ) (k : Fin 3) (hoff : off = ![k.val, 0, 0])
    (inb : ∀ a, off a + S1x2048x256.size a ≤ S3x2048x256.size a) (jj : Fin 2048) (q : Fin 256) :
    View.ld X (Rect.unit (s := S3x2048x256) off S1x2048x256.size inb) (ix3 0 jj q) = X (ix3 k jj q) := by
  subst hoff
  show X ((Rect.unit (s := S3x2048x256) ![k.val, 0, 0] S1x2048x256.size inb).idx (ix3 0 jj q)) = X (ix3 k jj q)
  refine congrArg X (funext fun a => Fin.ext ?_)
  match a with
  | ⟨0, _⟩ => show k.val + 1 * 0 = k.val; omega
  | ⟨1, _⟩ => show 0 + 1 * jj.val = jj.val; omega
  | ⟨2, _⟩ => show 0 + 1 * q.val = q.val; omega

/-- Half `h` of the `[2, 2048, 256]` node features, at `(0, jj, f)`, is the features at `(h, jj, f)`. -/
theorem half_at (X : S2x2048x256.Idx → Val e) (off : Fin 3 → ℕ) (h : Fin 2) (hoff : off = ![h.val, 0, 0])
    (inb : ∀ a, off a + S1x2048x256.size a ≤ S2x2048x256.size a) (jj : Fin 2048) (f : Fin 256) :
    View.ld X (Rect.unit (s := S2x2048x256) off S1x2048x256.size inb) (ix3 0 jj f) = X (ix3 h jj f) := by
  subst hoff
  show X ((Rect.unit (s := S2x2048x256) ![h.val, 0, 0] S1x2048x256.size inb).idx (ix3 0 jj f)) = X (ix3 h jj f)
  refine congrArg X (funext fun a => Fin.ext ?_)
  match a with
  | ⟨0, _⟩ => show h.val + 1 * 0 = h.val; omega
  | ⟨1, _⟩ => show 0 + 1 * jj.val = jj.val; omega
  | ⟨2, _⟩ => show 0 + 1 * f.val = f.val; omega

/-- Order `k` of the `[3, 256, 256]` weights, at `(0, f, q)`, is the weights at `(k, f, q)`. -/
theorem weights_at (X : S3x256x256.Idx → Val e) (off : Fin 3 → ℕ) (k : Fin 3) (hoff : off = ![k.val, 0, 0])
    (inb : ∀ a, off a + S1x256x256.size a ≤ S3x256x256.size a) (f q : Fin 256) :
    View.ld X (Rect.unit (s := S3x256x256) off S1x256x256.size inb) (ix3 0 f q) = X (ix3 k f q) := by
  subst hoff
  show X ((Rect.unit (s := S3x256x256) ![k.val, 0, 0] S1x256x256.size inb).idx (ix3 0 f q)) = X (ix3 k f q)
  refine congrArg X (funext fun a => Fin.ext ?_)
  match a with
  | ⟨0, _⟩ => show k.val + 1 * 0 = k.val; omega
  | ⟨1, _⟩ => show 0 + 1 * f.val = f.val; omega
  | ⟨2, _⟩ => show 0 + 1 * q.val = q.val; omega

end Cert.KernelIdeal.PayAt

end
-- ==== Proof.KI.FillAt.lean ====
/-
  What the first grid point keeps, and what a later point loads back, at an index.

  The first point writes, into each of the two kept arrays of shape `[3, 2048, 256]`, one slab per order: slab `k` of the
  first is the real half of the node features times the order-`k` weights, slab `k` of the second the imaginary half
  times the same weights. The three slabs are disjoint along the leading axis and cover it, so the array the writes
  leave has, at `(k, j, q)`, the sum over the features `f` of the half's entry `(j, f)` times the weights' entry
  `(k, f, q)`. A later point loads one slab back: its entry `(0, j, q)` is the array's entry `(k, j, q)` for the order
  `k` the point's coordinates name.
-/
import proofs.«171784_g38809324486710_cont_sun_c4_445_3_alg».proof.Proof.KI.PayAt
import proofs.«171784_g38809324486710_cont_sun_c4_445_3_alg».proof.Proof.KI.Forms

noncomputable section

namespace Cert.KernelIdeal.PayAt

open Cert.KernelIdeal Cert.KernelIdeal.Gen Cert.KernelIdeal.Body Idealize.ShloMosaic Idealize.ShloMosaic.ValueIdx

/-! ## The loaded halves of the features and the loaded weights -/

theorem half0_at (x0 : Vec Ideal S2x2048x256 .f32) (j : Fin 2048) (f : Fin 256) :
    half0 (F := Ideal) x0 (ix3 0 j f) = x0 (ix3 0 j f) := half_at x0 _ 0 rfl _ j f
theorem half1_at (x0 : Vec Ideal S2x2048x256 .f32) (j : Fin 2048) (f : Fin 256) :
    half1 (F := Ideal) x0 (ix3 0 j f) = x0 (ix3 1 j f) := half_at x0 _ 1 rfl _ j f
theorem wt0_at (x1 : Vec Ideal S3x256x256 .f32) (f q : Fin 256) :
    wt0 (F := Ideal) x1 (ix3 0 f q) = x1 (ix3 0 f q) := weights_at x1 _ 0 rfl _ f q
theorem wt1_at (x1 : Vec Ideal S3x256x256 .f32) (f q : Fin 256) :
    wt1 (F := Ideal) x1 (ix3 0 f q) = x1 (ix3 1 f q) := weights_at x1 _ 1 rfl _ f q
theorem wt2_at (x1 : Vec Ideal S3x256x256 .f32) (f q : Fin 256) :
    wt2 (F := Ideal) x1 (ix3 0 f q) = x1 (ix3 2 f q) := weights_at x1 _ 2 rfl _ f q

/-! ## Three slabs along the leading axis -/

/-- Slab `k`'s index `(0, j, q)` sits at `(k, j, q)` of the array. -/
theorem emb_slab_at (off : Fin 3 → ℕ) (k : Fin 3) (hoff : off = ![k.val, 0, 0])
    (inb : ∀ a, off a + S1x2048x256.size a ≤ S3x2048x256.size a) (j : Fin 2048) (q : Fin 256) :
    (Rect.unit (s := S3x2048x256) off S1x2048x256.size inb).emb (ix3 0 j q) = ix3 k j q := by
  subst hoff
  refine funext fun a => Fin.ext ?_
  match a with
  | ⟨0, _⟩ => show k.val + 1 * 0 = k.val; omega
  | ⟨1, _⟩ => show 0 + 1 * j.val = j.val; omega
  | ⟨2, _⟩ => show 0 + 1 * q.val = q.val; omega

/-- An index of slab `k` lies outside every other slab. -/
theorem not_mem_slab (off : Fin 3 → ℕ) (k' : Fin 3) (hoff : off = ![k'.val, 0, 0])
    (inb : ∀ a, off a + S1x2048x256.size a ≤ S3x2048x256.size a) (k : Fin 3) (hne : k ≠ k') (j : Fin 2048) (q : Fin 256) :
    ix3 k j q ∉ (Rect.unit (s := S3x2048x256) off S1x2048x256.size inb).set := by
  subst hoff
  rw [Rect.mem_set_unit]
  intro h
  have h1 : k'.val ≤ k.val := (h 0).1
  have h2 : k.val < k'.val + 1 := (h 0).2
  exact hne (Fin.ext (by omega))

variable {Val : EltTy → Type} [∀ e, Nonempty (Val e)] {e : EltTy}

/-- The array three slab writes leave — order 0 first, order 2 last — has the order-0 payload on slab 0, -/
theorem three_slabs_0 (w2 w1 w0 : S1x2048x256.Idx → Val e) (j : Fin 2048) (q : Fin 256) :
    View.canon (Val := Val) (s := S3x2048x256) (e := e) [⟨(Rect.unit (s := S3x2048x256) ![2, 0, 0] S1x2048x256.size inb_S3x2048x256_S1x2048x256_2_0_0), w2⟩, ⟨(Rect.unit (s := S3x2048x256) ![1, 0, 0] S1x2048x256.size inb_S3x2048x256_S1x2048x256_1_0_0), w1⟩, ⟨(Rect.unit (s := S3x2048x256) ![0, 0, 0] S1x2048x256.size inb_S3x2048x256_S1x2048x256_0_0_0), w0⟩] (ix3 0 j q) = w0 (ix3 0 j q) := by
  have n2 := not_mem_slab ![2, 0, 0] 2 rfl inb_S3x2048x256_S1x2048x256_2_0_0 0 (by decide) j q
  have n1 := not_mem_slab ![1, 0, 0] 1 rfl inb_S3x2048x256_S1x2048x256_1_0_0 0 (by decide) j q
  have e0 := emb_slab_at ![0, 0, 0] 0 rfl inb_S3x2048x256_S1x2048x256_0_0_0 j q
  refine (View.canon_cons_of_not_mem (⟨(Rect.unit (s := S3x2048x256) ![2, 0, 0] S1x2048x256.size inb_S3x2048x256_S1x2048x256_2_0_0), w2⟩ : View.Piece Val S3x2048x256 e) [(⟨(Rect.unit (s := S3x2048x256) ![1, 0, 0] S1x2048x256.size inb_S3x2048x256_S1x2048x256_1_0_0), w1⟩ : View.Piece Val S3x2048x256 e), (⟨(Rect.unit (s := S3x2048x256) ![0, 0, 0] S1x2048x256.size inb_S3x2048x256_S1x2048x256_0_0_0), w0⟩ : View.Piece Val S3x2048x256 e)] n2).trans ?_
  refine (View.canon_cons_of_not_mem (⟨(Rect.unit (s := S3x2048x256) ![1, 0, 0] S1x2048x256.size inb_S3x2048x256_S1x2048x256_1_0_0), w1⟩ : View.Piece Val S3x2048x256 e) [(⟨(Rect.unit (s := S3x2048x256) ![0, 0, 0] S1x2048x256.size inb_S3x2048x256_S1x2048x256_0_0_0), w0⟩ : View.Piece Val S3x2048x256 e)] n1).trans ?_
  refine (congrArg (View.canon [(⟨(Rect.unit (s := S3x2048x256) ![0, 0, 0] S1x2048x256.size inb_S3x2048x256_S1x2048x256_0_0_0), w0⟩ : View.Piece Val S3x2048x256 e)]) e0.symm).trans ?_
  exact View.canon_cons_emb (Rect.unit (s := S3x2048x256) ![0, 0, 0] S1x2048x256.size inb_S3x2048x256_S1x2048x256_0_0_0) w0 [] (ix3 0 j q)

/-- the order-1 payload on slab 1, -/
theorem three_slabs_1 (w2 w1 w0 : S1x2048x256.Idx → Val e) (j : Fin 2048) (q : Fin 256) :
    View.canon (Val := Val) (s := S3x2048x256) (e := e) [⟨(Rect.unit (s := S3x2048x256) ![2, 0, 0] S1x2048x256.size inb_S3x2048x256_S1x2048x256_2_0_0), w2⟩, ⟨(Rect.unit (s := S3x2048x256) ![1, 0, 0] S1x2048x256.size inb_S3x2048x256_S1x2048x256_1_0_0), w1⟩, ⟨(Rect.unit (s := S3x2048x256) ![0, 0, 0] S1x2048x256.size inb_S3x2048x256_S1x2048x256_0_0_0), w0⟩] (ix3 1 j q) = w1 (ix3 0 j q) := by
  have n2 := not_mem_slab ![2, 0, 0] 2 rfl inb_S3x2048x256_S1x2048x256_2_0_0 1 (by decide) j q
  have e1 := emb_slab_at ![1, 0, 0] 1 rfl inb_S3x2048x256_S1x2048x256_1_0_0 j q
  refine (View.canon_cons_of_not_mem (⟨(Rect.unit (s := S3x2048x256) ![2, 0, 0] S1x2048x256.size inb_S3x2048x256_S1x2048x256_2_0_0), w2⟩ : View.Piece Val S3x2048x256 e) [(⟨(Rect.unit (s := S3x2048x256) ![1, 0, 0] S1x2048x256.size inb_S3x2048x256_S1x2048x256_1_0_0), w1⟩ : View.Piece Val S3x2048x256 e), (⟨(Rect.unit (s := S3x2048x256) ![0, 0, 0] S1x2048x256.size inb_S3x2048x256_S1x2048x256_0_0_0), w0⟩ : View.Piece Val S3x2048x256 e)] n2).trans ?_
  refine (congrArg (View.canon [(⟨(Rect.unit (s := S3x2048x256) ![1, 0, 0] S1x2048x256.size inb_S3x2048x256_S1x2048x256_1_0_0), w1⟩ : View.Piece Val S3x2048x256 e), (⟨(Rect.unit (s := S3x2048x256) ![0, 0, 0] S1x2048x256.size inb_S3x2048x256_S1x2048x256_0_0_0), w0⟩ : View.Piece Val S3x2048x256 e)]) e1.symm).trans ?_
  exact View.canon_cons_emb (Rect.unit (s := S3x2048x256) ![1, 0, 0] S1x2048x256.size inb_S3x2048x256_S1x2048x256_1_0_0) w1 [(⟨(Rect.unit (s := S3x2048x256) ![0, 0, 0] S1x2048x256.size inb_S3x2048x256_S1x2048x256_0_0_0), w0⟩ : View.Piece Val S3x2048x256 e)] (ix3 0 j q)

/-- and the order-2 payload on slab 2. -/
theorem three_slabs_2 (w2 w1 w0 : S1x2048x256.Idx → Val e) (j : Fin 2048) (q : Fin 256) :
    View.canon (Val := Val) (s := S3x2048x256) (e := e) [⟨(Rect.unit (s := S3x2048x256) ![2, 0, 0] S1x2048x256.size inb_S3x2048x256_S1x2048x256_2_0_0), w2⟩, ⟨(Rect.unit (s := S3x2048x256) ![1, 0, 0] S1x2048x256.size inb_S3x2048x256_S1x2048x256_1_0_0), w1⟩, ⟨(Rect.unit (s := S3x2048x256) ![0, 0, 0] S1x2048x256.size inb_S3x2048x256_S1x2048x256_0_0_0), w0⟩] (ix3 2 j q) = w2 (ix3 0 j q) := by
  have e2 := emb_slab_at ![2, 0, 0] 2 rfl inb_S3x2048x256_S1x2048x256_2_0_0 j q
  refine (congrArg (View.canon [⟨(Rect.unit (s := S3x2048x256) ![2, 0, 0] S1x2048x256.size inb_S3x2048x256_S1x2048x256_2_0_0), w2⟩, ⟨(Rect.unit (s := S3x2048x256) ![1, 0, 0] S1x2048x256.size inb_S3x2048x256_S1x2048x256_1_0_0), w1⟩, ⟨(Rect.unit (s := S3x2048x256) ![0, 0, 0] S1x2048x256.size inb_S3x2048x256_S1x2048x256_0_0_0), w0⟩]) e2.symm).trans ?_
  exact View.canon_cons_emb (Rect.unit (s := S3x2048x256) ![2, 0, 0] S1x2048x256.size inb_S3x2048x256_S1x2048x256_2_0_0) w2 [(⟨(Rect.unit (s := S3x2048x256) ![1, 0, 0] S1x2048x256.size inb_S3x2048x256_S1x2048x256_1_0_0), w1⟩ : View.Piece Val S3x2048x256 e), (⟨(Rect.unit (s := S3x2048x256) ![0, 0, 0] S1x2048x256.size inb_S3x2048x256_S1x2048x256_0_0_0), w0⟩ : View.Piece Val S3x2048x256 e)] (ix3 0 j q)

/-! ## The two kept arrays -/

/-- The first kept array: the real half of the features times each order's weights. -/
theorem fillA_apply (x0 : Vec Ideal S2x2048x256 .f32) (x1 : Vec Ideal S3x256x256 .f32) (k : Fin 3) (j : Fin 2048)
    (q : Fin 256) :
    fillA (F := Ideal) x0 x1 (ix3 k j q) = ∑ f : Fin 256, x0 (ix3 0 j f) * x1 (ix3 k f q) := by
  unfold fillA
  match k with
  | ⟨0, _⟩ =>
    refine (three_slabs_0 _ _ _ j q).trans ?_
    rw [pay17_at]; simp only [half0_at, wt0_at]; rfl
  | ⟨1, _⟩ =>
    refine (three_slabs_1 _ _ _ j q).trans ?_
    rw [pay20_at]; simp only [half0_at, wt1_at]; rfl
  | ⟨2, _⟩ =>
    refine (three_slabs_2 _ _ _ j q).trans ?_
    rw [pay2_at]; simp only [half0_at, wt2_at]; rfl

/-- The second kept array: the imaginary half of the features times each order's weights. -/
theorem fillB_apply (x0 : Vec Ideal S2x2048x256 .f32) (x1 : Vec Ideal S3x256x256 .f32) (k : Fin 3) (j : Fin 2048)
    (q : Fin 256) :
    fillB (F := Ideal) x0 x1 (ix3 k j q) = ∑ f : Fin 256, x0 (ix3 1 j f) * x1 (ix3 k f q) := by
  unfold fillB
  match k with
  | ⟨0, _⟩ =>
    refine (three_slabs_0 _ _ _ j q).trans ?_
    rw [pay18_at]; simp only [half1_at, wt0_at]; rfl
  | ⟨1, _⟩ =>
    refine (three_slabs_1 _ _ _ j q).trans ?_
    rw [pay21_at]; simp only [half1_at, wt1_at]; rfl
  | ⟨2, _⟩ =>
    refine (three_slabs_2 _ _ _ j q).trans ?_
    rw [pay3_at]; simp only [half1_at, wt2_at]; rfl

/-! ## The slab a point loads back -/

/-- At a point whose coordinates name order `k`, the loaded slab's entry `(0, j, q)` is the kept array's `(k, j, q)`. -/
theorem slab_apply {F : FTy → Type} [FloatOps F] (i : grid0.Coords) (k : Fin 3) (hk : k0_off1 i = ![k.val, 0, 0])
    (xs : Vec F S3x2048x256 .bf16) (j : Fin 2048) (q : Fin 256) :
    slab i xs (ix3 0 j q) = xs (ix3 k j q) := by
  unfold slab
  exact slab3_at xs (k0_off1 i) k hk (k0_off1_inb i) j q

end Cert.KernelIdeal.PayAt

end
-- ==== Proof.Spec.lean ====
/-
  The complex graph convolution, as one function of the five argument arrays, index by index.
  With X the two halves (real, imaginary) of the node features, Lr and Li the real and imaginary
  parts of the three operators, W the three weight matrices and b the bias row,

      real = Σ_k (Lr_k · (X_re · W_k) − Li_k · (X_im · W_k)) + b
      imag = Σ_k (Li_k · (X_re · W_k) + Lr_k · (X_im · W_k)) + b

  written here in the order in which a row tile is accumulated: the order-0 term plus the bias, then
  the order-1 term, then the order-2 term.  Every sum ranges over a literal extent.
-/
import Idealize.ShloMosaic.PureOps.Ideal
import Idealize.ShloMosaic.Lib.ValueIdx

noncomputable section

namespace Cert.GraphConvSpec

open Idealize.ShloMosaic Idealize.ShloMosaic.ValueIdx

abbrev SX : Shape := ⟨3, ![2, 2048, 256]⟩
abbrev SL : Shape := ⟨3, ![3, 2048, 2048]⟩
abbrev SW : Shape := ⟨3, ![3, 256, 256]⟩
abbrev SB : Shape := ⟨2, ![1, 256]⟩
abbrev SO : Shape := ⟨2, ![2048, 256]⟩

variable (X : SX.Idx → EReal) (Lr Li : SL.Idx → EReal) (W : SW.Idx → EReal) (b : SB.Idx → EReal)

/-- Entry (j, q) of the product of half `h` of the features with the order-`k` weights. -/
def xw (h : Fin 2) (k : Fin 3) (j : Fin 2048) (q : Fin 256) : EReal :=
  ∑ f : Fin 256, X (ix3 h j f) * W (ix3 k f q)

/-- Entry (r, q) of the order-`k` term of the real part. -/
def termRe (k : Fin 3) (r : Fin 2048) (q : Fin 256) : EReal :=
  (∑ j : Fin 2048, Lr (ix3 k r j) * xw X W 0 k j q) - (∑ j : Fin 2048, Li (ix3 k r j) * xw X W 1 k j q)

/-- Entry (r, q) of the order-`k` term of the imaginary part. -/
def termIm (k : Fin 3) (r : Fin 2048) (q : Fin 256) : EReal :=
  (∑ j : Fin 2048, Li (ix3 k r j) * xw X W 0 k j q) + (∑ j : Fin 2048, Lr (ix3 k r j) * xw X W 1 k j q)

/-- The real part of the result. -/
def convRe : SO.Idx → EReal := fun i =>
  ((termRe X Lr Li W 0 (i 0) (i 1) + b (ix2 0 (i 1))) + termRe X Lr Li W 1 (i 0) (i 1)) + termRe X Lr Li W 2 (i 0) (i 1)

/-- The imaginary part of the result. -/
def convIm : SO.Idx → EReal := fun i =>
  ((termIm X Lr Li W 0 (i 0) (i 1) + b (ix2 0 (i 1))) + termIm X Lr Li W 1 (i 0) (i 1)) + termIm X Lr Li W 2 (i 0) (i 1)

end Cert.GraphConvSpec

end
-- ==== Proof.KI.Value.lean ====
/-
  The idealized kernel's two result arrays, index by index.  With the scratch arrays holding the
  products X_h·W_k, the tile's partial result at order k is the order-k term of the convolution at
  the tile's rows; so after order k an output buffer holds the terms of orders 0..k plus the bias,
  and after order 2 — when the tile is written back — the convolution itself at the tile's rows.
-/
import proofs.«171784_g38809324486710_cont_sun_c4_445_3_alg».proof.Proof.KI.Body
import proofs.«171784_g38809324486710_cont_sun_c4_445_3_alg».proof.Proof.KI.Blocks
import proofs.«171784_g38809324486710_cont_sun_c4_445_3_alg».proof.Proof.KI.FillAt
import proofs.«171784_g38809324486710_cont_sun_c4_445_3_alg».proof.Proof.Spec

set_option maxRecDepth 16384

noncomputable section

namespace Cert.KernelIdeal.Val

open Cert.KernelIdeal Cert.KernelIdeal.Gen Cert.KernelIdeal.Body Cert.KernelIdeal.PayAt Cert.GraphConvSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The five argument arrays as the region finds them. -/
abbrev aX (c : Dev nD) : SX.Idx → EReal := m ((c : Thread nD τ).loc main_arg0)
abbrev aLr (c : Dev nD) : SL.Idx → EReal := m ((c : Thread nD τ).loc main_arg1)
abbrev aLi (c : Dev nD) : SL.Idx → EReal := m ((c : Thread nD τ).loc main_arg2)
abbrev aW (c : Dev nD) : SW.Idx → EReal := m ((c : Thread nD τ).loc main_arg3)
abbrev aB (c : Dev nD) : SB.Idx → EReal := m ((c : Thread nD τ).loc main_arg4)

theorem hN : cfg0.N = 24 := N_0

/-- The order of point `t` and the row of its tile's row `p`. -/
abbrev ordOf (t : Fin cfg0.N) : Fin 3 := ⟨t.val % 3, Nat.mod_lt _ (by decide)⟩
abbrev rowOf (t : Fin cfg0.N) (p : Fin 256) : Fin 2048 := ⟨t.val / 3 * 256 + p.val, by have h24 : t.val < 24 := lt_of_lt_of_eq t.isLt hN; have := p.isLt; omega⟩

/-- A slab of the first scratch array is the real half of the features times a weight matrix; -/
theorem scrA_apply (c : Dev nD) (t : Fin cfg0.N) (j : Fin 2048) (q : Fin 256) :
    slab (grid0.coords t) (fillA (iblk m c 0 tFirst) (iblk m c 1 tFirst)) (ix3 0 j q) = xw (aX m c) (aW m c) 0 (ordOf t) j q := by
  rw [slab_apply (grid0.coords t) (ordOf t) (hoff t), fillA_apply]
  unfold xw
  refine Finset.sum_congr rfl fun f _ => ?_
  rw [blk0_apply, blk1_apply]

/-- of the second, the imaginary half. -/
theorem scrB_apply (c : Dev nD) (t : Fin cfg0.N) (j : Fin 2048) (q : Fin 256) :
    slab (grid0.coords t) (fillB (iblk m c 0 tFirst) (iblk m c 1 tFirst)) (ix3 0 j q) = xw (aX m c) (aW m c) 1 (ordOf t) j q := by
  rw [slab_apply (grid0.coords t) (ordOf t) (hoff t), fillB_apply]
  unfold xw
  refine Finset.sum_congr rfl fun f _ => ?_
  rw [blk0_apply, blk1_apply]

/-- The tile's partial real result at point `t` is the order's term at the tile's rows; -/
theorem term_re (c : Dev nD) (t : Fin cfg0.N) (p q : Fin 256) :
    k0_pay8 (F := Ideal) (iblk m c 3 t) (iblk m c 4 t)
        (slab (grid0.coords t) (fillA (iblk m c 0 tFirst) (iblk m c 1 tFirst)))
        (slab (grid0.coords t) (fillB (iblk m c 0 tFirst) (iblk m c 1 tFirst))) (ix2 p q)
      = termRe (aX m c) (aLr m c) (aLi m c) (aW m c) (ordOf t) (rowOf t p) q := by
  rw [pay8_at]
  unfold termRe
  congr 1
  · refine Finset.sum_congr rfl fun j _ => ?_
    rw [scrA_apply, blk3_apply m c t (ix3 0 p j) (ix3 (ordOf t) (rowOf t p) j) rfl rfl rfl]
  · refine Finset.sum_congr rfl fun j _ => ?_
    rw [scrB_apply, blk4_apply m c t (ix3 0 p j) (ix3 (ordOf t) (rowOf t p) j) rfl rfl rfl]

/-- and the partial imaginary result likewise. -/
theorem term_im (c : Dev nD) (t : Fin cfg0.N) (p q : Fin 256) :
    k0_pay9 (F := Ideal) (iblk m c 3 t) (iblk m c 4 t)
        (slab (grid0.coords t) (fillA (iblk m c 0 tFirst) (iblk m c 1 tFirst)))
        (slab (grid0.coords t) (fillB (iblk m c 0 tFirst) (iblk m c 1 tFirst))) (ix2 p q)
      = termIm (aX m c) (aLr m c) (aLi m c) (aW m c) (ordOf t) (rowOf t p) q := by
  rw [pay9_at]
  unfold termIm
  congr 1
  · refine Finset.sum_congr rfl fun j _ => ?_
    rw [scrA_apply, blk4_apply m c t (ix3 0 p j) (ix3 (ordOf t) (rowOf t p) j) rfl rfl rfl]
  · refine Finset.sum_congr rfl fun j _ => ?_
    rw [scrB_apply, blk3_apply m c t (ix3 0 p j) (ix3 (ordOf t) (rowOf t p) j) rfl rfl rfl]

/-- The terms of orders 0..k plus the bias, in the order a tile accumulates them. -/
def partRe (c : Dev nD) : ℕ → Fin 2048 → Fin 256 → EReal
  | 0, r, q => termRe (aX m c) (aLr m c) (aLi m c) (aW m c) 0 r q + aB m c (ix2 0 q)
  | k + 1, r, q => partRe c k r q + termRe (aX m c) (aLr m c) (aLi m c) (aW m c) ⟨(k + 1) % 3, Nat.mod_lt _ (by decide)⟩ r q
def partIm (c : Dev nD) : ℕ → Fin 2048 → Fin 256 → EReal
  | 0, r, q => termIm (aX m c) (aLr m c) (aLi m c) (aW m c) 0 r q + aB m c (ix2 0 q)
  | k + 1, r, q => partIm c k r q + termIm (aX m c) (aLr m c) (aLi m c) (aW m c) ⟨(k + 1) % 3, Nat.mod_lt _ (by decide)⟩ r q

/-- After point `n` the two output buffers hold the partial sums up to the point's order, at the
    rows of the point's tile. -/
theorem outs_eq (c : Dev nD) : ∀ (n : ℕ) (hn : n < cfg0.N) (p q : Fin 256),
    (outsAt m c n hn).1 (ix2 p q) = partRe m c (n % 3) (rowOf ⟨n, hn⟩ p) q
    ∧ (outsAt m c n hn).2.1 (ix2 p q) = partIm m c (n % 3) (rowOf ⟨n, hn⟩ p) q
  | 0, hn, p, q => by
    rw [outsAt_fill m c ⟨0, hn⟩ rfl]
    dsimp only
    rw [fillAt_5 m c ⟨0, hn⟩ rfl, fillAt_6 m c ⟨0, hn⟩ rfl, pay10_at, pay11_at, term_re m c ⟨0, hn⟩ p q, term_im m c ⟨0, hn⟩ p q, blk2_apply]
    exact ⟨rfl, rfl⟩
  | n + 1, hn, p, q => by
    have hn24 : n + 1 < 24 := by rw [← hN]; exact hn
    obtain ⟨sa, sb⟩ := scratch_const m c (n + 1 - 1) (prevLt ⟨n + 1, hn⟩)
    by_cases h : (n + 1) % 3 = 0
    · rw [outsAt_first m c ⟨n + 1, hn⟩ (Nat.succ_ne_zero n) h]
      dsimp only
      rw [firstAt_5, firstAt_6, sa, sb, pay10_at, pay11_at, term_re m c ⟨n + 1, hn⟩ p q, term_im m c ⟨n + 1, hn⟩ p q, blk2_apply]
      have e0 : ordOf ⟨n + 1, hn⟩ = 0 := Fin.ext h
      rw [e0, h]
      exact ⟨rfl, rfl⟩
    · obtain ⟨i5, i6⟩ := outs_eq c n (Nat.lt_of_succ_lt hn) p q
      have i5' : (outsAt m c (n + 1 - 1) (prevLt ⟨n + 1, hn⟩)).1 (ix2 p q) = partRe m c (n % 3) (rowOf ⟨n, Nat.lt_of_succ_lt hn⟩ p) q := i5
      have i6' : (outsAt m c (n + 1 - 1) (prevLt ⟨n + 1, hn⟩)).2.1 (ix2 p q) = partIm m c (n % 3) (rowOf ⟨n, Nat.lt_of_succ_lt hn⟩ p) q := i6
      rw [outsAt_acc m c ⟨n + 1, hn⟩ h]
      dsimp only
      rw [accAt_5, accAt_6, sa, sb, pay12_at, pay13_at, term_re m c ⟨n + 1, hn⟩ p q, term_im m c ⟨n + 1, hn⟩ p q]
      have e1 : (n + 1) % 3 = n % 3 + 1 := by omega
      have er : rowOf ⟨n + 1, hn⟩ p = rowOf ⟨n, Nat.lt_of_succ_lt hn⟩ p := Fin.ext (by show (n + 1) / 3 * 256 + p.val = n / 3 * 256 + p.val; omega)
      have eo : ordOf ⟨n + 1, hn⟩ = ⟨(n % 3 + 1) % 3, Nat.mod_lt _ (by decide)⟩ := Fin.ext (by show (n + 1) % 3 = (n % 3 + 1) % 3; omega)
      rw [i5', i6', er, eo, e1]
      exact ⟨rfl, rfl⟩

/-- After a tile's last order the partial sums are the convolution. -/
theorem part2_re (c : Dev nD) (r : Fin 2048) (q : Fin 256) :
    partRe m c 2 r q = convRe (aX m c) (aLr m c) (aLi m c) (aW m c) (aB m c) (ix2 r q) := rfl
theorem part2_im (c : Dev nD) (r : Fin 2048) (q : Fin 256) :
    partIm m c 2 r q = convIm (aX m c) (aLr m c) (aLi m c) (aW m c) (aB m c) (ix2 r q) := rfl

/-! ## From the tiles to the arrays -/

/-- The real result array, as contents of the first result buffer. -/
abbrev resRe (c : Dev nD) : Buf (Elt Ideal) ((c : Thread nD τ).loc main_v0_0) := convRe (aX m c) (aLr m c) (aLi m c) (aW m c) (aB m c)
abbrev resIm (c : Dev nD) : Buf (Elt Ideal) ((c : Thread nD τ).loc main_v0_1) := convIm (aX m c) (aLr m c) (aLi m c) (aW m c) (aB m c)

/-- After a tile's last order the output buffers hold the convolution at the tile's rows. -/
theorem tile_re (c : Dev nD) (t : Fin cfg0.N) (h2 : t.val % 3 = 2) (p q : Fin 256) (k : S2048x256.Idx)
    (hk0 : (k 0).val = t.val / 3 * 256 + p.val) (hk1 : (k 1).val = q.val) :
    (outsAt m c t.val t.isLt).1 (ix2 p q) = convRe (aX m c) (aLr m c) (aLi m c) (aW m c) (aB m c) k := by
  rw [(outs_eq m c t.val t.isLt p q).1, h2, part2_re]
  exact congrArg _ (funext fun a => Fin.ext (by match a with | ⟨0, _⟩ => exact hk0.symm | ⟨1, _⟩ => exact hk1.symm))
theorem tile_im (c : Dev nD) (t : Fin cfg0.N) (h2 : t.val % 3 = 2) (p q : Fin 256) (k : S2048x256.Idx)
    (hk0 : (k 0).val = t.val / 3 * 256 + p.val) (hk1 : (k 1).val = q.val) :
    (outsAt m c t.val t.isLt).2.1 (ix2 p q) = convIm (aX m c) (aLr m c) (aLi m c) (aW m c) (aB m c) k := by
  rw [(outs_eq m c t.val t.isLt p q).2, h2, part2_im]
  exact congrArg _ (funext fun a => Fin.ext (by match a with | ⟨0, _⟩ => exact hk0.symm | ⟨1, _⟩ => exact hk1.symm))

/-- What a tile's last point writes back is the tile's rows of the convolution. -/
theorem flushed5_eq (c : Dev nD) (t : Fin cfg0.N) (hf : (cfg0.win 5).flush t = true) :
    (dats m 0 c).flushed 5 t = ((cfg0.win 5).blk t).view.read (Elt Ideal) (resRe m c) := by
  have h2 : t.val % 3 = 2 := (flush0_5 t).mp hf
  obtain ⟨-, -, -, -, -, -, -, -, -, -, -, -, -, -, e0, e1, -⟩ := idx_facts t
  show (cfg0.win 5).cut (grid0.coords t) ((dats m 0 c).after 5 t) = _
  rw [after_5]
  refine funext fun (y : S256x256.Idx) => ?_
  obtain ⟨p, q, rfl⟩ : ∃ (p q : Fin 256), y = ix2 p q := ⟨y 0, y 1, eq_ix2 y⟩
  show (outsAt m c t.val t.isLt).1 (ix2 p q) = convRe (aX m c) (aLr m c) (aLi m c) (aW m c) (aB m c) (((cfg0.win 5).blk t).view.emb (ix2 p q))
  refine tile_re m c t h2 p q _ ?_ ?_
  · show win0_5.index t 0 * 256 + 1 * p.val = t.val / 3 * 256 + p.val; rw [e0]; omega
  · show win0_5.index t 1 * 256 + 1 * q.val = q.val; rw [e1]; omega

theorem flushed6_eq (c : Dev nD) (t : Fin cfg0.N) (hf : (cfg0.win 6).flush t = true) :
    (dats m 0 c).flushed 6 t = ((cfg0.win 6).blk t).view.read (Elt Ideal) (resIm m c) := by
  have h2 : t.val % 3 = 2 := (flush0_6 t).mp hf
  obtain ⟨-, -, -, -, -, -, -, -, -, -, -, -, -, -, -, -, e0, e1⟩ := idx_facts t
  show (cfg0.win 6).cut (grid0.coords t) ((dats m 0 c).after 6 t) = _
  rw [after_6]
  refine funext fun (y : S256x256.Idx) => ?_
  obtain ⟨p, q, rfl⟩ : ∃ (p q : Fin 256), y = ix2 p q := ⟨y 0, y 1, eq_ix2 y⟩
  show (outsAt m c t.val t.isLt).2.1 (ix2 p q) = convIm (aX m c) (aLr m c) (aLi m c) (aW m c) (aB m c) (((cfg0.win 6).blk t).view.emb (ix2 p q))
  refine tile_im m c t h2 p q _ ?_ ?_
  · show win0_6.index t 0 * 256 + 1 * p.val = t.val / 3 * 256 + p.val; rw [e0]; omega
  · show win0_6.index t 1 * 256 + 1 * q.val = q.val; rw [e1]; omega

/-- The last point of the tile that holds row `r`. -/
abbrev lastOf (r : Fin 2048) : Fin cfg0.N := ⟨r.val / 256 * 3 + 2, by rw [hN]; have := r.isLt; omega⟩

/-- Every row of a result array is in the tile some last-order point writes back. -/
theorem cover5 (i : S2048x256.Idx) : ∃ t : Fin cfg0.N, (cfg0.win 5).flush t = true ∧ i ∈ ((cfg0.win 5).blk t).view.set := by
  have hi0 : (i 0).val < 2048 := (i 0).isLt
  have hi1 : (i 1).val < 256 := (i 1).isLt
  obtain ⟨-, -, -, -, -, -, -, -, -, -, -, -, -, -, e0, e1, -⟩ := idx_facts (lastOf (i 0))
  refine ⟨lastOf (i 0), (flush0_5 _).mpr (by show ((i 0).val / 256 * 3 + 2) % 3 = 2; omega), ?_⟩
  show i ∈ ((View.whole main_v0_0).slice (win0_5.rect (lastOf (i 0)))).set
  rw [View.set_slice_whole, Rect.mem_set_unit]
  intro a
  match a with
  | ⟨0, _⟩ =>
    show win0_5.index (lastOf (i 0)) 0 * 256 ≤ (i 0).val ∧ (i 0).val < win0_5.index (lastOf (i 0)) 0 * 256 + 256
    rw [e0]; show ((i 0).val / 256 * 3 + 2) / 3 * 256 ≤ (i 0).val ∧ (i 0).val < ((i 0).val / 256 * 3 + 2) / 3 * 256 + 256; omega
  | ⟨1, _⟩ =>
    show win0_5.index (lastOf (i 0)) 1 * 256 ≤ (i 1).val ∧ (i 1).val < win0_5.index (lastOf (i 0)) 1 * 256 + 256
    rw [e1]; omega

theorem cover6 (i : S2048x256.Idx) : ∃ t : Fin cfg0.N, (cfg0.win 6).flush t = true ∧ i ∈ ((cfg0.win 6).blk t).view.set := by
  have hi0 : (i 0).val < 2048 := (i 0).isLt
  have hi1 : (i 1).val < 256 := (i 1).isLt
  obtain ⟨-, -, -, -, -, -, -, -, -, -, -, -, -, -, -, -, e0, e1⟩ := idx_facts (lastOf (i 0))
  refine ⟨lastOf (i 0), (flush0_6 _).mpr (by show ((i 0).val / 256 * 3 + 2) % 3 = 2; omega), ?_⟩
  show i ∈ ((View.whole main_v0_1).slice (win0_6.rect (lastOf (i 0)))).set
  rw [View.set_slice_whole, Rect.mem_set_unit]
  intro a
  match a with
  | ⟨0, _⟩ =>
    show win0_6.index (lastOf (i 0)) 0 * 256 ≤ (i 0).val ∧ (i 0).val < win0_6.index (lastOf (i 0)) 0 * 256 + 256
    rw [e0]; show ((i 0).val / 256 * 3 + 2) / 3 * 256 ≤ (i 0).val ∧ (i 0).val < ((i 0).val / 256 * 3 + 2) / 3 * 256 + 256; omega
  | ⟨1, _⟩ =>
    show win0_6.index (lastOf (i 0)) 1 * 256 ≤ (i 1).val ∧ (i 1).val < win0_6.index (lastOf (i 0)) 1 * 256 + 256
    rw [e1]; omega

/-- So the result arrays end holding the convolution. -/
theorem final5 (c : Dev nD) : (dats m 0 c).arrAt 5 cfg0.N = resRe m c :=
  (dats m 0 c).arrAt_eq_of_cover 5 (resRe m c) (flushed5_eq m c) cover5
theorem final6 (c : Dev nD) : (dats m 0 c).arrAt 6 cfg0.N = resIm m c :=
  (dats m 0 c).arrAt_eq_of_cover 6 (resIm m c) (flushed6_eq m c) cover6

/-- The run of the idealized kernel, read: both results at the convolution of the arguments, the
    arguments unchanged. -/
theorem run : θ_run defs (onTc (τ := τ) (main (F := Ideal))) ⟨m, fun _ => 0, ρ⟩ fun r => ∀ c : Dev nD,
      r.2.mem ((c : Thread nD τ).loc main_v0_0) = resRe m c
      ∧ r.2.mem ((c : Thread nD τ).loc main_v0_1) = resIm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1 5).trans (final5 m c), ((h c).1 6).trans (final6 m c),
      ((h c).1 0).trans (((dats m 0 c).arrAt_in 0 rfl _).trans (A_eq m c 0)),
      ((h c).1 3).trans (((dats m 0 c).arrAt_in 3 rfl _).trans (A_eq m c 3)),
      ((h c).1 4).trans (((dats m 0 c).arrAt_in 4 rfl _).trans (A_eq m c 4)),
      ((h c).1 1).trans (((dats m 0 c).arrAt_in 1 rfl _).trans (A_eq m c 1)),
      ((h c).1 2).trans (((dats m 0 c).arrAt_in 2 rfl _).trans (A_eq m c 2))⟩)
    (run_main m ρ)

end Cert.KernelIdeal.Val

end
-- ==== Proof.RefArgs.lean ====
/-
  The reference's views of its arguments, read at an index.

  The reference takes the two halves of the node features (`data[0]`, `data[1]`) and, for each order k = 0, 1, 2, the
  matrices `L_norm_real[k]`, `L_norm_imag[k]` and `weight[k]`: a slice of extent one along the leading axis followed by
  the reshape that drops that axis. Entry `(a, b)` of such a view is entry `(k, a, b)` of the argument: the reshape
  sends row-major position `a · n + b` of the matrix to the same position of the `1 × m × n` slice, and the slice adds
  `k` to the leading coordinate.
-/
import proofs.«171784_g38809324486710_cont_sun_c4_445_3_alg».proof.Proof.Gen.ReferenceIdeal.Read

namespace Cert.GraphConvRef

open Cert.ReferenceIdeal Cert.ReferenceIdeal.Gen Cert.ReferenceIdeal.Read Idealize.ShloMosaic Idealize.ShloMosaic.ValueIdx

variable {F : FTy → Type} [FloatOps F]

/-- The real half of the node features: row `j`, feature `f` of `data[0]` is entry `(0, j, f)` of the features. -/
theorem xRe_at (x0 : (⟨S2x2048x256, .f32⟩ : BufTy).Contents (Elt F)) (i : S2048x256.Idx) :
    val_main_v1 (F := F) x0 i = x0 (ix3 0 (i 0) (i 1)) := by
  rw [val_main_v1_apply, val_main_v0_apply]
  refine congrArg x0 (funext fun a => Fin.ext ?_)
  have h0 : (i 0).val < 2048 := (i 0).isLt
  have h1 : (i 1).val < 256 := (i 1).isLt
  match a with
  | ⟨0, _⟩ => rfl
  | ⟨1, _⟩ => show ((i 0).val * 256 + (i 1).val) / 256 % 2048 = (i 0).val; omega
  | ⟨2, _⟩ => show ((i 0).val * 256 + (i 1).val) % 256 = (i 1).val; omega

/-- The imaginary half of the node features: `data[1]`. -/
theorem xIm_at (x0 : (⟨S2x2048x256, .f32⟩ : BufTy).Contents (Elt F)) (i : S2048x256.Idx) :
    val_main_v3 (F := F) x0 i = x0 (ix3 1 (i 0) (i 1)) := by
  rw [val_main_v3_apply, val_main_v2_apply]
  refine congrArg x0 (funext fun a => Fin.ext ?_)
  have h0 : (i 0).val < 2048 := (i 0).isLt
  have h1 : (i 1).val < 256 := (i 1).isLt
  match a with
  | ⟨0, _⟩ => rfl
  | ⟨1, _⟩ => show ((i 0).val * 256 + (i 1).val) / 256 % 2048 = (i 0).val; omega
  | ⟨2, _⟩ => show ((i 0).val * 256 + (i 1).val) % 256 = (i 1).val; omega

/-- The order-0 real operator part, `L_norm_real[0]`. -/
theorem lr0_at (x1 : (⟨S3x2048x2048, .f32⟩ : BufTy).Contents (Elt F)) (i : S2048x2048.Idx) :
    val_main_v5 (F := F) x1 i = x1 (ix3 0 (i 0) (i 1)) := by
  rw [val_main_v5_apply, val_main_v4_apply]
  refine congrArg x1 (funext fun a => Fin.ext ?_)
  have h0 : (i 0).val < 2048 := (i 0).isLt
  have h1 : (i 1).val < 2048 := (i 1).isLt
  match a with
  | ⟨0, _⟩ => rfl
  | ⟨1, _⟩ => show ((i 0).val * 2048 + (i 1).val) / 2048 % 2048 = (i 0).val; omega
  | ⟨2, _⟩ => show ((i 0).val * 2048 + (i 1).val) % 2048 = (i 1).val; omega

/-- The order-0 imaginary operator part, `L_norm_imag[0]`. -/
theorem li0_at (x2 : (⟨S3x2048x2048, .f32⟩ : BufTy).Contents (Elt F)) (i : S2048x2048.Idx) :
    val_main_v7 (F := F) x2 i = x2 (ix3 0 (i 0) (i 1)) := by
  rw [val_main_v7_apply, val_main_v6_apply]
  refine congrArg x2 (funext fun a => Fin.ext ?_)
  have h0 : (i 0).val < 2048 := (i 0).isLt
  have h1 : (i 1).val < 2048 := (i 1).isLt
  match a with
  | ⟨0, _⟩ => rfl
  | ⟨1, _⟩ => show ((i 0).val * 2048 + (i 1).val) / 2048 % 2048 = (i 0).val; omega
  | ⟨2, _⟩ => show ((i 0).val * 2048 + (i 1).val) % 2048 = (i 1).val; omega

/-- The order-0 weights, `weight[0]`. -/
theorem w0_at (x3 : (⟨S3x256x256, .f32⟩ : BufTy).Contents (Elt F)) (i : S256x256.Idx) :
    val_main_v9 (F := F) x3 i = x3 (ix3 0 (i 0) (i 1)) := by
  rw [val_main_v9_apply, val_main_v8_apply]
  refine congrArg x3 (funext fun a => Fin.ext ?_)
  have h0 : (i 0).val < 256 := (i 0).isLt
  have h1 : (i 1).val < 256 := (i 1).isLt
  match a with
  | ⟨0, _⟩ => rfl
  | ⟨1, _⟩ => show ((i 0).val * 256 + (i 1).val) / 256 % 256 = (i 0).val; omega
  | ⟨2, _⟩ => show ((i 0).val * 256 + (i 1).val) % 256 = (i 1).val; omega

/-- The order-1 real operator part, `L_norm_real[1]`. -/
theorem lr1_at (x1 : (⟨S3x2048x2048, .f32⟩ : BufTy).Contents (Elt F)) (i : S2048x2048.Idx) :
    val_main_v26 (F := F) x1 i = x1 (ix3 1 (i 0) (i 1)) := by
  rw [val_main_v26_apply, val_main_v25_apply]
  refine congrArg x1 (funext fun a => Fin.ext ?_)
  have h0 : (i 0).val < 2048 := (i 0).isLt
  have h1 : (i 1).val < 2048 := (i 1).isLt
  match a with
  | ⟨0, _⟩ => rfl
  | ⟨1, _⟩ => show ((i 0).val * 2048 + (i 1).val) / 2048 % 2048 = (i 0).val; omega
  | ⟨2, _⟩ => show ((i 0).val * 2048 + (i 1).val) % 2048 = (i 1).val; omega

/-- The order-1 imaginary operator part, `L_norm_imag[1]`. -/
theorem li1_at (x2 : (⟨S3x2048x2048, .f32⟩ : BufTy).Contents (Elt F)) (i : S2048x2048.Idx) :
    val_main_v28 (F := F) x2 i = x2 (ix3 1 (i 0) (i 1)) := by
  rw [val_main_v28_apply, val_main_v27_apply]
  refine congrArg x2 (funext fun a => Fin.ext ?_)
  have h0 : (i 0).val < 2048 := (i 0).isLt
  have h1 : (i 1).val < 2048 := (i 1).isLt
  match a with
  | ⟨0, _⟩ => rfl
  | ⟨1, _⟩ => show ((i 0).val * 2048 + (i 1).val) / 2048 % 2048 = (i 0).val; omega
  | ⟨2, _⟩ => show ((i 0).val * 2048 + (i 1).val) % 2048 = (i 1).val; omega

/-- The order-1 weights, `weight[1]`. -/
theorem w1_at (x3 : (⟨S3x256x256, .f32⟩ : BufTy).Contents (Elt F)) (i : S256x256.Idx) :
    val_main_v30 (F := F) x3 i = x3 (ix3 1 (i 0) (i 1)) := by
  rw [val_main_v30_apply, val_main_v29_apply]
  refine congrArg x3 (funext fun a => Fin.ext ?_)
  have h0 : (i 0).val < 256 := (i 0).isLt
  have h1 : (i 1).val < 256 := (i 1).isLt
  match a with
  | ⟨0, _⟩ => rfl
  | ⟨1, _⟩ => show ((i 0).val * 256 + (i 1).val) / 256 % 256 = (i 0).val; omega
  | ⟨2, _⟩ => show ((i 0).val * 256 + (i 1).val) % 256 = (i 1).val; omega

/-- The order-2 real operator part, `L_norm_real[2]`. -/
theorem lr2_at (x1 : (⟨S3x2048x2048, .f32⟩ : BufTy).Contents (Elt F)) (i : S2048x2048.Idx) :
    val_main_v47 (F := F) x1 i = x1 (ix3 2 (i 0) (i 1)) := by
  rw [val_main_v47_apply, val_main_v46_apply]
  refine congrArg x1 (funext fun a => Fin.ext ?_)
  have h0 : (i 0).val < 2048 := (i 0).isLt
  have h1 : (i 1).val < 2048 := (i 1).isLt
  match a with
  | ⟨0, _⟩ => rfl
  | ⟨1, _⟩ => show ((i 0).val * 2048 + (i 1).val) / 2048 % 2048 = (i 0).val; omega
  | ⟨2, _⟩ => show ((i 0).val * 2048 + (i 1).val) % 2048 = (i 1).val; omega

/-- The order-2 imaginary operator part, `L_norm_imag[2]`. -/
theorem li2_at (x2 : (⟨S3x2048x2048, .f32⟩ : BufTy).Contents (Elt F)) (i : S2048x2048.Idx) :
    val_main_v49 (F := F) x2 i = x2 (ix3 2 (i 0) (i 1)) := by
  rw [val_main_v49_apply, val_main_v48_apply]
  refine congrArg x2 (funext fun a => Fin.ext ?_)
  have h0 : (i 0).val < 2048 := (i 0).isLt
  have h1 : (i 1).val < 2048 := (i 1).isLt
  match a with
  | ⟨0, _⟩ => rfl
  | ⟨1, _⟩ => show ((i 0).val * 2048 + (i 1).val) / 2048 % 2048 = (i 0).val; omega
  | ⟨2, _⟩ => show ((i 0).val * 2048 + (i 1).val) % 2048 = (i 1).val; omega

/-- The order-2 weights, `weight[2]`. -/
theorem w2_at (x3 : (⟨S3x256x256, .f32⟩ : BufTy).Contents (Elt F)) (i : S256x256.Idx) :
    val_main_v51 (F := F) x3 i = x3 (ix3 2 (i 0) (i 1)) := by
  rw [val_main_v51_apply, val_main_v50_apply]
  refine congrArg x3 (funext fun a => Fin.ext ?_)
  have h0 : (i 0).val < 256 := (i 0).isLt
  have h1 : (i 1).val < 256 := (i 1).isLt
  match a with
  | ⟨0, _⟩ => rfl
  | ⟨1, _⟩ => show ((i 0).val * 256 + (i 1).val) / 256 % 256 = (i 0).val; omega
  | ⟨2, _⟩ => show ((i 0).val * 256 + (i 1).val) % 256 = (i 1).val; omega

end Cert.GraphConvRef
-- ==== Proof.ConvAlgebra.lean ====
/-
  One order of a complex graph convolution, in two arrangements, on real entries.

  For an operator with real part `Lr` and imaginary part `Li` (one row of each, indexed by the node `j`), node
  features with real half `X0` and imaginary half `X1` (indexed by node `j` and feature `f`) and one column `W` of a
  weight matrix (indexed by `f`), the real and imaginary parts of one entry of `(L · X) · W` are

      re = Σ_f (Σ_j Lr j · X0 j f) · W f  +  Σ_f (c · Σ_j Li j · X1 j f) · W f        (c = −1)
      im = Σ_f (Σ_j Li j · X0 j f) · W f  +  Σ_f (Σ_j Lr j · X1 j f) · W f

  when the operator is applied first, and

      re = Σ_j Lr j · (Σ_f X0 j f · W f)  −  Σ_j Li j · (Σ_f X1 j f · W f)
      im = Σ_j Li j · (Σ_f X0 j f · W f)  +  Σ_j Lr j · (Σ_f X1 j f · W f)

  when the features meet the weights first. Over the real numbers the two agree: matrix products are associative
  and multiplication distributes over finite sums. On the extended reals distributivity fails at the infinities, so
  the agreement is stated for entries that are real numbers: choose the real witnesses, move the coercion out of
  every product and every finite sum, and the statement is the one over the reals.
-/
import Idealize.ShloMosaic.PureOps.Ideal
import Idealize.ShloMosaic.PureOps.Ideal.Laws

noncomputable section

namespace Cert.GraphConvAlgebra

open Idealize.ShloMosaic

/-- The word `0xBF800000` (sign 1, exponent 127, fraction 0) denotes −1. -/
theorem neg_one_word : Ideal.ofBits .f32 0xBF800000#32 = ((-1 : ℝ) : EReal) := by
  simp [Ideal.ofBits, Ideal.ieee, -EReal.coe_mul]; norm_num

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s (by simp) fun a s ha ih => ?_
  rw [Finset.sum_insert ha, Finset.sum_insert ha, EReal.coe_add, ih]

variable {J Fe : Type*} [Fintype J] [Fintype Fe]

/-- `(A · X) · W = A · (X · W)`, one entry, over the reals. -/
theorem assoc_real (A : J → ℝ) (X : J → Fe → ℝ) (W : Fe → ℝ) :
    ∑ f, (∑ j, A j * X j f) * W f = ∑ j, A j * ∑ f, X j f * W f := by
  simp only [Finset.sum_mul, Finset.mul_sum]
  rw [Finset.sum_comm]
  exact Finset.sum_congr rfl fun j _ => Finset.sum_congr rfl fun f _ => by ring

/-- The real part of one entry, the operator applied first; `c` is the factor −1 on the `Li · X1` product. -/
def opFirstRe (Lr Li : J → EReal) (X0 X1 : J → Fe → EReal) (W : Fe → EReal) (c : EReal) : EReal :=
  (∑ f, (∑ j, Lr j * X0 j f) * W f) + ∑ f, (c * ∑ j, Li j * X1 j f) * W f

/-- The imaginary part of one entry, the operator applied first. -/
def opFirstIm (Lr Li : J → EReal) (X0 X1 : J → Fe → EReal) (W : Fe → EReal) : EReal :=
  (∑ f, (∑ j, Li j * X0 j f) * W f) + ∑ f, (∑ j, Lr j * X1 j f) * W f

/-- The real part of one entry, the features meeting the weights first. -/
def weightsFirstRe (Lr Li : J → EReal) (X0 X1 : J → Fe → EReal) (W : Fe → EReal) : EReal :=
  (∑ j, Lr j * ∑ f, X0 j f * W f) - ∑ j, Li j * ∑ f, X1 j f * W f

/-- The imaginary part of one entry, the features meeting the weights first. -/
def weightsFirstIm (Lr Li : J → EReal) (X0 X1 : J → Fe → EReal) (W : Fe → EReal) : EReal :=
  (∑ j, Li j * ∑ f, X0 j f * W f) + ∑ j, Lr j * ∑ f, X1 j f * W f

/-- On real entries the two arrangements of the real part agree. -/
theorem opFirstRe_eq (Lr Li : J → EReal) (X0 X1 : J → Fe → EReal) (W : Fe → EReal) (c : EReal)
    (hLr : ∀ j, ∃ r : ℝ, Lr j = (r : EReal)) (hLi : ∀ j, ∃ r : ℝ, Li j = (r : EReal))
    (hX0 : ∀ j f, ∃ r : ℝ, X0 j f = (r : EReal)) (hX1 : ∀ j f, ∃ r : ℝ, X1 j f = (r : EReal))
    (hW : ∀ f, ∃ r : ℝ, W f = (r : EReal)) (hc : c = ((-1 : ℝ) : EReal)) :
    opFirstRe Lr Li X0 X1 W c = weightsFirstRe Lr Li X0 X1 W := by
  choose lr hlr using hLr
  choose li hli using hLi
  choose x0 hx0 using hX0
  choose x1 hx1 using hX1
  choose w hw using hW
  unfold opFirstRe weightsFirstRe
  simp only [hlr, hli, hx0, hx1, hw, hc, ← EReal.coe_mul, ← coe_sum, ← EReal.coe_add, ← EReal.coe_sub]
  rw [EReal.coe_eq_coe_iff, ← assoc_real lr x0 w, ← assoc_real li x1 w]
  simp only [neg_mul, one_mul, Finset.sum_neg_distrib, sub_eq_add_neg]

/-- On real entries the two arrangements of the imaginary part agree. -/
theorem opFirstIm_eq (Lr Li : J → EReal) (X0 X1 : J → Fe → EReal) (W : Fe → EReal)
    (hLr : ∀ j, ∃ r : ℝ, Lr j = (r : EReal)) (hLi : ∀ j, ∃ r : ℝ, Li j = (r : EReal))
    (hX0 : ∀ j f, ∃ r : ℝ, X0 j f = (r : EReal)) (hX1 : ∀ j f, ∃ r : ℝ, X1 j f = (r : EReal))
    (hW : ∀ f, ∃ r : ℝ, W f = (r : EReal)) :
    opFirstIm Lr Li X0 X1 W = weightsFirstIm Lr Li X0 X1 W := by
  choose lr hlr using hLr
  choose li hli using hLi
  choose x0 hx0 using hX0
  choose x1 hx1 using hX1
  choose w hw using hW
  unfold opFirstIm weightsFirstIm
  simp only [hlr, hli, hx0, hx1, hw, ← EReal.coe_mul, ← coe_sum, ← EReal.coe_add]
  rw [EReal.coe_eq_coe_iff, ← assoc_real li x0 w, ← assoc_real lr x1 w]

/-- The sum over the three orders from zero, then the bias, is the bias joined after the first order: addition on
    the extended reals is commutative and associative, so this needs no finiteness. -/
theorem sum_three_add (z t0 t1 t2 b : EReal) (hz : z = 0) :
    (z + (t0 + t1 + t2)) + b = ((t0 + b) + t1) + t2 := by
  rw [hz, zero_add]; abel

end Cert.GraphConvAlgebra

end
-- ==== Proof.RefTerms.lean ====
/-
  The reference's term of each order, at an index, and its agreement with the specification on real entries.

  For each order k the reference forms `(Lr_k · X_re) · W_k + (−1 · (Li_k · X_im)) · W_k` (real part) and
  `(Li_k · X_re) · W_k + (Lr_k · X_im) · W_k` (imaginary part). Read at row `r` and column `q`, each product is a finite
  sum over the contracted axis, so the term is the "operator first" arrangement of the algebra module over the row
  `r` of the operator parts, the two halves of the features and the column `q` of the weights; where every entry is a
  real number that arrangement equals the specification's, in which the features meet the weights first.
-/
import proofs.«171784_g38809324486710_cont_sun_c4_445_3_alg».proof.Proof.RefArgs
import proofs.«171784_g38809324486710_cont_sun_c4_445_3_alg».proof.Proof.ConvAlgebra
import proofs.«171784_g38809324486710_cont_sun_c4_445_3_alg».proof.Proof.Spec

namespace Cert.GraphConvRef

open Cert.ReferenceIdeal Cert.ReferenceIdeal.Gen Cert.ReferenceIdeal.Read Idealize.ShloMosaic Idealize.ShloMosaic.ValueIdx
open Cert.GraphConvAlgebra Cert.GraphConvSpec

/-- The real part of the order-0 term as the reference computes it: the operator first, then the weights. -/
theorem re0_at (x0 : (⟨S2x2048x256, .f32⟩ : BufTy).Contents (Elt Ideal)) (x1 x2 : (⟨S3x2048x2048, .f32⟩ : BufTy).Contents (Elt Ideal)) (x3 : (⟨S3x256x256, .f32⟩ : BufTy).Contents (Elt Ideal)) (r : Fin 2048) (q : Fin 256) :
    val_main_v16 (F := Ideal) x0 x1 x2 x3 (ix2 r q) =
      opFirstRe (fun j : Fin 2048 => x1 (ix3 0 r j)) (fun j : Fin 2048 => x2 (ix3 0 r j))
        (fun (j : Fin 2048) (f : Fin 256) => x0 (ix3 0 j f)) (fun (j : Fin 2048) (f : Fin 256) => x0 (ix3 1 j f))
        (fun f : Fin 256 => x3 (ix3 0 f q)) (Ideal.ofBits .f32 0xBF800000#32) := by
  rw [val_main_v16_apply, val_main_v11_apply, val_main_v15_apply]
  simp only [val_main_v10_apply, val_main_v14_apply, val_main_v13_apply, val_main_cst_apply, val_main_v12_apply,
    lr0_at, li0_at, xRe_at, xIm_at, w0_at, Ideal.addf_def, Ideal.mulf_def, Ideal.ofBits_def]
  rfl

/-- On real entries it is the order-0 real term of the specification. -/
theorem re0_spec (x0 : (⟨S2x2048x256, .f32⟩ : BufTy).Contents (Elt Ideal)) (x1 x2 : (⟨S3x2048x2048, .f32⟩ : BufTy).Contents (Elt Ideal)) (x3 : (⟨S3x256x256, .f32⟩ : BufTy).Contents (Elt Ideal))
    (h0 : ∀ i, ∃ t : ℝ, x0 i = (t : EReal)) (h1 : ∀ i, ∃ t : ℝ, x1 i = (t : EReal)) (h2 : ∀ i, ∃ t : ℝ, x2 i = (t : EReal)) (h3 : ∀ i, ∃ t : ℝ, x3 i = (t : EReal)) (r : Fin 2048) (q : Fin 256) :
    val_main_v16 (F := Ideal) x0 x1 x2 x3 (ix2 r q) = termRe x0 x1 x2 x3 0 r q :=
  (re0_at x0 x1 x2 x3 r q).trans
    (opFirstRe_eq _ _ _ _ _ _ (fun _ => h1 _) (fun _ => h2 _) (fun _ _ => h0 _) (fun _ _ => h0 _) (fun _ => h3 _) neg_one_word)

/-- The imaginary part of the order-0 term as the reference computes it. -/
theorem im0_at (x0 : (⟨S2x2048x256, .f32⟩ : BufTy).Contents (Elt Ideal)) (x1 x2 : (⟨S3x2048x2048, .f32⟩ : BufTy).Contents (Elt Ideal)) (x3 : (⟨S3x256x256, .f32⟩ : BufTy).Contents (Elt Ideal)) (r : Fin 2048) (q : Fin 256) :
    val_main_v21 (F := Ideal) x0 x1 x2 x3 (ix2 r q) =
      opFirstIm (fun j : Fin 2048 => x1 (ix3 0 r j)) (fun j : Fin 2048 => x2 (ix3 0 r j))
        (fun (j : Fin 2048) (f : Fin 256) => x0 (ix3 0 j f)) (fun (j : Fin 2048) (f : Fin 256) => x0 (ix3 1 j f))
        (fun f : Fin 256 => x3 (ix3 0 f q)) := by
  rw [val_main_v21_apply, val_main_v18_apply, val_main_v20_apply]
  simp only [val_main_v17_apply, val_main_v19_apply,
    lr0_at, li0_at, xRe_at, xIm_at, w0_at, Ideal.addf_def]
  rfl

/-- On real entries it is the order-0 imaginary term of the specification. -/
theorem im0_spec (x0 : (⟨S2x2048x256, .f32⟩ : BufTy).Contents (Elt Ideal)) (x1 x2 : (⟨S3x2048x2048, .f32⟩ : BufTy).Contents (Elt Ideal)) (x3 : (⟨S3x256x256, .f32⟩ : BufTy).Contents (Elt Ideal))
    (h0 : ∀ i, ∃ t : ℝ, x0 i = (t : EReal)) (h1 : ∀ i, ∃ t : ℝ, x1 i = (t : EReal)) (h2 : ∀ i, ∃ t : ℝ, x2 i = (t : EReal)) (h3 : ∀ i, ∃ t : ℝ, x3 i = (t : EReal)) (r : Fin 2048) (q : Fin 256) :
    val_main_v21 (F := Ideal) x0 x1 x2 x3 (ix2 r q) = termIm x0 x1 x2 x3 0 r q :=
  (im0_at x0 x1 x2 x3 r q).trans
    (opFirstIm_eq _ _ _ _ _ (fun _ => h1 _) (fun _ => h2 _) (fun _ _ => h0 _) (fun _ _ => h0 _) (fun _ => h3 _))

/-- The real part of the order-1 term as the reference computes it: the operator first, then the weights. -/
theorem re1_at (x0 : (⟨S2x2048x256, .f32⟩ : BufTy).Contents (Elt Ideal)) (x1 x2 : (⟨S3x2048x2048, .f32⟩ : BufTy).Contents (Elt Ideal)) (x3 : (⟨S3x256x256, .f32⟩ : BufTy).Contents (Elt Ideal)) (r : Fin 2048) (q : Fin 256) :
    val_main_v37 (F := Ideal) x0 x1 x2 x3 (ix2 r q) =
      opFirstRe (fun j : Fin 2048 => x1 (ix3 1 r j)) (fun j : Fin 2048 => x2 (ix3 1 r j))
        (fun (j : Fin 2048) (f : Fin 256) => x0 (ix3 0 j f)) (fun (j : Fin 2048) (f : Fin 256) => x0 (ix3 1 j f))
        (fun f : Fin 256 => x3 (ix3 1 f q)) (Ideal.ofBits .f32 0xBF800000#32) := by
  rw [val_main_v37_apply, val_main_v32_apply, val_main_v36_apply]
  simp only [val_main_v31_apply, val_main_v35_apply, val_main_v34_apply, val_main_cst_0_apply, val_main_v33_apply,
    lr1_at, li1_at, xRe_at, xIm_at, w1_at, Ideal.addf_def, Ideal.mulf_def, Ideal.ofBits_def]
  rfl

/-- On real entries it is the order-1 real term of the specification. -/
theorem re1_spec (x0 : (⟨S2x2048x256, .f32⟩ : BufTy).Contents (Elt Ideal)) (x1 x2 : (⟨S3x2048x2048, .f32⟩ : BufTy).Contents (Elt Ideal)) (x3 : (⟨S3x256x256, .f32⟩ : BufTy).Contents (Elt Ideal))
    (h0 : ∀ i, ∃ t : ℝ, x0 i = (t : EReal)) (h1 : ∀ i, ∃ t : ℝ, x1 i = (t : EReal)) (h2 : ∀ i, ∃ t : ℝ, x2 i = (t : EReal)) (h3 : ∀ i, ∃ t : ℝ, x3 i = (t : EReal)) (r : Fin 2048) (q : Fin 256) :
    val_main_v37 (F := Ideal) x0 x1 x2 x3 (ix2 r q) = termRe x0 x1 x2 x3 1 r q :=
  (re1_at x0 x1 x2 x3 r q).trans
    (opFirstRe_eq _ _ _ _ _ _ (fun _ => h1 _) (fun _ => h2 _) (fun _ _ => h0 _) (fun _ _ => h0 _) (fun _ => h3 _) neg_one_word)

/-- The imaginary part of the order-1 term as the reference computes it. -/
theorem im1_at (x0 : (⟨S2x2048x256, .f32⟩ : BufTy).Contents (Elt Ideal)) (x1 x2 : (⟨S3x2048x2048, .f32⟩ : BufTy).Contents (Elt Ideal)) (x3 : (⟨S3x256x256, .f32⟩ : BufTy).Contents (Elt Ideal)) (r : Fin 2048) (q : Fin 256) :
    val_main_v42 (F := Ideal) x0 x1 x2 x3 (ix2 r q) =
      opFirstIm (fun j : Fin 2048 => x1 (ix3 1 r j)) (fun j : Fin 2048 => x2 (ix3 1 r j))
        (fun (j : Fin 2048) (f : Fin 256) => x0 (ix3 0 j f)) (fun (j : Fin 2048) (f : Fin 256) => x0 (ix3 1 j f))
        (fun f : Fin 256 => x3 (ix3 1 f q)) := by
  rw [val_main_v42_apply, val_main_v39_apply, val_main_v41_apply]
  simp only [val_main_v38_apply, val_main_v40_apply,
    lr1_at, li1_at, xRe_at, xIm_at, w1_at, Ideal.addf_def]
  rfl

/-- On real entries it is the order-1 imaginary term of the specification. -/
theorem im1_spec (x0 : (⟨S2x2048x256, .f32⟩ : BufTy).Contents (Elt Ideal)) (x1 x2 : (⟨S3x2048x2048, .f32⟩ : BufTy).Contents (Elt Ideal)) (x3 : (⟨S3x256x256, .f32⟩ : BufTy).Contents (Elt Ideal))
    (h0 : ∀ i, ∃ t : ℝ, x0 i = (t : EReal)) (h1 : ∀ i, ∃ t : ℝ, x1 i = (t : EReal)) (h2 : ∀ i, ∃ t : ℝ, x2 i = (t : EReal)) (h3 : ∀ i, ∃ t : ℝ, x3 i = (t : EReal)) (r : Fin 2048) (q : Fin 256) :
    val_main_v42 (F := Ideal) x0 x1 x2 x3 (ix2 r q) = termIm x0 x1 x2 x3 1 r q :=
  (im1_at x0 x1 x2 x3 r q).trans
    (opFirstIm_eq _ _ _ _ _ (fun _ => h1 _) (fun _ => h2 _) (fun _ _ => h0 _) (fun _ _ => h0 _) (fun _ => h3 _))

/-- The real part of the order-2 term as the reference computes it: the operator first, then the weights. -/
theorem re2_at (x0 : (⟨S2x2048x256, .f32⟩ : BufTy).Contents (Elt Ideal)) (x1 x2 : (⟨S3x2048x2048, .f32⟩ : BufTy).Contents (Elt Ideal)) (x3 : (⟨S3x256x256, .f32⟩ : BufTy).Contents (Elt Ideal)) (r : Fin 2048) (q : Fin 256) :
    val_main_v58 (F := Ideal) x0 x1 x2 x3 (ix2 r q) =
      opFirstRe (fun j : Fin 2048 => x1 (ix3 2 r j)) (fun j : Fin 2048 => x2 (ix3 2 r j))
        (fun (j : Fin 2048) (f : Fin 256) => x0 (ix3 0 j f)) (fun (j : Fin 2048) (f : Fin 256) => x0 (ix3 1 j f))
        (fun f : Fin 256 => x3 (ix3 2 f q)) (Ideal.ofBits .f32 0xBF800000#32) := by
  rw [val_main_v58_apply, val_main_v53_apply, val_main_v57_apply]
  simp only [val_main_v52_apply, val_main_v56_apply, val_main_v55_apply, val_main_cst_1_apply, val_main_v54_apply,
    lr2_at, li2_at, xRe_at, xIm_at, w2_at, Ideal.addf_def, Ideal.mulf_def, Ideal.ofBits_def]
  rfl

/-- On real entries it is the order-2 real term of the specification. -/
theorem re2_spec (x0 : (⟨S2x2048x256, .f32⟩ : BufTy).Contents (Elt Ideal)) (x1 x2 : (⟨S3x2048x2048, .f32⟩ : BufTy).Contents (Elt Ideal)) (x3 : (⟨S3x256x256, .f32⟩ : BufTy).Contents (Elt Ideal))
    (h0 : ∀ i, ∃ t : ℝ, x0 i = (t : EReal)) (h1 : ∀ i, ∃ t : ℝ, x1 i = (t : EReal)) (h2 : ∀ i, ∃ t : ℝ, x2 i = (t : EReal)) (h3 : ∀ i, ∃ t : ℝ, x3 i = (t : EReal)) (r : Fin 2048) (q : Fin 256) :
    val_main_v58 (F := Ideal) x0 x1 x2 x3 (ix2 r q) = termRe x0 x1 x2 x3 2 r q :=
  (re2_at x0 x1 x2 x3 r q).trans
    (opFirstRe_eq _ _ _ _ _ _ (fun _ => h1 _) (fun _ => h2 _) (fun _ _ => h0 _) (fun _ _ => h0 _) (fun _ => h3 _) neg_one_word)

/-- The imaginary part of the order-2 term as the reference computes it. -/
theorem im2_at (x0 : (⟨S2x2048x256, .f32⟩ : BufTy).Contents (Elt Ideal)) (x1 x2 : (⟨S3x2048x2048, .f32⟩ : BufTy).Contents (Elt Ideal)) (x3 : (⟨S3x256x256, .f32⟩ : BufTy).Contents (Elt Ideal)) (r : Fin 2048) (q : Fin 256) :
    val_main_v63 (F := Ideal) x0 x1 x2 x3 (ix2 r q) =
      opFirstIm (fun j : Fin 2048 => x1 (ix3 2 r j)) (fun j : Fin 2048 => x2 (ix3 2 r j))
        (fun (j : Fin 2048) (f : Fin 256) => x0 (ix3 0 j f)) (fun (j : Fin 2048) (f : Fin 256) => x0 (ix3 1 j f))
        (fun f : Fin 256 => x3 (ix3 2 f q)) := by
  rw [val_main_v63_apply, val_main_v60_apply, val_main_v62_apply]
  simp only [val_main_v59_apply, val_main_v61_apply,
    lr2_at, li2_at, xRe_at, xIm_at, w2_at, Ideal.addf_def]
  rfl

/-- On real entries it is the order-2 imaginary term of the specification. -/
theorem im2_spec (x0 : (⟨S2x2048x256, .f32⟩ : BufTy).Contents (Elt Ideal)) (x1 x2 : (⟨S3x2048x2048, .f32⟩ : BufTy).Contents (Elt Ideal)) (x3 : (⟨S3x256x256, .f32⟩ : BufTy).Contents (Elt Ideal))
    (h0 : ∀ i, ∃ t : ℝ, x0 i = (t : EReal)) (h1 : ∀ i, ∃ t : ℝ, x1 i = (t : EReal)) (h2 : ∀ i, ∃ t : ℝ, x2 i = (t : EReal)) (h3 : ∀ i, ∃ t : ℝ, x3 i = (t : EReal)) (r : Fin 2048) (q : Fin 256) :
    val_main_v63 (F := Ideal) x0 x1 x2 x3 (ix2 r q) = termIm x0 x1 x2 x3 2 r q :=
  (im2_at x0 x1 x2 x3 r q).trans
    (opFirstIm_eq _ _ _ _ _ (fun _ => h1 _) (fun _ => h2 _) (fun _ _ => h0 _) (fun _ _ => h0 _) (fun _ => h3 _))

end Cert.GraphConvRef
-- ==== Proof.RefStack.lean ====
/-
  The reference's stacking and its sum over the orders, at an index.

  Each order's result is `stack([real, imag])`: a concatenation, along a new leading axis of extent 2, of the two parts
  viewed with a unit leading axis — half 0 is the real part, half 1 the imaginary part. The three orders are stacked
  the same way along a further leading axis of extent 3 and summed over it from zero: the entry at half `h`, row `r`,
  column `q` of the sum is zero plus the three orders' entries at `(h, r, q)`.
-/
import proofs.«171784_g38809324486710_cont_sun_c4_445_3_alg».proof.Proof.Gen.ReferenceIdeal.Read

namespace Cert.GraphConvRef

open Cert.ReferenceIdeal Cert.ReferenceIdeal.Gen Cert.ReferenceIdeal.Read Idealize.ShloMosaic Idealize.ShloMosaic.ValueIdx

section
variable {F : FTy → Type} [FloatOps F]

/-- The order-0 pair `stack([real, imag])` at half 0 is the real part. -/
theorem pair0_re (x0 : (⟨S2x2048x256, .f32⟩ : BufTy).Contents (Elt F)) (x1 x2 : (⟨S3x2048x2048, .f32⟩ : BufTy).Contents (Elt F)) (x3 : (⟨S3x256x256, .f32⟩ : BufTy).Contents (Elt F)) (r : Fin 2048) (q : Fin 256) :
    val_main_v24 (F := F) x0 x1 x2 x3 (ix3 0 r q) = val_main_v16 (F := F) x0 x1 x2 x3 (ix2 r q) := by
  unfold val_main_v24
  refine (concatenate_pair_apply_left (t := S2x2048x256) (s₁ := S1x2048x256) (s₂ := S1x2048x256) (0 : Fin 3)
    (val_main_v22 (F := F) x0 x1 x2 x3) (val_main_v23 (F := F) x0 x1 x2 x3)
    concatenates_S1x2048x256_S1x2048x256_S2x2048x256_d0 (ix3 (0 : Fin 2) r q) rfl
    (ix3 (0 : Fin 1) r q) (fun b => by match b with | ⟨0, _⟩ => rfl | ⟨1, _⟩ => rfl | ⟨2, _⟩ => rfl)).trans ?_
  rw [val_main_v22_apply]
  exact congrArg _ (funext fun a => Fin.ext (by match a with | ⟨0, _⟩ => rfl | ⟨1, _⟩ => rfl))

/-- The order-0 pair at half 1 is the imaginary part. -/
theorem pair0_im (x0 : (⟨S2x2048x256, .f32⟩ : BufTy).Contents (Elt F)) (x1 x2 : (⟨S3x2048x2048, .f32⟩ : BufTy).Contents (Elt F)) (x3 : (⟨S3x256x256, .f32⟩ : BufTy).Contents (Elt F)) (r : Fin 2048) (q : Fin 256) :
    val_main_v24 (F := F) x0 x1 x2 x3 (ix3 1 r q) = val_main_v21 (F := F) x0 x1 x2 x3 (ix2 r q) := by
  unfold val_main_v24
  refine (concatenate_pair_apply_right (t := S2x2048x256) (s₁ := S1x2048x256) (s₂ := S1x2048x256) (0 : Fin 3)
    (val_main_v22 (F := F) x0 x1 x2 x3) (val_main_v23 (F := F) x0 x1 x2 x3)
    concatenates_S1x2048x256_S1x2048x256_S2x2048x256_d0 (ix3 (1 : Fin 2) r q) rfl rfl
    (ix3 (0 : Fin 1) r q)
    (fun b hb => by match b with | ⟨0, _⟩ => exact absurd rfl hb | ⟨1, _⟩ => rfl | ⟨2, _⟩ => rfl) rfl).trans ?_
  rw [val_main_v23_apply]
  exact congrArg _ (funext fun a => Fin.ext (by match a with | ⟨0, _⟩ => rfl | ⟨1, _⟩ => rfl))

/-- The order-1 pair `stack([real, imag])` at half 0 is the real part. -/
theorem pair1_re (x0 : (⟨S2x2048x256, .f32⟩ : BufTy).Contents (Elt F)) (x1 x2 : (⟨S3x2048x2048, .f32⟩ : BufTy).Contents (Elt F)) (x3 : (⟨S3x256x256, .f32⟩ : BufTy).Contents (Elt F)) (r : Fin 2048) (q : Fin 256) :
    val_main_v45 (F := F) x0 x1 x2 x3 (ix3 0 r q) = val_main_v37 (F := F) x0 x1 x2 x3 (ix2 r q) := by
  unfold val_main_v45
  refine (concatenate_pair_apply_left (t := S2x2048x256) (s₁ := S1x2048x256) (s₂ := S1x2048x256) (0 : Fin 3)
    (val_main_v43 (F := F) x0 x1 x2 x3) (val_main_v44 (F := F) x0 x1 x2 x3)
    concatenates_S1x2048x256_S1x2048x256_S2x2048x256_d0 (ix3 (0 : Fin 2) r q) rfl
    (ix3 (0 : Fin 1) r q) (fun b => by match b with | ⟨0, _⟩ => rfl | ⟨1, _⟩ => rfl | ⟨2, _⟩ => rfl)).trans ?_
  rw [val_main_v43_apply]
  exact congrArg _ (funext fun a => Fin.ext (by match a with | ⟨0, _⟩ => rfl | ⟨1, _⟩ => rfl))

/-- The order-1 pair at half 1 is the imaginary part. -/
theorem pair1_im (x0 : (⟨S2x2048x256, .f32⟩ : BufTy).Contents (Elt F)) (x1 x2 : (⟨S3x2048x2048, .f32⟩ : BufTy).Contents (Elt F)) (x3 : (⟨S3x256x256, .f32⟩ : BufTy).Contents (Elt F)) (r : Fin 2048) (q : Fin 256) :
    val_main_v45 (F := F) x0 x1 x2 x3 (ix3 1 r q) = val_main_v42 (F := F) x0 x1 x2 x3 (ix2 r q) := by
  unfold val_main_v45
  refine (concatenate_pair_apply_right (t := S2x2048x256) (s₁ := S1x2048x256) (s₂ := S1x2048x256) (0 : Fin 3)
    (val_main_v43 (F := F) x0 x1 x2 x3) (val_main_v44 (F := F) x0 x1 x2 x3)
    concatenates_S1x2048x256_S1x2048x256_S2x2048x256_d0 (ix3 (1 : Fin 2) r q) rfl rfl
    (ix3 (0 : Fin 1) r q)
    (fun b hb => by match b with | ⟨0, _⟩ => exact absurd rfl hb | ⟨1, _⟩ => rfl | ⟨2, _⟩ => rfl) rfl).trans ?_
  rw [val_main_v44_apply]
  exact congrArg _ (funext fun a => Fin.ext (by match a with | ⟨0, _⟩ => rfl | ⟨1, _⟩ => rfl))

/-- The order-2 pair `stack([real, imag])` at half 0 is the real part. -/
theorem pair2_re (x0 : (⟨S2x2048x256, .f32⟩ : BufTy).Contents (Elt F)) (x1 x2 : (⟨S3x2048x2048, .f32⟩ : BufTy).Contents (Elt F)) (x3 : (⟨S3x256x256, .f32⟩ : BufTy).Contents (Elt F)) (r : Fin 2048) (q : Fin 256) :
    val_main_v66 (F := F) x0 x1 x2 x3 (ix3 0 r q) = val_main_v58 (F := F) x0 x1 x2 x3 (ix2 r q) := by
  unfold val_main_v66
  refine (concatenate_pair_apply_left (t := S2x2048x256) (s₁ := S1x2048x256) (s₂ := S1x2048x256) (0 : Fin 3)
    (val_main_v64 (F := F) x0 x1 x2 x3) (val_main_v65 (F := F) x0 x1 x2 x3)
    concatenates_S1x2048x256_S1x2048x256_S2x2048x256_d0 (ix3 (0 : Fin 2) r q) rfl
    (ix3 (0 : Fin 1) r q) (fun b => by match b with | ⟨0, _⟩ => rfl | ⟨1, _⟩ => rfl | ⟨2, _⟩ => rfl)).trans ?_
  rw [val_main_v64_apply]
  exact congrArg _ (funext fun a => Fin.ext (by match a with | ⟨0, _⟩ => rfl | ⟨1, _⟩ => rfl))

/-- The order-2 pair at half 1 is the imaginary part. -/
theorem pair2_im (x0 : (⟨S2x2048x256, .f32⟩ : BufTy).Contents (Elt F)) (x1 x2 : (⟨S3x2048x2048, .f32⟩ : BufTy).Contents (Elt F)) (x3 : (⟨S3x256x256, .f32⟩ : BufTy).Contents (Elt F)) (r : Fin 2048) (q : Fin 256) :
    val_main_v66 (F := F) x0 x1 x2 x3 (ix3 1 r q) = val_main_v63 (F := F) x0 x1 x2 x3 (ix2 r q) := by
  unfold val_main_v66
  refine (concatenate_pair_apply_right (t := S2x2048x256) (s₁ := S1x2048x256) (s₂ := S1x2048x256) (0 : Fin 3)
    (val_main_v64 (F := F) x0 x1 x2 x3) (val_main_v65 (F := F) x0 x1 x2 x3)
    concatenates_S1x2048x256_S1x2048x256_S2x2048x256_d0 (ix3 (1 : Fin 2) r q) rfl rfl
    (ix3 (0 : Fin 1) r q)
    (fun b hb => by match b with | ⟨0, _⟩ => exact absurd rfl hb | ⟨1, _⟩ => rfl | ⟨2, _⟩ => rfl) rfl).trans ?_
  rw [val_main_v65_apply]
  exact congrArg _ (funext fun a => Fin.ext (by match a with | ⟨0, _⟩ => rfl | ⟨1, _⟩ => rfl))

end

/-- The sum over the stacked orders at `(h, r, q)`: zero plus the three orders' pairs at `(h, r, q)`. -/
theorem stacked_sum_at (x0 : (⟨S2x2048x256, .f32⟩ : BufTy).Contents (Elt Ideal)) (x1 x2 : (⟨S3x2048x2048, .f32⟩ : BufTy).Contents (Elt Ideal)) (x3 : (⟨S3x256x256, .f32⟩ : BufTy).Contents (Elt Ideal))
    (h : Fin 2) (r : Fin 2048) (q : Fin 256) :
    val_main_v71 (F := Ideal) x0 x1 x2 x3 (ix3 h r q) =
      Ideal.ofBits .f32 0x00000000#32 + (val_main_v24 (F := Ideal) x0 x1 x2 x3 (ix3 h r q)
        + val_main_v45 (F := Ideal) x0 x1 x2 x3 (ix3 h r q) + val_main_v66 (F := Ideal) x0 x1 x2 x3 (ix3 h r q)) := by
  have e0 : val_main_v70 (F := Ideal) x0 x1 x2 x3 (idx_main_v71 (ix3 h r q) 0) = val_main_v24 (F := Ideal) x0 x1 x2 x3 (ix3 h r q) := by
    unfold val_main_v70
    refine (concatenate_apply_piece (t := S3x2x2048x256) (0 : Fin 4)
      [⟨S1x2x2048x256, val_main_v67 (F := Ideal) x0 x1 x2 x3⟩, ⟨S1x2x2048x256, val_main_v68 (F := Ideal) x0 x1 x2 x3⟩, ⟨S1x2x2048x256, val_main_v69 (F := Ideal) x0 x1 x2 x3⟩]
      concatenates_S1x2x2048x256_S1x2x2048x256_S1x2x2048x256_S3x2x2048x256_d0 (idx_main_v71 (ix3 h r q) 0)
      0 (by show (0 : Nat) < 3; decide) S1x2x2048x256 (val_main_v67 (F := Ideal) x0 x1 x2 x3) rfl rfl 0 rfl (ix4 (0 : Fin 1) h r q)
      (fun b hb => by match b with | ⟨0, _⟩ => exact absurd rfl hb | ⟨1, _⟩ => rfl | ⟨2, _⟩ => rfl | ⟨3, _⟩ => rfl) rfl).trans ?_
    rw [val_main_v67_apply]
    exact congrArg _ (funext fun a => Fin.ext (by match a with | ⟨0, _⟩ => rfl | ⟨1, _⟩ => rfl | ⟨2, _⟩ => rfl))
  have e1 : val_main_v70 (F := Ideal) x0 x1 x2 x3 (idx_main_v71 (ix3 h r q) 1) = val_main_v45 (F := Ideal) x0 x1 x2 x3 (ix3 h r q) := by
    unfold val_main_v70
    refine (concatenate_apply_piece (t := S3x2x2048x256) (0 : Fin 4)
      [⟨S1x2x2048x256, val_main_v67 (F := Ideal) x0 x1 x2 x3⟩, ⟨S1x2x2048x256, val_main_v68 (F := Ideal) x0 x1 x2 x3⟩, ⟨S1x2x2048x256, val_main_v69 (F := Ideal) x0 x1 x2 x3⟩]
      concatenates_S1x2x2048x256_S1x2x2048x256_S1x2x2048x256_S3x2x2048x256_d0 (idx_main_v71 (ix3 h r q) 1)
      1 (by show (1 : Nat) < 3; decide) S1x2x2048x256 (val_main_v68 (F := Ideal) x0 x1 x2 x3) rfl rfl 1 rfl (ix4 (0 : Fin 1) h r q)
      (fun b hb => by match b with | ⟨0, _⟩ => exact absurd rfl hb | ⟨1, _⟩ => rfl | ⟨2, _⟩ => rfl | ⟨3, _⟩ => rfl) rfl).trans ?_
    rw [val_main_v68_apply]
    exact congrArg _ (funext fun a => Fin.ext (by match a with | ⟨0, _⟩ => rfl | ⟨1, _⟩ => rfl | ⟨2, _⟩ => rfl))
  have e2 : val_main_v70 (F := Ideal) x0 x1 x2 x3 (idx_main_v71 (ix3 h r q) 2) = val_main_v66 (F := Ideal) x0 x1 x2 x3 (ix3 h r q) := by
    unfold val_main_v70
    refine (concatenate_apply_piece (t := S3x2x2048x256) (0 : Fin 4)
      [⟨S1x2x2048x256, val_main_v67 (F := Ideal) x0 x1 x2 x3⟩, ⟨S1x2x2048x256, val_main_v68 (F := Ideal) x0 x1 x2 x3⟩, ⟨S1x2x2048x256, val_main_v69 (F := Ideal) x0 x1 x2 x3⟩]
      concatenates_S1x2x2048x256_S1x2x2048x256_S1x2x2048x256_S3x2x2048x256_d0 (idx_main_v71 (ix3 h r q) 2)
      2 (by show (2 : Nat) < 3; decide) S1x2x2048x256 (val_main_v69 (F := Ideal) x0 x1 x2 x3) rfl rfl 2 rfl (ix4 (0 : Fin 1) h r q)
      (fun b hb => by match b with | ⟨0, _⟩ => exact absurd rfl hb | ⟨1, _⟩ => rfl | ⟨2, _⟩ => rfl | ⟨3, _⟩ => rfl) rfl).trans ?_
    rw [val_main_v69_apply]
    exact congrArg _ (funext fun a => Fin.ext (by match a with | ⟨0, _⟩ => rfl | ⟨1, _⟩ => rfl | ⟨2, _⟩ => rfl))
  rw [val_main_v71_apply, Fin.sum_univ_three, e0, e1, e2, val_main_cst_2_apply]
  rfl

end Cert.GraphConvRef
-- ==== Proof.LibFiniteReal.lean ====
/-
  Finite entries are real numbers — the part that does not depend on any one program.

  On the extended reals the absolute value `max x (-x)` is below `+∞` exactly when `x` is the image of a real number: at
  `⊤` it is `⊤`, and at `⊥` it is `-⊥ = ⊤` (which is also how an undefined value reads). The word `0x7F800000` denotes
  `+∞`. So where the comparison bit "`|X i| < +∞`" of a printed finiteness predicate is one, `X i` is real
  (`real_of_lt_inf`, over any shape), and where the `and` of those bits over every index of an array is one — the
  predicate's `jnp.all` — every entry of the array is real (`real_of_all`; `real_of_all_scalar` for rank zero).
-/
import Idealize.ShloMosaic.Lib.ReduceAll
import Idealize.ShloMosaic.Lib.Affine
import Idealize.ShloMosaic.Lib.ValueIdx
import Idealize.ShloMosaic.PureOps.Ideal
import Idealize.ShloMosaic.PureOps.Ideal.Laws

namespace Cert.Finite

open Idealize.ShloMosaic Idealize.SL.Sem

/-- The shape of rank zero has exactly one index. -/
instance subsingleton_scalar_idx : Subsingleton (⟨0, ![]⟩ : Shape).Idx :=
  ⟨fun a b => funext fun d => d.elim0⟩

/-- The word `0x7F800000` (sign 0, exponent all ones, fraction 0) denotes `+∞`. -/
theorem inf_word : Ideal.ofBits .f32 0x7F800000#32 = (⊤ : EReal) := by
  simp [Ideal.ofBits, Ideal.ieee]

/-- A one-bit word made from a Boolean is one only when the Boolean is true. -/
theorem eq_true_of_ofBool {b : Bool} (h : BitVec.ofBool b = 1#1) : b = true := by
  cases b
  · exact absurd h (by decide)
  · rfl

/-- An extended real whose absolute value `max x (-x)` is below `⊤` is a real number:
    at `x = ⊤` the maximum is `⊤`, and at `x = ⊥` it is `-⊥ = ⊤`. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The comparison bit "`|x| < +∞`" being one makes `x` a real number. -/
theorem real_of_cmp (x : EReal)
    (h : Ideal.cmp .olt (max x (-x)) (Ideal.ofBits .f32 0x7F800000#32) = 1#1) :
    ∃ r : ℝ, x = (r : EReal) := by
  rw [inf_word] at h
  have hb : BitVec.ofBool (decide (max x (-x) < ⊤)) = 1#1 := h
  exact real_of_abs_lt_top x (of_decide_eq_true (eq_true_of_ofBool hb))

/-- Elementwise, over any shape: where the bit "`|X i| < +∞`" (the bound a splat of the `+∞` word) is one,
    `X i` is a real number. -/
theorem real_of_lt_inf {s : Shape}
    (hb : Shape.BroadcastsInDim (⟨0, ![]⟩ : Shape) s (![] : Fin 0 → Fin s.rank))
    (X : FVec Ideal s .f32) (i : s.Idx)
    (h : cmpf .olt (Host.absf X)
          (broadcastInDim s ![] hb (constant (F := Ideal) (⟨0, ![]⟩ : Shape) .f32 0x7F800000#32)) i = 1#1) :
    ∃ r : ℝ, X i = (r : EReal) :=
  real_of_cmp (X i) h

/-- The same for an array of rank zero, whose bound is the `+∞` constant itself. -/
theorem real_of_lt_inf_scalar (X : FVec Ideal (⟨0, ![]⟩ : Shape) .f32) (i : (⟨0, ![]⟩ : Shape).Idx)
    (h : cmpf .olt (Host.absf X) (constant (F := Ideal) (⟨0, ![]⟩ : Shape) .f32 0x7F800000#32) i = 1#1) :
    ∃ r : ℝ, X i = (r : EReal) :=
  real_of_cmp (X i) h

/-- "All entries are finite", over any shape: if the `and` over every index of the bits "`|X i| < +∞`" is one,
    every entry of `X` is a real number. -/
theorem real_of_all {s : Shape} {axes : List (Fin s.rank)}
    (hb : Shape.BroadcastsInDim (⟨0, ![]⟩ : Shape) s (![] : Fin 0 → Fin s.rank))
    (hr : s.ReducesTo axes (⟨0, ![]⟩ : Shape)) (hu : 0 < (⟨0, ![]⟩ : Shape).numel)
    (X : FVec Ideal s .f32)
    (h : Host.reduce IntOp.andi
          (cmpf .olt (Host.absf X)
            (broadcastInDim s ![] hb (constant (F := Ideal) (⟨0, ![]⟩ : Shape) .f32 0x7F800000#32)))
          (constantI (⟨0, ![]⟩ : Shape) 1 1#1) hr hu ValueIdx.ix0 = 1#1)
    (i : s.Idx) : ∃ r : ℝ, X i = (r : EReal) :=
  real_of_lt_inf hb X i (Host.reduce_andi_all _ _ hr hu ValueIdx.ix0 h i)

/-- The same for an array of rank zero (the `and` runs over its one entry). -/
theorem real_of_all_scalar
    (hr : (⟨0, ![]⟩ : Shape).ReducesTo [] (⟨0, ![]⟩ : Shape)) (hu : 0 < (⟨0, ![]⟩ : Shape).numel)
    (X : FVec Ideal (⟨0, ![]⟩ : Shape) .f32)
    (h : Host.reduce IntOp.andi
          (cmpf .olt (Host.absf X) (constant (F := Ideal) (⟨0, ![]⟩ : Shape) .f32 0x7F800000#32))
          (constantI (⟨0, ![]⟩ : Shape) 1 1#1) hr hu ValueIdx.ix0 = 1#1)
    (i : (⟨0, ![]⟩ : Shape).Idx) : ∃ r : ℝ, X i = (r : EReal) :=
  real_of_lt_inf_scalar X i (Host.reduce_andi_all _ _ hr hu ValueIdx.ix0 h i)

/-- The `and` of two one-bit scalars is one only when both are. -/
theorem and_split {A B : IVec (⟨0, ![]⟩ : Shape) 1} (h : andi A B ValueIdx.ix0 = 1#1) :
    A ValueIdx.ix0 = 1#1 ∧ B ValueIdx.ix0 = 1#1 :=
  IntOp.andi_eq_one.1 h

end Cert.Finite
-- ==== Proof.FiniteInputs.lean ====
/-
  Under the finiteness precondition every entry of every argument array is a real number.

  The precondition is the conjunction, over the five argument arrays (node features, real and imaginary operator
  parts, weights, bias), of "every entry has absolute value below +∞". The conjunction of one-bit scalars is one only
  when each conjunct is, and a conjunct being one makes every entry of its array real.
-/
import proofs.«171784_g38809324486710_cont_sun_c4_445_3_alg».proof.Pre_finite_inputs
import proofs.«171784_g38809324486710_cont_sun_c4_445_3_alg».proof.Proof.LibFiniteReal

namespace Cert.GraphConvFinite

open Idealize.ShloMosaic Cert.Pre_finite_inputs Cert.Finite

variable [Facts]
open Facts

/-- If the finiteness predicate of the five argument arrays is one, every entry of each array is a real number. -/
theorem real_inputs (a0 : FVec Ideal S2x2048x256 .f32) (a1 a2 : FVec Ideal S3x2048x2048 .f32)
    (a3 : FVec Ideal S3x256x256 .f32) (a4 : FVec Ideal S1x256 .f32)
    (h : fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h' := congrFun h ValueIdx.ix0
  dsimp only [fn, fn_part1] at h'
  obtain ⟨h0123, h4⟩ := and_split h'
  obtain ⟨h012, h3⟩ := and_split h0123
  obtain ⟨h01, h2⟩ := and_split h012
  obtain ⟨h0, h1⟩ := and_split h01
  exact ⟨real_of_all bcast_S_S2x2048x256 reducesTo_S2x2048x256_S_d0_1_2 h_S_ a0 h0,
    real_of_all bcast_S_S3x2048x2048 reducesTo_S3x2048x2048_S_d0_1_2 h_S_ a1 h1,
    real_of_all bcast_S_S3x2048x2048 reducesTo_S3x2048x2048_S_d0_1_2 h_S_ a2 h2,
    real_of_all bcast_S_S3x256x256 reducesTo_S3x256x256_S_d0_1_2 h_S_ a3 h3,
    real_of_all bcast_S_S1x256 reducesTo_S1x256_S_d0_1 h_S_ a4 h4⟩

end Cert.GraphConvFinite
-- ==== Proof.RefSpec.lean ====
/-
  The reference is the specification, on real entries.

  The reference's real result at row `r`, column `q` is the sum over the three orders, from zero, of the orders' real
  terms at `(r, q)`, plus the bias at column `q`; the specification joins the bias after the order-0 term and then
  adds the order-1 and order-2 terms. Each order's term agrees with the specification's on real entries (associativity
  of the matrix products and distributivity), and the two ways of adding the four summands agree because addition on
  the extended reals is commutative and associative. The imaginary result is the same with half 1 of the stack.
  Under the finiteness precondition every entry is real, so both equalities hold under it.
-/
import proofs.«171784_g38809324486710_cont_sun_c4_445_3_alg».proof.Proof.RefTerms
import proofs.«171784_g38809324486710_cont_sun_c4_445_3_alg».proof.Proof.RefStack
import proofs.«171784_g38809324486710_cont_sun_c4_445_3_alg».proof.Proof.FiniteInputs

namespace Cert.GraphConvRef

open Cert.ReferenceIdeal Cert.ReferenceIdeal.Gen Cert.ReferenceIdeal.Read Idealize.ShloMosaic Idealize.ShloMosaic.ValueIdx
open Cert.GraphConvAlgebra Cert.GraphConvSpec

/-- The reference's first result (the real part) is the specification's `convRe`, where the node features, both
    operator parts and the weights have real entries. -/
theorem ref_re_eq (x0 : (⟨S2x2048x256, .f32⟩ : BufTy).Contents (Elt Ideal)) (x1 x2 : (⟨S3x2048x2048, .f32⟩ : BufTy).Contents (Elt Ideal)) (x3 : (⟨S3x256x256, .f32⟩ : BufTy).Contents (Elt Ideal))
    (x4 : (⟨S1x256, .f32⟩ : BufTy).Contents (Elt Ideal))
    (h0 : ∀ i, ∃ t : ℝ, x0 i = (t : EReal)) (h1 : ∀ i, ∃ t : ℝ, x1 i = (t : EReal)) (h2 : ∀ i, ∃ t : ℝ, x2 i = (t : EReal)) (h3 : ∀ i, ∃ t : ℝ, x3 i = (t : EReal)) :
    val_main_v77 (F := Ideal) x0 x1 x2 x3 x4 = convRe x0 x1 x2 x3 x4 := by
  funext i
  obtain ⟨r, q, rfl⟩ : ∃ (r : Fin 2048) (q : Fin 256), i = ix2 r q := ⟨i 0, i 1, eq_ix2 i⟩
  have ei : idx_main_v72 (idx_main_v73 (ix2 r q)) = ix3 0 r q := funext fun a => Fin.ext (by
    have hr : r.val < 2048 := r.isLt
    have hq : q.val < 256 := q.isLt
    match a with
    | ⟨0, _⟩ => rfl
    | ⟨1, _⟩ => show (r.val * 256 + q.val) / 256 % 2048 = r.val; omega
    | ⟨2, _⟩ => show (r.val * 256 + q.val) % 256 = q.val; omega)
  have eb : idx_main_v76 (ix2 r q) = ix2 0 q :=
    funext fun a => Fin.ext (by match a with | ⟨0, _⟩ => rfl | ⟨1, _⟩ => rfl)
  rw [val_main_v77_apply, val_main_v73_apply, val_main_v72_apply, val_main_v76_apply, ei, eb, stacked_sum_at,
    pair0_re, pair1_re, pair2_re, re0_spec x0 x1 x2 x3 h0 h1 h2 h3, re1_spec x0 x1 x2 x3 h0 h1 h2 h3,
    re2_spec x0 x1 x2 x3 h0 h1 h2 h3]
  exact sum_three_add _ _ _ _ _ Ideal.ofBits_zero_f32

/-- The reference's second result (the imaginary part) is the specification's `convIm`, on the same entries. -/
theorem ref_im_eq (x0 : (⟨S2x2048x256, .f32⟩ : BufTy).Contents (Elt Ideal)) (x1 x2 : (⟨S3x2048x2048, .f32⟩ : BufTy).Contents (Elt Ideal)) (x3 : (⟨S3x256x256, .f32⟩ : BufTy).Contents (Elt Ideal))
    (x4 : (⟨S1x256, .f32⟩ : BufTy).Contents (Elt Ideal))
    (h0 : ∀ i, ∃ t : ℝ, x0 i = (t : EReal)) (h1 : ∀ i, ∃ t : ℝ, x1 i = (t : EReal)) (h2 : ∀ i, ∃ t : ℝ, x2 i = (t : EReal)) (h3 : ∀ i, ∃ t : ℝ, x3 i = (t : EReal)) :
    val_main_v79 (F := Ideal) x0 x1 x2 x3 x4 = convIm x0 x1 x2 x3 x4 := by
  funext i
  obtain ⟨r, q, rfl⟩ : ∃ (r : Fin 2048) (q : Fin 256), i = ix2 r q := ⟨i 0, i 1, eq_ix2 i⟩
  have ei : idx_main_v74 (idx_main_v75 (ix2 r q)) = ix3 1 r q := funext fun a => Fin.ext (by
    have hr : r.val < 2048 := r.isLt
    have hq : q.val < 256 := q.isLt
    match a with
    | ⟨0, _⟩ => rfl
    | ⟨1, _⟩ => show (r.val * 256 + q.val) / 256 % 2048 = r.val; omega
    | ⟨2, _⟩ => show (r.val * 256 + q.val) % 256 = q.val; omega)
  have eb : idx_main_v78 (ix2 r q) = ix2 0 q :=
    funext fun a => Fin.ext (by match a with | ⟨0, _⟩ => rfl | ⟨1, _⟩ => rfl)
  rw [val_main_v79_apply, val_main_v75_apply, val_main_v74_apply, val_main_v78_apply, ei, eb, stacked_sum_at,
    pair0_im, pair1_im, pair2_im, im0_spec x0 x1 x2 x3 h0 h1 h2 h3, im1_spec x0 x1 x2 x3 h0 h1 h2 h3,
    im2_spec x0 x1 x2 x3 h0 h1 h2 h3]
  exact sum_three_add _ _ _ _ _ Ideal.ofBits_zero_f32

section
variable [Cert.Pre_finite_inputs.Facts]

/-- Under the finiteness precondition the reference's real result is `convRe`. -/
theorem ref_re_of_finite (x0 : (⟨S2x2048x256, .f32⟩ : BufTy).Contents (Elt Ideal)) (x1 x2 : (⟨S3x2048x2048, .f32⟩ : BufTy).Contents (Elt Ideal)) (x3 : (⟨S3x256x256, .f32⟩ : BufTy).Contents (Elt Ideal))
    (x4 : (⟨S1x256, .f32⟩ : BufTy).Contents (Elt Ideal))
    (h : Cert.Pre_finite_inputs.fn (F := Ideal) x0 x1 x2 x3 x4 = (fun _ => 1#1)) :
    val_main_v77 (F := Ideal) x0 x1 x2 x3 x4 = convRe x0 x1 x2 x3 x4 := by
  obtain ⟨h0, h1, h2, h3, _⟩ := Cert.GraphConvFinite.real_inputs x0 x1 x2 x3 x4 h
  exact ref_re_eq x0 x1 x2 x3 x4 h0 h1 h2 h3

/-- Under the finiteness precondition the reference's imaginary result is `convIm`. -/
theorem ref_im_of_finite (x0 : (⟨S2x2048x256, .f32⟩ : BufTy).Contents (Elt Ideal)) (x1 x2 : (⟨S3x2048x2048, .f32⟩ : BufTy).Contents (Elt Ideal)) (x3 : (⟨S3x256x256, .f32⟩ : BufTy).Contents (Elt Ideal))
    (x4 : (⟨S1x256, .f32⟩ : BufTy).Contents (Elt Ideal))
    (h : Cert.Pre_finite_inputs.fn (F := Ideal) x0 x1 x2 x3 x4 = (fun _ => 1#1)) :
    val_main_v79 (F := Ideal) x0 x1 x2 x3 x4 = convIm x0 x1 x2 x3 x4 := by
  obtain ⟨h0, h1, h2, h3, _⟩ := Cert.GraphConvFinite.real_inputs x0 x1 x2 x3 x4 h
  exact ref_im_eq x0 x1 x2 x3 x4 h0 h1 h2 h3
end

end Cert.GraphConvRef
-- ==== Proof.lean ====
/-
  A fused complex graph convolution against its plain formulation.

  The kernel computes, for a graph of 2048 nodes with 256 features, three orders of operators
  (real parts Lr_k, imaginary parts Li_k), weights W_k and a bias row b,

      real = Σ_k (Lr_k·(X_re·W_k) − Li_k·(X_im·W_k)) + b,   imag = Σ_k (Li_k·(X_re·W_k) + Lr_k·(X_im·W_k)) + b,

  row tile by row tile, the order innermost: the six products X_h·W_k are formed once, at the first
  grid point, and kept; every point multiplies the tile's rows of the two operators of its order with
  them and adds the result to the tile's two accumulators, which start from the bias at order 0.
  The reference forms (L_k·X_h)·W_k, negates the Li·X_im term by a product with −1, stacks and sums
  the three orders and adds the bias.  On real entries — which the precondition grants — the two
  are one function by associativity of the matrix product and distributivity (the reference side),
  and the kernel's arrays hold the specification's sums index by index (the kernel side).

  The three frames: both readings of the kernel run through the pipeline with the body's three cases
  (fill, store, accumulate) at every point; the reference's frame is its run with the results dropped.
  The idealization rewrote nothing, so `preserves` is trivial.
-/
import proofs.«171784_g38809324486710_cont_sun_c4_445_3_alg».proof.Defs
import proofs.«171784_g38809324486710_cont_sun_c4_445_3_alg».proof.Proof.Gen.Kernel
import proofs.«171784_g38809324486710_cont_sun_c4_445_3_alg».proof.Proof.Gen.Kernel.Skeleton
import proofs.«171784_g38809324486710_cont_sun_c4_445_3_alg».proof.Proof.Gen.Kernel.Launch
import proofs.«171784_g38809324486710_cont_sun_c4_445_3_alg».proof.Proof.Gen.Kernel.Points
import proofs.«171784_g38809324486710_cont_sun_c4_445_3_alg».proof.Proof.Gen.Kernel.Frame
import proofs.«171784_g38809324486710_cont_sun_c4_445_3_alg».proof.Proof.Gen.KernelIdeal
import proofs.«171784_g38809324486710_cont_sun_c4_445_3_alg».proof.Proof.Gen.KernelIdeal.Skeleton
import proofs.«171784_g38809324486710_cont_sun_c4_445_3_alg».proof.Proof.Gen.KernelIdeal.Launch
import proofs.«171784_g38809324486710_cont_sun_c4_445_3_alg».proof.Proof.Gen.KernelIdeal.Points
import proofs.«171784_g38809324486710_cont_sun_c4_445_3_alg».proof.Proof.Gen.KernelIdeal.Frame
import proofs.«171784_g38809324486710_cont_sun_c4_445_3_alg».proof.Proof.Gen.ReferenceIdeal
import proofs.«171784_g38809324486710_cont_sun_c4_445_3_alg».proof.Proof.Gen.Pre_finite_inputs
import proofs.«171784_g38809324486710_cont_sun_c4_445_3_alg».proof.Proof.Gen.ReferenceIdeal.Run
import proofs.«171784_g38809324486710_cont_sun_c4_445_3_alg».proof.Proof.Gen.ReferenceIdeal.Read
import proofs.«171784_g38809324486710_cont_sun_c4_445_3_alg».proof.Proof.K.Body
import proofs.«171784_g38809324486710_cont_sun_c4_445_3_alg».proof.Proof.KI.Value
import proofs.«171784_g38809324486710_cont_sun_c4_445_3_alg».proof.Proof.RefSpec
import Idealize.ShloMosaic.Adequacy
import Idealize.ShloMosaic.Init

noncomputable section

namespace Cert.Proof

open Idealize.ShloMosaic Idealize.SL.Sem

section Claims
variable [hKernel : Cert.Kernel.Facts] [hKernelIdeal : Cert.KernelIdeal.Facts] [hReferenceIdeal : Cert.ReferenceIdeal.Facts] [hPre : Cert.Pre_finite_inputs.Facts]

theorem frame_k : Cert.frame_Kernel := fun m ρ _ => Cert.Kernel.Body.frame (F := Bits) m ρ

theorem frame_ki : Cert.frame_KernelIdeal := fun m ρ _ => Cert.KernelIdeal.Body.frame (F := Ideal) m ρ

theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end with the specification's two arrays of arguments that agree: the kernel
    by its tiles' accumulation, the reference by the re-association its real entries allow. -/
theorem algebraic : Cert.algebraic_KernelIdeal_ReferenceIdeal := by
  intro m ρ m' ρ' hpre hagree
  refine ⟨fun c => Cert.KernelIdeal.Val.resRe m c, fun c => Cert.KernelIdeal.Val.resIm m c, Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v77_eq, (hagree c).1, (hagree c).2.1, (hagree c).2.2.1, (hagree c).2.2.2.1, (hagree c).2.2.2.2,
      Cert.GraphConvRef.ref_re_of_finite _ _ _ _ _ (hpre c)]
  · rw [Cert.ReferenceIdeal.Read.val_main_v79_eq, (hagree c).1, (hagree c).2.1, (hagree c).2.2.1, (hagree c).2.2.2.1, (hagree c).2.2.2.2,
      Cert.GraphConvRef.ref_im_of_finite _ _ _ _ _ (hpre c)]

end Claims

theorem claim : Cert.Claim :=
  ⟨Cert.Kernel.Gen.facts, Cert.KernelIdeal.Gen.facts, Cert.ReferenceIdeal.Gen.facts, Cert.Pre_finite_inputs.Gen.facts,
    frame_k (hKernel := Cert.Kernel.Gen.facts) (hPre := Cert.Pre_finite_inputs.Gen.facts),
    frame_ki (hKernelIdeal := Cert.KernelIdeal.Gen.facts) (hPre := Cert.Pre_finite_inputs.Gen.facts),
    frame_ri (hReferenceIdeal := Cert.ReferenceIdeal.Gen.facts) (hPre := Cert.Pre_finite_inputs.Gen.facts),
    trivial,
    algebraic (hKernelIdeal := Cert.KernelIdeal.Gen.facts) (hReferenceIdeal := Cert.ReferenceIdeal.Gen.facts) (hPre := Cert.Pre_finite_inputs.Gen.facts)⟩

end Cert.Proof

end
